-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x1 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S10000x128 : Shape := ⟨2, ![10000, 128]⟩
abbrev S10000x1 : Shape := ⟨2, ![10000, 1]⟩
abbrev S10000x64 : Shape := ⟨2, ![10000, 64]⟩
abbrev S1700000x64 : Shape := ⟨2, ![1700000, 64]⟩
abbrev S1x64 : Shape := ⟨2, ![1, 64]⟩
abbrev S1x1 : Shape := ⟨2, ![1, 1]⟩

abbrev nBuf : Space → Nat
  | .hbm => 83
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .bf16⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000x64, .bf16⟩
  | .hbm, ⟨42, _⟩ => ⟨S1700000x64, .f32⟩
  | .hbm, ⟨43, _⟩ => ⟨S_, .f32⟩
  | .hbm, ⟨44, _⟩ => ⟨S100000x64, .f32⟩
  | .hbm, ⟨45, _⟩ => ⟨S1700000x1, .i32⟩
  | .hbm, ⟨46, _⟩ => ⟨S100000x64, .f32⟩
  | .hbm, ⟨47, _⟩ => ⟨S1x64, .f32⟩
  | .hbm, ⟨48, _⟩ => ⟨S100000x64, .bf16⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .bf16⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .bf16⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x64, .bf16⟩
  | .hbm, ⟨74, _⟩ => ⟨S1700000x64, .f32⟩
  | .hbm, ⟨75, _⟩ => ⟨S_, .f32⟩
  | .hbm, ⟨76, _⟩ => ⟨S100000x64, .f32⟩
  | .hbm, ⟨77, _⟩ => ⟨S1700000x1, .i32⟩
  | .hbm, ⟨78, _⟩ => ⟨S100000x64, .f32⟩
  | .hbm, ⟨79, _⟩ => ⟨S1x64, .f32⟩
  | .hbm, ⟨80, _⟩ => ⟨S1x1, .f32⟩
  | .hbm, ⟨81, _⟩ => ⟨S100000x1, .f32⟩
  | .hbm, ⟨82, _⟩ => ⟨S100000, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x1, .f32⟩
  | .local _ .vmem, ⟨4, _⟩ => ⟨S10000x1, .f32⟩
  | .local _ .vmem, ⟨5, _⟩ => ⟨S10000x64, .bf16⟩
  | .local _ .vmem, ⟨6, _⟩ => ⟨S10000x64, .bf16⟩
  | .local _ .vmem, ⟨7, _⟩ => ⟨S10000x64, .f32⟩
  | .local _ .vmem, ⟨8, _⟩ => ⟨S10000x64, .f32⟩
  | .local _ .vmem, ⟨9, _⟩ => ⟨S1x64, .f32⟩
  | .local _ .vmem, ⟨10, _⟩ => ⟨S64x64, .f32⟩
  | .local _ .vmem, ⟨11, _⟩ => ⟨S10000x1, .f32⟩
  | .local _ .vmem, ⟨12, _⟩ => ⟨S10000x1, .f32⟩
  | .local _ .vmem, ⟨13, _⟩ => ⟨S10000x64, .bf16⟩
  | .local _ .vmem, ⟨14, _⟩ => ⟨S10000x64, .bf16⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S64x64, .f32⟩
  | .local _ .vmem, ⟨19, _⟩ => ⟨S10000x1, .f32⟩
  | .local _ .vmem, ⟨20, _⟩ => ⟨S10000x1, .f32⟩
  | .local _ .vmem, ⟨21, _⟩ => ⟨S10000x64, .bf16⟩
  | .local _ .vmem, ⟨22, _⟩ => ⟨S10000x64, .bf16⟩
  | .local _ .vmem, ⟨23, _⟩ => ⟨S10000x64, .f32⟩
  | .local _ .vmem, ⟨24, _⟩ => ⟨S10000x64, .f32⟩
  | .local _ .vmem, ⟨25, _⟩ => ⟨S1x64, .f32⟩
  | .local _ .vmem, ⟨26, _⟩ => ⟨S10000x1, .f32⟩
  | .local _ .vmem, ⟨27, _⟩ => ⟨S10000x1, .f32⟩
  | .local _ .vmem, ⟨28, _⟩ => ⟨S64x1, .f32⟩
  | .local _ .vmem, ⟨29, _⟩ => ⟨S1x1, .f32⟩
  | .local _ .vmem, ⟨30, _⟩ => ⟨S10000x1, .f32⟩
  | .local _ .vmem, ⟨31, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  shapeCasts_S100000x1_S100000 : S100000x1.ShapeCasts S100000
  scatter_S100000_S1700000x1_S1700000_n_0_0_1_wf : ScatterDims.WF S100000 S1700000x1 S1700000 [] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .bf16 = 32 ∨ (Rect.block (s := S100000x64) S10000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .bf16 = 32 ∨ (Rect.block (s := S100000x64) S10000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S100000x1.size a
  hwx2_3 : ∀ i : grid2.Coords, EltTy.bits .f32 = 32 ∨ (Rect.block (s := S100000x1) S10000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .bf16 = 32 ∨ (Rect.block (s := S100000x64) S10000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1.size a ≤ S64x1.size a
  hwx3_3 : ∀ i : grid3.Coords, EltTy.bits .f32 = 32 ∨ (Rect.block (s := S64x1) S64x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x1.size a ≤ S100000x1.size a
  hwx3_5 : ∀ i : grid3.Coords, EltTy.bits .f32 = 32 ∨ (Rect.block (s := S100000x1) S10000x1.size (cc3_transform_5 i) (hinb3_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S10000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S10000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v42) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v53) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S64x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S10000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 162
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x1, .f32⟩
  | 9 => ⟨S1, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S100000x64, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000, .f32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x64, .f32⟩
  | 102 => ⟨S1700000x1, .f32⟩
  | 103 => ⟨S1700000x64, .f32⟩
  | 104 => ⟨S1700000x64, .f32⟩
  | 105 => ⟨S_, .f32⟩
  | 106 => ⟨S100000x64, .f32⟩
  | 107 => ⟨S1700000x1, .i32⟩
  | 108 => ⟨S100000x64, .f32⟩
  | 109 => ⟨S1x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S100000x64, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000, .f32⟩
  | 125 => ⟨S_, .i32⟩
  | 126 => ⟨S1700000, .i32⟩
  | 127 => ⟨S1700000, .i1⟩
  | _ => ⟨S100000x128, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000, .f32⟩
  | 6 => ⟨S1700000, .f32⟩
  | 7 => ⟨S_, .i32⟩
  | 8 => ⟨S1700000, .i32⟩
  | 9 => ⟨S1700000, .i1⟩
  | 10 => ⟨S_, .i32⟩
  | 11 => ⟨S1700000, .i32⟩
  | 12 => ⟨S1700000, .i32⟩
  | 13 => ⟨S1700000, .i32⟩
  | 14 => ⟨S1700000x1, .i32⟩
  | 15 => ⟨S1700000x64, .f32⟩
  | 16 => ⟨S1700000x1, .f32⟩
  | 17 => ⟨S1700000x64, .f32⟩
  | 18 => ⟨S1700000x64, .f32⟩
  | 19 => ⟨S_, .f32⟩
  | 20 => ⟨S100000x64, .f32⟩
  | 21 => ⟨S1700000x1, .i32⟩
  | 22 => ⟨S100000x64, .f32⟩
  | 23 => ⟨S1x64, .f32⟩
  | 24 => ⟨S100000x64, .f32⟩
  | 25 => ⟨S100000x64, .f32⟩
  | 26 => ⟨S_, .f32⟩
  | 27 => ⟨S100000x64, .f32⟩
  | 28 => ⟨S100000x64, .f32⟩
  | 29 => ⟨S100000x1, .f32⟩
  | 30 => ⟨S1x1, .f32⟩
  | 31 => ⟨S100000x1, .f32⟩
  | 32 => ⟨S100000x1, .f32⟩
  | 33 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_15 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call2_cst : Ref sig .tc := ⟨.hbm, 112, rfl⟩
abbrev main_call2_v0 : Ref sig .tc := ⟨.hbm, 113, rfl⟩
abbrev main_v80 : Ref sig .tc := ⟨.hbm, 114, rfl⟩
abbrev main_v81 : Ref sig .tc := ⟨.hbm, 115, rfl⟩
abbrev main_c_16 : Ref sig .tc := ⟨.hbm, 116, rfl⟩
abbrev main_v82 : Ref sig .tc := ⟨.hbm, 117, rfl⟩
abbrev main_v83 : Ref sig .tc := ⟨.hbm, 118, rfl⟩
abbrev main_c_17 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_18 : Ref sig .tc := ⟨.hbm, 125, rfl⟩
abbrev main_v89 : Ref sig .tc := ⟨.hbm, 126, rfl⟩
abbrev main_v90 : Ref sig .tc := ⟨.hbm, 127, rfl⟩
abbrev main_c_19 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_c_20 : Ref sig .tc := ⟨.hbm, 135, rfl⟩
abbrev main_v97 : Ref sig .tc := ⟨.hbm, 136, rfl⟩
abbrev main_v98 : Ref sig .tc := ⟨.hbm, 137, rfl⟩
abbrev main_c_21 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_22 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_call3_cst : Ref sig .tc := ⟨.hbm, 154, rfl⟩
abbrev main_call3_v0 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  dot_S100000x128_S128x64_S100000x64_1_0_0_1_n_n_wf : DotDims.WF S100000x128 S128x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The kernel's run with its result named.

  The program is eleven segments: stretches of host operations and four grids of row blocks. Its buffers at each
  segment boundary are a fold from the launch memory (a host stretch applies its operations; a grid leaves each of its
  output arrays at what its blocks wrote back and every other buffer as entered). Every weakly fair execution ends with
  every unscoped buffer at the last fold; read at the result buffer that is the program's value, and read at an argument
  it is the launch contents, since nothing writes an argument.
-/
import proofs.«181710_j67044439491025_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last fold's contents and
    the argument arrays as launched. -/
theorem run_result : θ_run defs (onTc (τ := τ) (main (F := F))) ⟨m, fun _ => 0, ρ⟩ (fun r => ∀ c : Dev nD,
      r.2.mem ((c.tc : Thread nD τ).loc main_v57) = W11 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v57 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.RunValue

end
-- ==== Proof.Spec.lean ====
/-
  The network both programs compute, as functions of the argument arrays over the extended reals.

  A graph of 100000 nodes carries 1700000 directed edges `e` (the 1600000 given ones followed by one self loop per
  node), each with a source `s e` and a destination `t e`, both 32-bit words. A word is read as a SIGNED node id.
  * A row GATHER at a word `v` reads row `clamp (wrap v)`, where `wrap v = v + 100000` for `v < 0` and `v` otherwise,
    and `clamp` brings the signed value into `[0, 99999]`.
  * A SEGMENT SUM at destination words `t` adds update `e` into row `t e` exactly when `0 ≤ t e < 100000` as a signed
    value; every other update is dropped.
  The degree of node `i` is the number of edges landing on it, `dinv i` is `deg i ^ (-1/2)` where the degree is
  positive and `0` elsewhere: a real number in `[0, ∞)` whatever the words are.

  One convolution maps node features `h` to `relu (Σ_{e lands on i} (h W)[s e] · (dinv[s e] · dinv[t e]) + b)`.
  * `aggR` is that sum as written: every gathered row is scaled by the product of the two factors, then summed.
  * `aggK` is the factored arrangement: the rows are scaled by `dinv` of their own node BEFORE the gather
    (`proj0`, `projH`: the dense product of a row block times the weights, times the node's factor), summed unscaled, and
    the sum is scaled by `dinv i` afterwards (`hid`).
  The two agree because an update lands on row `i` only when its destination word IS `i` (so the gathered
  destination factor is `dinv i`), and because multiplying by a real in `[0, ∞)` distributes over a sum of extended reals.
-/
import proofs.«181710_j67044439491025_2_alg».proof.Proof.Gen.ReferenceIdeal
import Idealize.ShloMosaic.PureOps.Ideal
import Idealize.ShloMosaic.Lib.ValueIdx

noncomputable section

namespace Cert.Gcn

open Idealize.ShloMosaic Idealize.ShloMosaic.ValueIdx Cert.ReferenceIdeal Cert.ReferenceIdeal.Facts₀

/-- The word `+0.0`, which both programs clamp activations at and start every sum from. -/
abbrev z0 : EReal := Ideal.ofBits .f32 0x00000000#32

/-! ## The dense stages, entry by entry -/

/-- Row `r` of `x` times column `f` of `w`, scaled by node `r`'s factor (held as a column `dc`). -/
def proj0At (x : FVec Ideal S100000x128 .f32) (w : FVec Ideal S128x64 .f32) (dc : FVec Ideal S100000x1 .f32)
    (r : Fin 100000) (f : Fin 64) : EReal :=
  (∑ k : Fin 128, x (ix2 r k) * w (ix2 k f)) * dc (ix2 r (0 : Fin 1))

/-- The first layer's scaled projection, as one array. -/
def proj0 (x : FVec Ideal S100000x128 .f32) (w : FVec Ideal S128x64 .f32) (dc : FVec Ideal S100000x1 .f32) :
    FVec Ideal S100000x64 .bf16 := fun i => proj0At x w dc (i 0) (i 1)

/-- A hidden activation: the unscaled segment sum scaled by the node's factor, plus the bias, clamped at zero. -/
def hidAt (agg : FVec Ideal S100000x64 .f32) (b : FVec Ideal S1x64 .f32) (dc : FVec Ideal S100000x1 .f32)
    (r : Fin 100000) (k : Fin 64) : EReal :=
  max (agg (ix2 r k) * dc (ix2 r (0 : Fin 1)) + b (ix2 (0 : Fin 1) k)) z0

/-- A later layer's scaled projection: row `r` of the hidden activations times column `f` of `w`, scaled by node `r`'s factor. -/
def projHAt (agg : FVec Ideal S100000x64 .f32) (b : FVec Ideal S1x64 .f32) (w : FVec Ideal S64x64 .f32)
    (dc : FVec Ideal S100000x1 .f32) (r : Fin 100000) (f : Fin 64) : EReal :=
  (∑ k : Fin 64, hidAt agg b dc r k * w (ix2 k f)) * dc (ix2 r (0 : Fin 1))

def projH (agg : FVec Ideal S100000x64 .f32) (b : FVec Ideal S1x64 .f32) (w : FVec Ideal S64x64 .f32)
    (dc : FVec Ideal S100000x1 .f32) : FVec Ideal S100000x64 .bf16 := fun i => projHAt agg b w dc (i 0) (i 1)

/-- The readout: row `r` of the last hidden activations times the one output column, plus the output bias. -/
def readoutAt (agg : FVec Ideal S100000x64 .f32) (b : FVec Ideal S1x64 .f32) (dc : FVec Ideal S100000x1 .f32)
    (wo : FVec Ideal S64x1 .f32) (bo : FVec Ideal S1x1 .f32) (r : Fin 100000) : EReal :=
  (∑ k : Fin 64, hidAt agg b dc r k * wo (ix2 k (0 : Fin 1))) + bo (ix2 (0 : Fin 1) (0 : Fin 1))

def readout (agg : FVec Ideal S100000x64 .f32) (b : FVec Ideal S1x64 .f32) (dc : FVec Ideal S100000x1 .f32)
    (wo : FVec Ideal S64x1 .f32) (bo : FVec Ideal S1x1 .f32) : FVec Ideal S100000x1 .f32 :=
  fun i => readoutAt agg b dc wo bo (i 0)

/-! ## The edge lists and the degree factor, as the host computes them -/

/-- The source words: row 0 of the given edge array, then one self loop per node (the node's own id). -/
def srcOf (a1 : IVec S2x1600000 32) : IVec S1700000 32 :=
  concatenate S1700000 0
    [⟨S1600000, shapeCast S1600000 (extractStridedSlice S1x1600000 ![0, 0] a1 slices_S2x1600000_S1x1600000_0_0) shapeCasts_S1x1600000_S1600000⟩,
     ⟨S100000, iotaInDim S100000 32 0⟩] concatenates_S1600000_S100000_S1700000_d0

/-- The destination words: row 1 of the given edge array, then one self loop per node. -/
def dstOf (a1 : IVec S2x1600000 32) : IVec S1700000 32 :=
  concatenate S1700000 0
    [⟨S1600000, shapeCast S1600000 (extractStridedSlice S1x1600000 ![1, 0] a1 slices_S2x1600000_S1x1600000_1_0) shapeCasts_S1x1600000_S1600000⟩,
     ⟨S100000, iotaInDim S100000 32 0⟩] concatenates_S1600000_S100000_S1700000_d0

section Edges
variable (srcv dstv : IVec S1700000 32)

/-- A word read as jnp reads a possibly negative index: `v + 100000` where `v < 0`. -/
def wrap (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- A list of words as the one-column index array gather and scatter take. -/
def col (v : IVec S1700000 32) : IVec S1700000x1 32 := broadcastInDim S1700000x1 ![0] bcast_S1700000_S1700000x1_0 v

def zerosN : FVec Ideal S100000 .f32 := broadcastInDim S100000 ![] bcast_S_S100000 (constant (F := Ideal) S_ .f32 0x00000000#32)
def zerosN64 : FVec Ideal S100000x64 .f32 :=
  broadcastInDim S100000x64 ![] bcast_S_S100000x64 (constant (F := Ideal) S_ .f32 0x00000000#32)

/-- The number of edges landing on each node. -/
def deg : FVec Ideal S100000 .f32 :=
  Host.scatterAdd (F := Ideal) scatter_S100000_S1700000x1_S1700000_n_0_0_1 zerosN (col dstv)
    (broadcastInDim S1700000 ![] bcast_S_S1700000 (constant (F := Ideal) S_ .f32 0x3F800000#32))

/-- `deg ^ (-1/2)` where the degree is positive, `0` elsewhere. -/
def dinv : FVec Ideal S100000 .f32 :=
  select (cmpf (F := Ideal) .ogt (deg dstv) zerosN) (Host.rsqrt (F := Ideal) (deg dstv))
    (broadcastInDim S100000 ![] bcast_S_S100000 (constant (F := Ideal) S_ .f32 0x00000000#32))

/-- Per edge, the product of the source's and the destination's factor. -/
def normv : FVec Ideal S1700000 .f32 :=
  mulf (Host.gather gather_S100000_S1700000x1_S1700000_n_0_n_n_0_1_1 (dinv dstv) (col (wrap srcv)))
    (Host.gather gather_S100000_S1700000x1_S1700000_n_0_n_n_0_1_1 (dinv dstv) (col (wrap dstv)))

/-- The aggregation as the reference writes it: gathered rows scaled edge by edge, then summed per destination. -/
def aggR (A : FVec Ideal S100000x64 .f32) : FVec Ideal S100000x64 .f32 :=
  Host.scatterAdd (F := Ideal) scatter_S100000x64_S1700000x1_S1700000x64_1_0_0_1 zerosN64 (col dstv)
    (mulf (Host.gather gather_S100000x64_S1700000x1_S1700000x64_1_0_n_n_0_1_164 A (col (wrap srcv)))
      (broadcastInDim S1700000x64 ![0, 1] bcast_S1700000x1_S1700000x64_0_1
        (broadcastInDim S1700000x1 ![0] bcast_S1700000_S1700000x1_0 (normv srcv dstv))))

/-- The aggregation as the kernel's host code writes it: gathered (already scaled) rows summed per destination. -/
def aggK (P : FVec Ideal S100000x64 .bf16) : FVec Ideal S100000x64 .f32 :=
  Host.scatterAdd (F := Ideal) scatter_S100000x64_S1700000x1_S1700000x64_1_0_0_1 zerosN64 (col dstv)
    (extf .f32 (Host.gather gather_S100000x64_S1700000x1_S1700000x64_1_0_n_n_0_1_164 P (col (wrap srcv))) (by decide))

/-! ## The two programs' results -/

/-- One convolution of the reference after its dense product `A`: aggregate, add the bias, clamp at zero. -/
def convR (A : FVec Ideal S100000x64 .f32) (b : FVec Ideal S64 .f32) : FVec Ideal S100000x64 .f32 :=
  maximumf (addf (aggR srcv dstv A)
      (broadcastInDim S100000x64 ![0, 1] bcast_S1x64_S100000x64_0_1 (broadcastInDim S1x64 ![1] bcast_S64_S1x64_1 b)))
    zerosN64

/-- The reference's result as a function of the edge lists and the float arguments. -/
def refOut (x : FVec Ideal S100000x128 .f32) (W1 : FVec Ideal S128x64 .f32) (b1 : FVec Ideal S64 .f32)
    (W2 : FVec Ideal S64x64 .f32) (b2 : FVec Ideal S64 .f32) (W3 : FVec Ideal S64x64 .f32) (b3 : FVec Ideal S64 .f32)
    (Wo : FVec Ideal S64x1 .f32) (bo : FVec Ideal S1 .f32) : FVec Ideal S100000 .f32 :=
  shapeCast S100000
    (addf
      (Host.dotGeneral (F := Ideal) dot_S100000x64_S64x1_S100000x1_1_0_0_1_n_n none
        (convR srcv dstv (Host.dotGeneral (F := Ideal) dot_S100000x64_S64x64_S100000x64_1_0_0_1_n_n none
          (convR srcv dstv (Host.dotGeneral (F := Ideal) dot_S100000x64_S64x64_S100000x64_1_0_0_1_n_n none
            (convR srcv dstv (Host.dotGeneral (F := Ideal) dot_S100000x128_S128x64_S100000x64_1_0_0_1_n_n none x W1) b1)
            W2) b2)
          W3) b3)
        Wo)
      (broadcastInDim S100000x1 ![0, 1] bcast_S1x1_S100000x1_0_1 (broadcastInDim S1x1 ![1] bcast_S1_S1x1_1 bo)))
    shapeCasts_S100000x1_S100000

/-- The node factor as the column the kernel's dense stages read. -/
def dcol : FVec Ideal S100000x1 .f32 := shapeCast S100000x1 (dinv dstv) (by decide)

/-- The kernel's result as a function of the edge lists and the float arguments. -/
def kernelOut (x : FVec Ideal S100000x128 .f32) (W1 : FVec Ideal S128x64 .f32) (b1 : FVec Ideal S64 .f32)
    (W2 : FVec Ideal S64x64 .f32) (b2 : FVec Ideal S64 .f32) (W3 : FVec Ideal S64x64 .f32) (b3 : FVec Ideal S64 .f32)
    (Wo : FVec Ideal S64x1 .f32) (bo : FVec Ideal S1 .f32) : FVec Ideal S100000 .f32 :=
  shapeCast S100000
    (readout
      (aggK srcv dstv (projH
        (aggK srcv dstv (projH
          (aggK srcv dstv (proj0 x W1 (dcol dstv)))
          (shapeCast S1x64 b1 (by decide)) W2 (dcol dstv)))
        (shapeCast S1x64 b2 (by decide)) W3 (dcol dstv)))
      (shapeCast S1x64 b3 (by decide)) (dcol dstv) Wo (shapeCast S1x1 bo (by decide)))
    shapeCasts_S100000x1_S100000

end Edges

end Cert.Gcn

end
-- ==== Proof.Region0.lean ====
/-
  Region 0 of the kernel, as a whole-array function.

  The first launch walks the 100000 node rows in 10 blocks of 10000. At a block it multiplies the block of the
  feature rows by the whole weight matrix (a sum over the 128 input features, accumulated from zero), and scales
  row `p` of the product by the node factor of that row. Row `p` of block `t` is row `t * 10000 + p` of the
  arrays, so what block `t` writes back is block `t` of ONE function of the arrays the launch finds: entry
  `(r, f)` is `(Σ_k x[r, k] · w[k, f]) · d[r]`. The ten blocks tile the rows, so the output array ends holding that
  function everywhere.
-/
import proofs.«181710_j67044439491025_2_alg».proof.Proof.Gen.KernelIdeal.Frame
import proofs.«181710_j67044439491025_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace R0

/-- The zero offsets of a whole-buffer access. -/
theorem hz : (![0, 0] : Fin 2 → Nat) = fun _ => 0 := funext fun a => by fin_cases a <;> rfl

/-- A product of an `M×K` by a `K×N` matrix accumulated from the zero splat, read at `(a, b)`: the sum over the
    contracted coordinate of the products of the entries. -/
theorem matmul_zero_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (F := Ideal) (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The block's payload at `(p, q)`: row `p` of the feature block times column `q` of the weights, scaled by the
    factor of row `p`. -/
theorem pay_apply (x : FVec Ideal S10000x128 .f32) (w : FVec Ideal S128x64 .f32) (dc : FVec Ideal S10000x1 .f32)
    (p : Fin 10000) (q : Fin 64) :
    k0_pay1 (F := Ideal) x w dc (ix2 p q) = (∑ k : Fin 128, x (ix2 p k) * w (ix2 k q)) * dc (ix2 p (0 : Fin 1)) := by
  unfold k0_pay1
  show matmul (F := Ideal) dot_S10000x128_S128x64_S10000x64_1_0_0_1_n_n none _ _ _ (ix2 p q)
      * broadcastTo S10000x64 (shapeCast S10000x1 dc shapeCasts_S10000x1_S10000x1) broadcasts_S10000x1_S10000x64 (ix2 p q) = _
  rw [shapeCast_self]
  refine congrArg₂ (· * ·) ?_ ?_
  · exact matmul_zero_apply _ none _ _ p q
  · exact broadcastTo_a1_ab_apply dc _ p q

section Blocks
variable (V : (c : Dev nD) → (b : Ref sig .tc) → Buf (Elt Ideal) ((c : Thread nD τ).loc b))

/-- Where the launch's blocks sit at grid point `t`: the row blocks at block row `t`, the weights at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of the feature block at point `t` is row `t * 10000 + p` of the feature array. -/
theorem blk_x (c : Dev nD) (t : Fin cfg0.N) (y : S10000x128.Idx) (i : S100000x128.Idx)
    (h0 : (i 0).val = t.val * 10000 + (y 0).val) (h1 : (i 1).val = (y 1).val) :
    (iblk0 V c 0 t : FVec Ideal S10000x128 .f32) y = (V c main_arg0 : FVec Ideal S100000x128 .f32) i := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The weight block at any point is the weight array. -/
theorem blk_w (c : Dev nD) (t : Fin cfg0.N) (y : S128x64.Idx) :
    (iblk0 V c 1 t : FVec Ideal S128x64 .f32) y = (V c main_arg2 : FVec Ideal S128x64 .f32) y := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 64 + 1 * (y 1).val = (y 1).val; rw [e1]; omega

/-- Row `p` of the factor block at point `t` is row `t * 10000 + p` of the factor column. -/
theorem blk_d (c : Dev nD) (t : Fin cfg0.N) (y : S10000x1.Idx) (i : S100000x1.Idx)
    (h0 : (i 0).val = t.val * 10000 + (y 0).val) (h1 : (i 1).val = (y 1).val) :
    (iblk0 V c 2 t : FVec Ideal S10000x1 .f32) y = (V c main_v15 : FVec Ideal S100000x1 .f32) i := by
  obtain ⟨-, -, -, -, e0, e1, -⟩ := idx_facts t
  unfold iblk0
  rw [View.read_apply]
  show V c main_v15 _ = V c main_v15 _
  congr 1
  funext a
  apply Fin.ext
  match a with
  | ⟨0, _⟩ => show win0_2.index t (0 : Fin 2) * 10000 + 1 * (y 0).val = (i 0).val; rw [e0, h0]; omega
  | ⟨1, _⟩ => show win0_2.index t (1 : Fin 2) * 1 + 1 * (y 1).val = (i 1).val; rw [e1, h1]; omega

/-- What point `t` computes at `(p, q)` is the whole-array function at row `t * 10000 + p`. -/
theorem point (c : Dev nD) (t : Fin cfg0.N) (p : Fin 10000) (q : Fin 64) (r : Fin 100000) (f : Fin 64)
    (hr : r.val = t.val * 10000 + p.val) (hf : f.val = q.val) :
    k0_pay1 (F := Ideal) (iblk0 V c 0 t) (iblk0 V c 1 t) (iblk0 V c 2 t) (ix2 p q)
      = Cert.Gcn.proj0At (V c main_arg0) (V c main_arg2) (V c main_v15) r f := by
  obtain rfl : f = q := Fin.ext hf
  refine (pay_apply _ _ _ p f).trans ?_
  unfold Cert.Gcn.proj0At
  refine congrArg₂ (· * ·) (Finset.sum_congr rfl fun k _ => congrArg₂ (· * ·) ?_ ?_) ?_
  · exact blk_x V c t (ix2 p k) (ix2 r k) hr rfl
  · exact blk_w V c t (ix2 k f)
  · exact blk_d V c t (ix2 p (0 : Fin 1)) (ix2 r (0 : Fin 1)) hr rfl

/-- WHAT POINT `t` WRITES BACK is block `t` of the whole-array function of the arrays the launch finds. -/
theorem flushed_eq (c : Dev nD) (t : Fin cfg0.N) :
    (dat0 (F := Ideal) V c).flushed 3 t = ((cfg0.win 3).blk t).view.read (Elt Ideal)
      (Cert.Gcn.proj0 (V c main_arg0) (V c main_arg2) (V c main_v15)) := by
  show (cfg0.win 3).cut (grid0.coords t) ((dat0 (F := Ideal) V c).after 3 t) = _
  rw [after0_3]
  unfold out0_3
  rw [View.canon_unit_zero hz]
  simp only [View.ld_unit_zero (S := S10000x128) hz, View.ld_unit_zero (S := S128x64) hz, View.ld_unit_zero (S := S10000x1) hz]
  obtain ⟨-, -, -, -, -, -, e0, e1⟩ := idx_facts t
  funext j
  obtain ⟨p, q, rfl⟩ : ∃ (p : Fin 10000) (q : Fin 64), j = ix2 p q := ⟨j 0, j 1, eq_ix2 (n0 := 10000) (n1 := 64) j⟩
  rw [View.read_apply]
  show k0_pay1 (F := Ideal) (iblk0 V c 0 t) (iblk0 V c 1 t) (iblk0 V c 2 t) (ix2 p q)
    = Cert.Gcn.proj0At (V c main_arg0) (V c main_arg2) (V c main_v15)
        ((((cfg0.win 3).blk t).view.emb (ix2 p q)) 0) ((((cfg0.win 3).blk t).view.emb (ix2 p q)) 1)
  refine point V c t p q _ _ ?_ ?_
  · show win0_3.index t (0 : Fin 2) * 10000 + 1 * p.val = _; rw [e0]; omega
  · show win0_3.index t (1 : Fin 2) * 64 + 1 * q.val = _; rw [e1]; omega

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v16).slice (win0_3.rect t)).set ↔ _
  rw [View.set_slice_whole, Rect.mem_set_unit]
  exact Iff.rfl

/-- Row `r` of the output is in the block of point `r / 10000`: the ten blocks tile the rows. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, -, -, e0, e1⟩ := idx_facts t
  have ht : t.val = (i 0).val / 10000 := rfl
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; rw [e0, ht]; omega
  | ⟨1, _⟩ => show win0_3.index t (1 : Fin 2) * 64 ≤ (i 1).val ∧ (i 1).val < win0_3.index t (1 : Fin 2) * 64 + 64; rw [e1]; omega

end Blocks

end R0

/-- THE OUTPUT ARRAY OF REGION 0 after its ten points, whatever the buffers hold when the launch is entered: the
    scaled projection of the feature array by the weights, every row scaled by its node's factor. -/
theorem final0 (V : (c : Dev nD) → (b : Ref sig .tc) → Buf (Elt Ideal) ((c : Thread nD τ).loc b)) (c : Dev nD) :
    (dat0 (F := Ideal) V c).arrAt 3 cfg0.N = Cert.Gcn.proj0 (V c main_arg0) (V c main_arg2) (V c main_v15) :=
  (dat0 (F := Ideal) V c).arrAt_eq_of_cover 3 (Cert.Gcn.proj0 (V c main_arg0) (V c main_arg2) (V c main_v15))
    (fun t _ => R0.flushed_eq V c t) R0.cover

end Cert.KernelIdeal.RegionValue

end
-- ==== Proof.Region1.lean ====
/-
  Region 1 of the kernel, as a whole-array function.

  The launch walks the 100000 node rows in 10 blocks of 10000. At a block it first forms the hidden activations of
  the block's rows — the unscaled aggregate scaled by the row's node factor, plus the bias row, clamped at zero —
  then multiplies them by the whole 64×64 weight matrix (a sum over the 64 hidden features, accumulated from zero)
  and scales row `p` of the product by the node factor of that row again. Row `p` of block `t` is row
  `t * 10000 + p` of the arrays, so what block `t` writes back is block `t` of ONE function of the arrays the launch
  finds: entry `(r, f)` is `(Σ_k max (g[r, k] · d[r] + b[k]) 0 · w[k, f]) · d[r]`. The ten blocks tile the rows, so
  the output array ends holding that function everywhere.
-/
import proofs.«181710_j67044439491025_2_alg».proof.Proof.Gen.KernelIdeal.Frame
import proofs.«181710_j67044439491025_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace R1

/-- The zero offsets of a whole-buffer access. -/
theorem hz : (![0, 0] : Fin 2 → Nat) = fun _ => 0 := funext fun a => by fin_cases a <;> rfl

/-- A product of an `M×K` by a `K×N` matrix accumulated from the zero splat, read at `(a, b)`: the sum over the
    contracted coordinate of the products of the entries. -/
theorem matmul_zero_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (F := Ideal) (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The block's payload at `(p, q)`: the hidden activations of row `p` times column `q` of the weights, scaled by
    the factor of row `p`. -/
theorem pay_apply (dc : FVec Ideal S10000x1 .f32) (g : FVec Ideal S10000x64 .f32) (b : FVec Ideal S1x64 .f32)
    (w : FVec Ideal S64x64 .f32) (p : Fin 10000) (q : Fin 64) :
    k1_pay1 (F := Ideal) dc g b w (ix2 p q)
      = (∑ k : Fin 64, max (g (ix2 p k) * dc (ix2 p (0 : Fin 1)) + b (ix2 (0 : Fin 1) k)) Cert.Gcn.z0 * w (ix2 k q))
          * dc (ix2 p (0 : Fin 1)) := by
  unfold k1_pay1
  show matmul (F := Ideal) dot_S10000x64_S64x64_S10000x64_1_0_0_1_n_n none _ _ _ (ix2 p q)
      * broadcastTo S10000x64 (shapeCast S10000x1 dc shapeCasts_S10000x1_S10000x1) broadcasts_S10000x1_S10000x64 (ix2 p q) = _
  refine congrArg₂ (· * ·) ?_ ?_
  · refine (matmul_zero_apply _ none _ _ p q).trans ?_
    refine Finset.sum_congr rfl fun k _ => ?_
    show max (shapeCast S10000x64 g shapeCasts_S10000x64_S10000x64 (ix2 p k)
          * broadcastTo S10000x64 (shapeCast S10000x1 dc shapeCasts_S10000x1_S10000x1) broadcasts_S10000x1_S10000x64 (ix2 p k)
          + broadcastTo S10000x64 (shapeCast S1x64 b shapeCasts_S1x64_S1x64) broadcasts_S1x64_S10000x64 (ix2 p k))
        (Ideal.ofBits .f32 0x00000000#32) * w (ix2 k q) = _
    rw [shapeCast_self, shapeCast_self, shapeCast_self]
    refine congrArg₂ (· * ·) (congrArg₂ max (congrArg₂ (· + ·) (congrArg₂ (· * ·) rfl ?_) ?_) rfl) rfl
    · exact broadcastTo_a1_ab_apply dc _ p k
    · exact broadcastTo_1b_ab_apply b _ p k
  · rw [shapeCast_self]
    exact broadcastTo_a1_ab_apply dc _ p q

section Blocks
variable (V : (c : Dev nD) → (b : Ref sig .tc) → Buf (Elt Ideal) ((c : Thread nD τ).loc b))

/-- Where the launch's blocks sit at grid point `t`: the row blocks at block row `t`, the bias row and the weights at
    their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row `p` of the aggregate block at point `t` is row `t * 10000 + p` of the aggregate array. -/
theorem blk_g (c : Dev nD) (t : Fin cfg1.N) (y : S10000x64.Idx) (i : S100000x64.Idx)
    (h0 : (i 0).val = t.val * 10000 + (y 0).val) (h1 : (i 1).val = (y 1).val) :
    (iblk1 V c 0 t : FVec Ideal S10000x64 .f32) y = (V c main_v27 : FVec Ideal S100000x64 .f32) i := by
  obtain ⟨e0, e1, -⟩ := idx_facts t
  unfold iblk1
  rw [View.read_apply]
  show V c main_v27 _ = V c main_v27 _
  congr 1
  funext a
  apply Fin.ext
  match a with
  | ⟨0, _⟩ => show win1_0.index t (0 : Fin 2) * 10000 + 1 * (y 0).val = (i 0).val; rw [e0, h0]; omega
  | ⟨1, _⟩ => show win1_0.index t (1 : Fin 2) * 64 + 1 * (y 1).val = (i 1).val; rw [e1, h1]; omega

/-- The bias block at any point is the bias row. -/
theorem blk_b (c : Dev nD) (t : Fin cfg1.N) (y : S1x64.Idx) :
    (iblk1 V c 1 t : FVec Ideal S1x64 .f32) y = (V c main_v28 : FVec Ideal S1x64 .f32) y := by
  obtain ⟨-, -, e0, e1, -⟩ := idx_facts t
  unfold iblk1
  rw [View.read_apply]
  show V c main_v28 _ = V c main_v28 _
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 64 + 1 * (y 1).val = (y 1).val; rw [e1]; omega

/-- The weight block at any point is the weight array. -/
theorem blk_w (c : Dev nD) (t : Fin cfg1.N) (y : S64x64.Idx) :
    (iblk1 V c 2 t : FVec Ideal S64x64 .f32) y = (V c main_arg4 : FVec Ideal S64x64 .f32) y := by
  obtain ⟨-, -, -, -, e0, e1, -⟩ := idx_facts t
  unfold iblk1
  rw [View.read_apply]
  show V c main_arg4 _ = V c main_arg4 _
  congr 1
  funext a
  apply Fin.ext
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- Row `p` of the factor block at point `t` is row `t * 10000 + p` of the factor column. -/
theorem blk_d (c : Dev nD) (t : Fin cfg1.N) (y : S10000x1.Idx) (i : S100000x1.Idx)
    (h0 : (i 0).val = t.val * 10000 + (y 0).val) (h1 : (i 1).val = (y 1).val) :
    (iblk1 V c 3 t : FVec Ideal S10000x1 .f32) y = (V c main_v15 : FVec Ideal S100000x1 .f32) i := by
  obtain ⟨-, -, -, -, -, -, e0, e1, -⟩ := idx_facts t
  unfold iblk1
  rw [View.read_apply]
  show V c main_v15 _ = V c main_v15 _
  congr 1
  funext a
  apply Fin.ext
  match a with
  | ⟨0, _⟩ => show win1_3.index t (0 : Fin 2) * 10000 + 1 * (y 0).val = (i 0).val; rw [e0, h0]; omega
  | ⟨1, _⟩ => show win1_3.index t (1 : Fin 2) * 1 + 1 * (y 1).val = (i 1).val; rw [e1, h1]; omega

/-- What point `t` computes at `(p, q)` is the whole-array function at row `t * 10000 + p`. -/
theorem point (c : Dev nD) (t : Fin cfg1.N) (p : Fin 10000) (q : Fin 64) (r : Fin 100000) (f : Fin 64)
    (hr : r.val = t.val * 10000 + p.val) (hf : f.val = q.val) :
    k1_pay1 (F := Ideal) (iblk1 V c 3 t) (iblk1 V c 0 t) (iblk1 V c 1 t) (iblk1 V c 2 t) (ix2 p q)
      = Cert.Gcn.projHAt (V c main_v27) (V c main_v28) (V c main_arg4) (V c main_v15) r f := by
  obtain rfl : f = q := Fin.ext hf
  refine (pay_apply _ _ _ _ p f).trans ?_
  unfold Cert.Gcn.projHAt Cert.Gcn.hidAt
  have hd : (iblk1 V c 3 t : FVec Ideal S10000x1 .f32) (ix2 p (0 : Fin 1))
      = (V c main_v15 : FVec Ideal S100000x1 .f32) (ix2 r (0 : Fin 1)) :=
    blk_d V c t (ix2 p (0 : Fin 1)) (ix2 r (0 : Fin 1)) hr rfl
  refine congrArg₂ (· * ·) (Finset.sum_congr rfl fun k _ => congrArg₂ (· * ·)
    (congrArg₂ max (congrArg₂ (· + ·) (congrArg₂ (· * ·) ?_ hd) ?_) rfl) ?_) hd
  · exact blk_g V c t (ix2 p k) (ix2 r k) hr rfl
  · exact blk_b V c t (ix2 (0 : Fin 1) k)
  · exact blk_w V c t (ix2 k f)

/-- WHAT POINT `t` WRITES BACK is block `t` of the whole-array function of the arrays the launch finds. -/
theorem flushed_eq (c : Dev nD) (t : Fin cfg1.N) :
    (dat1 (F := Ideal) V c).flushed 4 t = ((cfg1.win 4).blk t).view.read (Elt Ideal)
      (Cert.Gcn.projH (V c main_v27) (V c main_v28) (V c main_arg4) (V c main_v15)) := by
  show (cfg1.win 4).cut (grid1.coords t) ((dat1 (F := Ideal) V c).after 4 t) = _
  rw [after1_4]
  unfold out1_4
  rw [View.canon_unit_zero hz]
  simp only [View.ld_unit_zero (S := S10000x1) hz, View.ld_unit_zero (S := S10000x64) hz, View.ld_unit_zero (S := S1x64) hz,
    View.ld_unit_zero (S := S64x64) hz]
  obtain ⟨-, -, -, -, -, -, -, -, e0, e1⟩ := idx_facts t
  funext j
  obtain ⟨p, q, rfl⟩ : ∃ (p : Fin 10000) (q : Fin 64), j = ix2 p q := ⟨j 0, j 1, eq_ix2 (n0 := 10000) (n1 := 64) j⟩
  rw [View.read_apply]
  show k1_pay1 (F := Ideal) (iblk1 V c 3 t) (iblk1 V c 0 t) (iblk1 V c 1 t) (iblk1 V c 2 t) (ix2 p q)
    = Cert.Gcn.projHAt (V c main_v27) (V c main_v28) (V c main_arg4) (V c main_v15)
        ((((cfg1.win 4).blk t).view.emb (ix2 p q)) 0) ((((cfg1.win 4).blk t).view.emb (ix2 p q)) 1)
  refine point V c t p q _ _ ?_ ?_
  · show win1_4.index t (0 : Fin 2) * 10000 + 1 * p.val = _; rw [e0]; omega
  · show win1_4.index t (1 : Fin 2) * 64 + 1 * q.val = _; rw [e1]; omega

/-- An index of the output array is in point `t`'s block iff each coordinate is in the block's range on its axis. -/
theorem mem_blk (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v29).slice (win1_4.rect t)).set ↔ _
  rw [View.set_slice_whole, Rect.mem_set_unit]
  exact Iff.rfl

/-- Row `r` of the output is in the block of point `r / 10000`: the ten blocks tile the rows. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨-, -, -, -, -, -, -, -, e0, e1⟩ := idx_facts t
  have ht : t.val = (i 0).val / 10000 := rfl
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; rw [e0, ht]; omega
  | ⟨1, _⟩ => show win1_4.index t (1 : Fin 2) * 64 ≤ (i 1).val ∧ (i 1).val < win1_4.index t (1 : Fin 2) * 64 + 64; rw [e1]; omega

end Blocks

end R1

/-- THE OUTPUT ARRAY OF REGION 1 after its ten points, whatever the buffers hold when the launch is entered: the
    scaled projection of the hidden activations by the weights, every row scaled by its node's factor. -/
theorem final1 (V : (c : Dev nD) → (b : Ref sig .tc) → Buf (Elt Ideal) ((c : Thread nD τ).loc b)) (c : Dev nD) :
    (dat1 (F := Ideal) V c).arrAt 4 cfg1.N
      = Cert.Gcn.projH (V c main_v27) (V c main_v28) (V c main_arg4) (V c main_v15) :=
  (dat1 (F := Ideal) V c).arrAt_eq_of_cover 4
    (Cert.Gcn.projH (V c main_v27) (V c main_v28) (V c main_arg4) (V c main_v15))
    (fun t _ => R1.flushed_eq V c t) R1.cover

end Cert.KernelIdeal.RegionValue

end
-- ==== Proof.Region2.lean ====
/-
  Region 2 of the kernel, as a whole-array function.

  The launch walks the 100000 node rows in 10 blocks of 10000. At a block it first forms the hidden activations of
  the block's rows — the unscaled aggregate scaled by the row's node factor, plus the bias row, clamped at zero —
  then multiplies them by the whole 64×64 weight matrix (a sum over the 64 hidden features, accumulated from zero)
  and scales row `p` of the product by the node factor of that row again. Row `p` of block `t` is row
  `t * 10000 + p` of the arrays, so what block `t` writes back is block `t` of ONE function of the arrays the launch
  finds: entry `(r, f)` is `(Σ_k max (g[r, k] · d[r] + b[k]) 0 · w[k, f]) · d[r]`. The ten blocks tile the rows, so
  the output array ends holding that function everywhere.
-/
import proofs.«181710_j67044439491025_2_alg».proof.Proof.Gen.KernelIdeal.Frame
import proofs.«181710_j67044439491025_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace R2

/-- The zero offsets of a whole-buffer access. -/
theorem hz : (![0, 0] : Fin 2 → Nat) = fun _ => 0 := funext fun a => by fin_cases a <;> rfl

/-- A product of an `M×K` by a `K×N` matrix accumulated from the zero splat, read at `(a, b)`: the sum over the
    contracted coordinate of the products of the entries. -/
theorem matmul_zero_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (F := Ideal) (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The block's payload at `(p, q)`: the hidden activations of row `p` times column `q` of the weights, scaled by
    the factor of row `p`. -/
theorem pay_apply (dc : FVec Ideal S10000x1 .f32) (g : FVec Ideal S10000x64 .f32) (b : FVec Ideal S1x64 .f32)
    (w : FVec Ideal S64x64 .f32) (p : Fin 10000) (q : Fin 64) :
    k2_pay1 (F := Ideal) dc g b w (ix2 p q)
      = (∑ k : Fin 64, max (g (ix2 p k) * dc (ix2 p (0 : Fin 1)) + b (ix2 (0 : Fin 1) k)) Cert.Gcn.z0 * w (ix2 k q))
          * dc (ix2 p (0 : Fin 1)) := by
  unfold k2_pay1
  show matmul (F := Ideal) dot_S10000x64_S64x64_S10000x64_1_0_0_1_n_n none _ _ _ (ix2 p q)
      * broadcastTo S10000x64 (shapeCast S10000x1 dc shapeCasts_S10000x1_S10000x1) broadcasts_S10000x1_S10000x64 (ix2 p q) = _
  refine congrArg₂ (· * ·) ?_ ?_
  · refine (matmul_zero_apply _ none _ _ p q).trans ?_
    refine Finset.sum_congr rfl fun k _ => ?_
    show max (shapeCast S10000x64 g shapeCasts_S10000x64_S10000x64 (ix2 p k)
          * broadcastTo S10000x64 (shapeCast S10000x1 dc shapeCasts_S10000x1_S10000x1) broadcasts_S10000x1_S10000x64 (ix2 p k)
          + broadcastTo S10000x64 (shapeCast S1x64 b shapeCasts_S1x64_S1x64) broadcasts_S1x64_S10000x64 (ix2 p k))
        (Ideal.ofBits .f32 0x00000000#32) * w (ix2 k q) = _
    rw [shapeCast_self, shapeCast_self, shapeCast_self]
    refine congrArg₂ (· * ·) (congrArg₂ max (congrArg₂ (· + ·) (congrArg₂ (· * ·) rfl ?_) ?_) rfl) rfl
    · exact broadcastTo_a1_ab_apply dc _ p k
    · exact broadcastTo_1b_ab_apply b _ p k
  · rw [shapeCast_self]
    exact broadcastTo_a1_ab_apply dc _ p q

section Blocks
variable (V : (c : Dev nD) → (b : Ref sig .tc) → Buf (Elt Ideal) ((c : Thread nD τ).loc b))

/-- Where the launch's blocks sit at grid point `t`: the row blocks at block row `t`, the bias row and the weights at
    their one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Row `p` of the aggregate block at point `t` is row `t * 10000 + p` of the aggregate array. -/
theorem blk_g (c : Dev nD) (t : Fin cfg2.N) (y : S10000x64.Idx) (i : S100000x64.Idx)
    (h0 : (i 0).val = t.val * 10000 + (y 0).val) (h1 : (i 1).val = (y 1).val) :
    (iblk2 V c 0 t : FVec Ideal S10000x64 .f32) y = (V c main_v40 : FVec Ideal S100000x64 .f32) i := by
  obtain ⟨e0, e1, -⟩ := idx_facts t
  unfold iblk2
  rw [View.read_apply]
  show V c main_v40 _ = V c main_v40 _
  congr 1
  funext a
  apply Fin.ext
  match a with
  | ⟨0, _⟩ => show win2_0.index t (0 : Fin 2) * 10000 + 1 * (y 0).val = (i 0).val; rw [e0, h0]; omega
  | ⟨1, _⟩ => show win2_0.index t (1 : Fin 2) * 64 + 1 * (y 1).val = (i 1).val; rw [e1, h1]; omega

/-- The bias block at any point is the bias row. -/
theorem blk_b (c : Dev nD) (t : Fin cfg2.N) (y : S1x64.Idx) :
    (iblk2 V c 1 t : FVec Ideal S1x64 .f32) y = (V c main_v41 : FVec Ideal S1x64 .f32) y := by
  obtain ⟨-, -, e0, e1, -⟩ := idx_facts t
  unfold iblk2
  rw [View.read_apply]
  show V c main_v41 _ = V c main_v41 _
  congr 1
  funext a
  apply Fin.ext
  match a with
  | ⟨0, _⟩ => show win2_1.index t (0 : Fin 2) * 1 + 1 * (y 0).val = (y 0).val; rw [e0]; omega
  | ⟨1, _⟩ => show win2_1.index t (1 : Fin 2) * 64 + 1 * (y 1).val = (y 1).val; rw [e1]; omega

/-- The weight block at any point is the weight array. -/
theorem blk_w (c : Dev nD) (t : Fin cfg2.N) (y : S64x64.Idx) :
    (iblk2 V c 2 t : FVec Ideal S64x64 .f32) y = (V c main_arg6 : FVec Ideal S64x64 .f32) y := by
  obtain ⟨-, -, -, -, e0, e1, -⟩ := idx_facts t
  unfold iblk2
  rw [View.read_apply]
  show V c main_arg6 _ = V c main_arg6 _
  congr 1
  funext a
  apply Fin.ext
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

/-- Row `p` of the factor block at point `t` is row `t * 10000 + p` of the factor column. -/
theorem blk_d (c : Dev nD) (t : Fin cfg2.N) (y : S10000x1.Idx) (i : S100000x1.Idx)
    (h0 : (i 0).val = t.val * 10000 + (y 0).val) (h1 : (i 1).val = (y 1).val) :
    (iblk2 V c 3 t : FVec Ideal S10000x1 .f32) y = (V c main_v15 : FVec Ideal S100000x1 .f32) i := by
  obtain ⟨-, -, -, -, -, -, e0, e1, -⟩ := idx_facts t
  unfold iblk2
  rw [View.read_apply]
  show V c main_v15 _ = V c main_v15 _
  congr 1
  funext a
  apply Fin.ext
  match a with
  | ⟨0, _⟩ => show win2_3.index t (0 : Fin 2) * 10000 + 1 * (y 0).val = (i 0).val; rw [e0, h0]; omega
  | ⟨1, _⟩ => show win2_3.index t (1 : Fin 2) * 1 + 1 * (y 1).val = (i 1).val; rw [e1, h1]; omega

/-- What point `t` computes at `(p, q)` is the whole-array function at row `t * 10000 + p`. -/
theorem point (c : Dev nD) (t : Fin cfg2.N) (p : Fin 10000) (q : Fin 64) (r : Fin 100000) (f : Fin 64)
    (hr : r.val = t.val * 10000 + p.val) (hf : f.val = q.val) :
    k2_pay1 (F := Ideal) (iblk2 V c 3 t) (iblk2 V c 0 t) (iblk2 V c 1 t) (iblk2 V c 2 t) (ix2 p q)
      = Cert.Gcn.projHAt (V c main_v40) (V c main_v41) (V c main_arg6) (V c main_v15) r f := by
  obtain rfl : f = q := Fin.ext hf
  refine (pay_apply _ _ _ _ p f).trans ?_
  unfold Cert.Gcn.projHAt Cert.Gcn.hidAt
  have hd : (iblk2 V c 3 t : FVec Ideal S10000x1 .f32) (ix2 p (0 : Fin 1))
      = (V c main_v15 : FVec Ideal S100000x1 .f32) (ix2 r (0 : Fin 1)) :=
    blk_d V c t (ix2 p (0 : Fin 1)) (ix2 r (0 : Fin 1)) hr rfl
  refine congrArg₂ (· * ·) (Finset.sum_congr rfl fun k _ => congrArg₂ (· * ·)
    (congrArg₂ max (congrArg₂ (· + ·) (congrArg₂ (· * ·) ?_ hd) ?_) rfl) ?_) hd
  · exact blk_g V c t (ix2 p k) (ix2 r k) hr rfl
  · exact blk_b V c t (ix2 (0 : Fin 1) k)
  · exact blk_w V c t (ix2 k f)

/-- WHAT POINT `t` WRITES BACK is block `t` of the whole-array function of the arrays the launch finds. -/
theorem flushed_eq (c : Dev nD) (t : Fin cfg2.N) :
    (dat2 (F := Ideal) V c).flushed 4 t = ((cfg2.win 4).blk t).view.read (Elt Ideal)
      (Cert.Gcn.projH (V c main_v40) (V c main_v41) (V c main_arg6) (V c main_v15)) := by
  show (cfg2.win 4).cut (grid2.coords t) ((dat2 (F := Ideal) V c).after 4 t) = _
  rw [after2_4]
  unfold out2_4
  rw [View.canon_unit_zero hz]
  simp only [View.ld_unit_zero (S := S10000x1) hz, View.ld_unit_zero (S := S10000x64) hz, View.ld_unit_zero (S := S1x64) hz,
    View.ld_unit_zero (S := S64x64) hz]
  obtain ⟨-, -, -, -, -, -, -, -, e0, e1⟩ := idx_facts t
  funext j
  obtain ⟨p, q, rfl⟩ : ∃ (p : Fin 10000) (q : Fin 64), j = ix2 p q := ⟨j 0, j 1, eq_ix2 (n0 := 10000) (n1 := 64) j⟩
  rw [View.read_apply]
  show k2_pay1 (F := Ideal) (iblk2 V c 3 t) (iblk2 V c 0 t) (iblk2 V c 1 t) (iblk2 V c 2 t) (ix2 p q)
    = Cert.Gcn.projHAt (V c main_v40) (V c main_v41) (V c main_arg6) (V c main_v15)
        ((((cfg2.win 4).blk t).view.emb (ix2 p q)) 0) ((((cfg2.win 4).blk t).view.emb (ix2 p q)) 1)
  refine point V c t p q _ _ ?_ ?_
  · show win2_4.index t (0 : Fin 2) * 10000 + 1 * p.val = _; rw [e0]; omega
  · show win2_4.index t (1 : Fin 2) * 64 + 1 * q.val = _; rw [e1]; omega

/-- An index of the output array is in point `t`'s block iff each coordinate is in the block's range on its axis. -/
theorem mem_blk (t : Fin cfg2.N) (i : S100000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v42).slice (win2_4.rect t)).set ↔ _
  rw [View.set_slice_whole, Rect.mem_set_unit]
  exact Iff.rfl

/-- Row `r` of the output is in the block of point `r / 10000`: the ten blocks tile the rows. -/
theorem cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨-, -, -, -, -, -, -, -, e0, e1⟩ := idx_facts t
  have ht : t.val = (i 0).val / 10000 := rfl
  refine ⟨t, flush2_4 t, ?_⟩
  rw [mem_blk]
  intro a
  match a with
  | ⟨0, _⟩ => show win2_4.index t (0 : Fin 2) * 10000 ≤ (i 0).val ∧ (i 0).val < win2_4.index t (0 : Fin 2) * 10000 + 10000; rw [e0, ht]; omega
  | ⟨1, _⟩ => show win2_4.index t (1 : Fin 2) * 64 ≤ (i 1).val ∧ (i 1).val < win2_4.index t (1 : Fin 2) * 64 + 64; rw [e1]; omega

end Blocks

end R2

/-- THE OUTPUT ARRAY OF REGION 2 after its ten points, whatever the buffers hold when the launch is entered: the
    scaled projection of the hidden activations by the weights, every row scaled by its node's factor. -/
theorem final2 (V : (c : Dev nD) → (b : Ref sig .tc) → Buf (Elt Ideal) ((c : Thread nD τ).loc b)) (c : Dev nD) :
    (dat2 (F := Ideal) V c).arrAt 4 cfg2.N
      = Cert.Gcn.projH (V c main_v40) (V c main_v41) (V c main_arg6) (V c main_v15) :=
  (dat2 (F := Ideal) V c).arrAt_eq_of_cover 4
    (Cert.Gcn.projH (V c main_v40) (V c main_v41) (V c main_arg6) (V c main_v15))
    (fun t _ => R2.flushed_eq V c t) R2.cover

end Cert.KernelIdeal.RegionValue

end
-- ==== Proof.Region3.lean ====
/-
  Region 3 of the kernel, as a whole-array function.

  The last launch walks the 100000 node rows in 10 blocks of 10000. At a block it forms the hidden activations of the
  block's rows — the unscaled aggregate scaled by the row's node factor, plus the bias row, clamped at zero —,
  multiplies them by the one output column (a sum over the 64 hidden features, accumulated from zero) and adds the
  output bias. Row `p` of block `t` is row `t * 10000 + p` of the arrays, so what block `t` writes back is block `t`
  of ONE function of the arrays the launch finds: entry `r` is `Σ_k max (g[r, k] · d[r] + b[k]) 0 · wo[k] + bo`. The
  ten blocks tile the rows, so the output column ends holding that function everywhere.
-/
import proofs.«181710_j67044439491025_2_alg».proof.Proof.Gen.KernelIdeal.Frame
import proofs.«181710_j67044439491025_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

namespace R3

/-- The zero offsets of a whole-buffer access. -/
theorem hz : (![0, 0] : Fin 2 → Nat) = fun _ => 0 := funext fun a => by fin_cases a <;> rfl

/-- A product of an `M×K` by a `K×N` matrix accumulated from the zero splat, read at `(a, b)`: the sum over the
    contracted coordinate of the products of the entries. -/
theorem matmul_zero_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (F := Ideal) (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The block's payload at row `p`: the hidden activations of row `p` times the output column, plus the output bias. -/
theorem pay_apply (dc : FVec Ideal S10000x1 .f32) (g : FVec Ideal S10000x64 .f32) (b : FVec Ideal S1x64 .f32)
    (wo : FVec Ideal S64x1 .f32) (bo : FVec Ideal S1x1 .f32) (p : Fin 10000) (o : Fin 1) :
    k3_pay1 (F := Ideal) dc g b wo bo (ix2 p o)
      = (∑ k : Fin 64, max (g (ix2 p k) * dc (ix2 p (0 : Fin 1)) + b (ix2 (0 : Fin 1) k)) Cert.Gcn.z0 * wo (ix2 k (0 : Fin 1)))
          + bo (ix2 (0 : Fin 1) (0 : Fin 1)) := by
  obtain rfl : o = 0 := Fin.fin_one_eq_zero o
  unfold k3_pay1
  show matmul (F := Ideal) dot_S10000x64_S64x1_S10000x1_1_0_0_1_n_n none _ _ _ (ix2 p (0 : Fin 1))
      + broadcastTo S10000x1 (shapeCast S1x1 bo shapeCasts_S1x1_S1x1) broadcasts_S1x1_S10000x1 (ix2 p (0 : Fin 1)) = _
  refine congrArg₂ (· + ·) ?_ ?_
  · refine (matmul_zero_apply _ none _ _ p (0 : Fin 1)).trans ?_
    refine Finset.sum_congr rfl fun k _ => ?_
    show max (shapeCast S10000x64 g shapeCasts_S10000x64_S10000x64 (ix2 p k)
          * broadcastTo S10000x64 (shapeCast S10000x1 dc shapeCasts_S10000x1_S10000x1) broadcasts_S10000x1_S10000x64 (ix2 p k)
          + broadcastTo S10000x64 (shapeCast S1x64 b shapeCasts_S1x64_S1x64) broadcasts_S1x64_S10000x64 (ix2 p k))
        (Ideal.ofBits .f32 0x00000000#32) * wo (ix2 k (0 : Fin 1)) = _
    rw [shapeCast_self, shapeCast_self, shapeCast_self]
    refine congrArg₂ (· * ·) (congrArg₂ max (congrArg₂ (· + ·) (congrArg₂ (· * ·) rfl ?_) ?_) rfl) rfl
    · exact broadcastTo_a1_ab_apply dc _ p k
    · exact broadcastTo_1b_ab_apply b _ p k
  · rw [shapeCast_self]
    exact broadcastTo_1b_ab_apply bo _ p (0 : Fin 1)

section Blocks
variable (V : (c : Dev nD) → (b : Ref sig .tc) → Buf (Elt Ideal) ((c : Thread nD τ).loc b))

/-- Where the launch's blocks sit at grid point `t`: the row blocks at block row `t`, the bias row, the output column
    and the output bias at their one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of the aggregate block at point `t` is row `t * 10000 + p` of the aggregate array. -/
theorem blk_g (c : Dev nD) (t : Fin cfg3.N) (y : S10000x64.Idx) (i : S100000x64.Idx)
    (h0 : (i 0).val = t.val * 10000 + (y 0).val) (h1 : (i 1).val = (y 1).val) :
    (iblk3 V c 0 t : FVec Ideal S10000x64 .f32) y = (V c main_v53 : FVec Ideal S100000x64 .f32) i := by
  obtain ⟨e0, e1, -⟩ := idx_facts t
  unfold iblk3
  rw [View.read_apply]
  show V c main_v53 _ = V c main_v53 _
  congr 1
  funext a
  apply Fin.ext
  match a with
  | ⟨0, _⟩ => show win3_0.index t (0 : Fin 2) * 10000 + 1 * (y 0).val = (i 0).val; rw [e0, h0]; omega
  | ⟨1, _⟩ => show win3_0.index t (1 : Fin 2) * 64 + 1 * (y 1).val = (i 1).val; rw [e1, h1]; omega

/-- The bias block at any point is the bias row. -/
theorem blk_b (c : Dev nD) (t : Fin cfg3.N) (y : S1x64.Idx) :
    (iblk3 V c 1 t : FVec Ideal S1x64 .f32) y = (V c main_v54 : FVec Ideal S1x64 .f32) y := by
  obtain ⟨-, -, e0, e1, -⟩ := idx_facts t
  unfold iblk3
  rw [View.read_apply]
  show V c main_v54 _ = V c main_v54 _
  congr 1
  funext a
  apply Fin.ext
  match a with
  | ⟨0, _⟩ => show win3_1.index t (0 : Fin 2) * 1 + 1 * (y 0).val = (y 0).val; rw [e0]; omega
  | ⟨1, _⟩ => show win3_1.index t (1 : Fin 2) * 64 + 1 * (y 1).val = (y 1).val; rw [e1]; omega

/-- Row `p` of the factor block at point `t` is row `t * 10000 + p` of the factor column. -/
theorem blk_d (c : Dev nD) (t : Fin cfg3.N) (y : S10000x1.Idx) (i : S100000x1.Idx)
    (h0 : (i 0).val = t.val * 10000 + (y 0).val) (h1 : (i 1).val = (y 1).val) :
    (iblk3 V c 2 t : FVec Ideal S10000x1 .f32) y = (V c main_v15 : FVec Ideal S100000x1 .f32) i := by
  obtain ⟨-, -, -, -, e0, e1, -⟩ := idx_facts t
  unfold iblk3
  rw [View.read_apply]
  show V c main_v15 _ = V c main_v15 _
  congr 1
  funext a
  apply Fin.ext
  match a with
  | ⟨0, _⟩ => show win3_2.index t (0 : Fin 2) * 10000 + 1 * (y 0).val = (i 0).val; rw [e0, h0]; omega
  | ⟨1, _⟩ => show win3_2.index t (1 : Fin 2) * 1 + 1 * (y 1).val = (i 1).val; rw [e1, h1]; omega

/-- The output-column block at any point is the output column. -/
theorem blk_wo (c : Dev nD) (t : Fin cfg3.N) (y : S64x1.Idx) :
    (iblk3 V c 3 t : FVec Ideal S64x1 .f32) y = (V c main_arg8 : FVec Ideal S64x1 .f32) y := by
  obtain ⟨-, -, -, -, -, -, e0, e1, -⟩ := idx_facts t
  unfold iblk3
  rw [View.read_apply]
  show V c main_arg8 _ = V c main_arg8 _
  congr 1
  funext a
  apply Fin.ext
  match a with
  | ⟨0, _⟩ => show win3_3.index t (0 : Fin 2) * 64 + 1 * (y 0).val = (y 0).val; rw [e0]; omega
  | ⟨1, _⟩ => show win3_3.index t (1 : Fin 2) * 1 + 1 * (y 1).val = (y 1).val; rw [e1]; omega

/-- The output-bias block at any point is the output bias. -/
theorem blk_bo (c : Dev nD) (t : Fin cfg3.N) (y : S1x1.Idx) :
    (iblk3 V c 4 t : FVec Ideal S1x1 .f32) y = (V c main_v55 : FVec Ideal S1x1 .f32) y := by
  obtain ⟨-, -, -, -, -, -, -, -, e0, e1, -⟩ := idx_facts t
  unfold iblk3
  rw [View.read_apply]
  show V c main_v55 _ = V c main_v55 _
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 1 + 1 * (y 1).val = (y 1).val; rw [e1]; omega

/-- What point `t` computes at row `p` is the whole-array function at row `t * 10000 + p`. -/
theorem point (c : Dev nD) (t : Fin cfg3.N) (p : Fin 10000) (o : Fin 1) (r : Fin 100000)
    (hr : r.val = t.val * 10000 + p.val) :
    k3_pay1 (F := Ideal) (iblk3 V c 2 t) (iblk3 V c 0 t) (iblk3 V c 1 t) (iblk3 V c 3 t) (iblk3 V c 4 t) (ix2 p o)
      = Cert.Gcn.readoutAt (V c main_v53) (V c main_v54) (V c main_v15) (V c main_arg8) (V c main_v55) r := by
  refine (pay_apply _ _ _ _ _ p o).trans ?_
  unfold Cert.Gcn.readoutAt Cert.Gcn.hidAt
  have hd : (iblk3 V c 2 t : FVec Ideal S10000x1 .f32) (ix2 p (0 : Fin 1))
      = (V c main_v15 : FVec Ideal S100000x1 .f32) (ix2 r (0 : Fin 1)) :=
    blk_d V c t (ix2 p (0 : Fin 1)) (ix2 r (0 : Fin 1)) hr rfl
  refine congrArg₂ (· + ·) (Finset.sum_congr rfl fun k _ => congrArg₂ (· * ·)
    (congrArg₂ max (congrArg₂ (· + ·) (congrArg₂ (· * ·) ?_ hd) ?_) rfl) ?_) ?_
  · exact blk_g V c t (ix2 p k) (ix2 r k) hr rfl
  · exact blk_b V c t (ix2 (0 : Fin 1) k)
  · exact blk_wo V c t (ix2 k (0 : Fin 1))
  · exact blk_bo V c t (ix2 (0 : Fin 1) (0 : Fin 1))

/-- WHAT POINT `t` WRITES BACK is block `t` of the whole-array function of the arrays the launch finds. -/
theorem flushed_eq (c : Dev nD) (t : Fin cfg3.N) :
    (dat3 (F := Ideal) V c).flushed 5 t = ((cfg3.win 5).blk t).view.read (Elt Ideal)
      (Cert.Gcn.readout (V c main_v53) (V c main_v54) (V c main_v15) (V c main_arg8) (V c main_v55)) := by
  show (cfg3.win 5).cut (grid3.coords t) ((dat3 (F := Ideal) V c).after 5 t) = _
  rw [after3_5]
  unfold out3_5
  rw [View.canon_unit_zero hz]
  simp only [View.ld_unit_zero (S := S10000x1) hz, View.ld_unit_zero (S := S10000x64) hz, View.ld_unit_zero (S := S1x64) hz,
    View.ld_unit_zero (S := S64x1) hz, View.ld_unit_zero (S := S1x1) hz]
  obtain ⟨-, -, -, -, -, -, -, -, -, -, e0, e1⟩ := idx_facts t
  funext j
  obtain ⟨p, o, rfl⟩ : ∃ (p : Fin 10000) (o : Fin 1), j = ix2 p o := ⟨j 0, j 1, eq_ix2 (n0 := 10000) (n1 := 1) j⟩
  rw [View.read_apply]
  show k3_pay1 (F := Ideal) (iblk3 V c 2 t) (iblk3 V c 0 t) (iblk3 V c 1 t) (iblk3 V c 3 t) (iblk3 V c 4 t) (ix2 p o)
    = Cert.Gcn.readoutAt (V c main_v53) (V c main_v54) (V c main_v15) (V c main_arg8) (V c main_v55)
        ((((cfg3.win 5).blk t).view.emb (ix2 p o)) 0)
  refine point V c t p o _ ?_
  show win3_5.index t (0 : Fin 2) * 10000 + 1 * p.val = _; rw [e0]; omega

/-- An index of the output column is in point `t`'s block iff each coordinate is in the block's range on its axis. -/
theorem mem_blk (t : Fin cfg3.N) (i : S100000x1.Idx) :
    i ∈ ((cfg3.win 5).blk t).view.set ↔ ∀ a : Fin 2, win3_5.index t a * S10000x1.size a ≤ (i a).val ∧ (i a).val < win3_5.index t a * S10000x1.size a + S10000x1.size a := by
  show i ∈ ((View.whole main_v56).slice (win3_5.rect t)).set ↔ _
  rw [View.set_slice_whole, Rect.mem_set_unit]
  exact Iff.rfl

/-- Row `r` of the output is in the block of point `r / 10000`: the ten blocks tile the rows. -/
theorem cover (i : S100000x1.Idx) :
    ∃ t : Fin cfg3.N, (cfg3.win 5).flush t = true ∧ i ∈ ((cfg3.win 5).blk t).view.set := by
  have hi0 : (i 0).val < 100000 := (i 0).isLt
  have hi1 : (i 1).val < 1 := (i 1).isLt
  have hN : cfg3.N = 10 := N_3
  let t : Fin cfg3.N := ⟨(i 0).val / 10000, by rw [hN]; omega⟩
  obtain ⟨-, -, -, -, -, -, -, -, -, -, e0, e1⟩ := idx_facts t
  have ht : t.val = (i 0).val / 10000 := rfl
  refine ⟨t, flush3_5 t, ?_⟩
  rw [mem_blk]
  intro a
  match a with
  | ⟨0, _⟩ => show win3_5.index t (0 : Fin 2) * 10000 ≤ (i 0).val ∧ (i 0).val < win3_5.index t (0 : Fin 2) * 10000 + 10000; rw [e0, ht]; omega
  | ⟨1, _⟩ => show win3_5.index t (1 : Fin 2) * 1 ≤ (i 1).val ∧ (i 1).val < win3_5.index t (1 : Fin 2) * 1 + 1; rw [e1]; omega

end Blocks

end R3

/-- THE OUTPUT COLUMN OF REGION 3 after its ten points, whatever the buffers hold when the launch is entered: the
    readout of the hidden activations by the output column, plus the output bias. -/
theorem final3 (V : (c : Dev nD) → (b : Ref sig .tc) → Buf (Elt Ideal) ((c : Thread nD τ).loc b)) (c : Dev nD) :
    (dat3 (F := Ideal) V c).arrAt 5 cfg3.N
      = Cert.Gcn.readout (V c main_v53) (V c main_v54) (V c main_v15) (V c main_arg8) (V c main_v55) :=
  (dat3 (F := Ideal) V c).arrAt_eq_of_cover 5
    (Cert.Gcn.readout (V c main_v53) (V c main_v54) (V c main_v15) (V c main_arg8) (V c main_v55))
    (fun t _ => R3.flushed_eq V c t) R3.cover

end Cert.KernelIdeal.RegionValue

end
-- ==== Proof.KernelValue.lean ====
/-
  The kernel's value: the last fold of the program's buffers, read at the result buffer, is the factored network of
  the specification applied to the launch arrays.

  The fold alternates host stretches and the four grids. Reading it backwards from the result: the result is the
  last grid's output column flattened; a grid's output is the whole-array function of the arrays it finds (the four
  region modules); a grid finds, in the aggregate's buffer, the segment sum the preceding host stretch formed from the
  previous grid's output gathered at the source words, in the bias buffers the bias vectors as one row, and in the
  factor's buffer the column the first stretches made of the degrees; the source and destination words are written by
  the first stretch and never again, the arguments never. Each of these facts is one small statement about one buffer
  at one boundary; the value is their composition.
-/
import proofs.«181710_j67044439491025_2_alg».proof.Proof.Gen.KernelIdeal.Frame
import proofs.«181710_j67044439491025_2_alg».proof.Proof.Spec
import proofs.«181710_j67044439491025_2_alg».proof.Proof.KernelRun
import proofs.«181710_j67044439491025_2_alg».proof.Proof.Region0
import proofs.«181710_j67044439491025_2_alg».proof.Proof.Region1
import proofs.«181710_j67044439491025_2_alg».proof.Proof.Region2
import proofs.«181710_j67044439491025_2_alg».proof.Proof.Region3
import Idealize.ShloMosaic.Lib.StableHlo.Run

set_option maxRecDepth 16384

noncomputable section

namespace Cert.KernelIdeal.RunValue

open Idealize.ShloMosaic Idealize.ShloMosaic.TcCoe Idealize.SL.Sem
open Idealize.ShloMosaic.StableHlo
open Cert.KernelIdeal Cert.KernelIdeal.Gen

variable (m : (ℓ : Loc nD τ sig) → Buf (Elt Ideal) ℓ) (ρ : Dev nD → PrngReg) (c : Dev nD)

/-! ## What each host stretch leaves in the buffers read later, over ANY contents `X` at its start

A stretch is a literal list of operations, each writing one buffer of its own: a buffer none of them writes keeps its
contents, and a buffer one of them writes holds that operation's function of the contents of the buffers it reads. -/

section Stretches
variable (X : Valuation τ sig (Elt Ideal))

theorem s0_keep_arg0 : StableHlo.after hostOps0 X (Proc.devRef .tc main_arg0) = X (Proc.devRef .tc main_arg0) := by after_results
theorem s0_keep_arg2 : StableHlo.after hostOps0 X (Proc.devRef .tc main_arg2) = X (Proc.devRef .tc main_arg2) := by after_results
theorem s0_keep_arg3 : StableHlo.after hostOps0 X (Proc.devRef .tc main_arg3) = X (Proc.devRef .tc main_arg3) := by after_results
theorem s0_keep_arg4 : StableHlo.after hostOps0 X (Proc.devRef .tc main_arg4) = X (Proc.devRef .tc main_arg4) := by after_results

theorem s01_keep_arg0 : StableHlo.after hostOps0_1 X (Proc.devRef .tc main_arg0) = X (Proc.devRef .tc main_arg0) := by after_results
theorem s01_keep_arg2 : StableHlo.after hostOps0_1 X (Proc.devRef .tc main_arg2) = X (Proc.devRef .tc main_arg2) := by after_results
theorem s01_keep_arg3 : StableHlo.after hostOps0_1 X (Proc.devRef .tc main_arg3) = X (Proc.devRef .tc main_arg3) := by after_results
theorem s01_keep_arg4 : StableHlo.after hostOps0_1 X (Proc.devRef .tc main_arg4) = X (Proc.devRef .tc main_arg4) := by after_results
theorem s01_keep_v3 : StableHlo.after hostOps0_1 X (Proc.devRef .tc main_v3) = X (Proc.devRef .tc main_v3) := by after_results
theorem s01_keep_v6 : StableHlo.after hostOps0_1 X (Proc.devRef .tc main_v6) = X (Proc.devRef .tc main_v6) := by after_results

theorem s02_keep_arg0 : StableHlo.after hostOps0_2 X (Proc.devRef .tc main_arg0) = X (Proc.devRef .tc main_arg0) := by after_results
theorem s02_keep_arg2 : StableHlo.after hostOps0_2 X (Proc.devRef .tc main_arg2) = X (Proc.devRef .tc main_arg2) := by after_results
theorem s02_keep_arg3 : StableHlo.after hostOps0_2 X (Proc.devRef .tc main_arg3) = X (Proc.devRef .tc main_arg3) := by after_results
theorem s02_keep_arg4 : StableHlo.after hostOps0_2 X (Proc.devRef .tc main_arg4) = X (Proc.devRef .tc main_arg4) := by after_results
theorem s02_keep_v3 : StableHlo.after hostOps0_2 X (Proc.devRef .tc main_v3) = X (Proc.devRef .tc main_v3) := by after_results
theorem s02_keep_v6 : StableHlo.after hostOps0_2 X (Proc.devRef .tc main_v6) = X (Proc.devRef .tc main_v6) := by after_results

theorem s1_keep_arg4 : StableHlo.after hostOps1 X (Proc.devRef .tc main_arg4) = X (Proc.devRef .tc main_arg4) := by after_results
theorem s1_keep_v3 : StableHlo.after hostOps1 X (Proc.devRef .tc main_v3) = X (Proc.devRef .tc main_v3) := by after_results
theorem s1_keep_v6 : StableHlo.after hostOps1 X (Proc.devRef .tc main_v6) = X (Proc.devRef .tc main_v6) := by after_results
theorem s1_keep_v15 : StableHlo.after hostOps1 X (Proc.devRef .tc main_v15) = X (Proc.devRef .tc main_v15) := by after_results

theorem s2_keep_arg5 : StableHlo.after hostOps2 X (Proc.devRef .tc main_arg5) = X (Proc.devRef .tc main_arg5) := by after_results
theorem s2_keep_v3 : StableHlo.after hostOps2 X (Proc.devRef .tc main_v3) = X (Proc.devRef .tc main_v3) := by after_results
theorem s2_keep_v6 : StableHlo.after hostOps2 X (Proc.devRef .tc main_v6) = X (Proc.devRef .tc main_v6) := by after_results
theorem s2_keep_v15 : StableHlo.after hostOps2 X (Proc.devRef .tc main_v15) = X (Proc.devRef .tc main_v15) := by after_results

theorem s3_keep_arg5 : StableHlo.after hostOps3 X (Proc.devRef .tc main_arg5) = X (Proc.devRef .tc main_arg5) := by after_results
theorem s3_keep_arg6 : StableHlo.after hostOps3 X (Proc.devRef .tc main_arg6) = X (Proc.devRef .tc main_arg6) := by after_results
theorem s3_keep_arg7 : StableHlo.after hostOps3 X (Proc.devRef .tc main_arg7) = X (Proc.devRef .tc main_arg7) := by after_results
theorem s3_keep_arg9 : StableHlo.after hostOps3 X (Proc.devRef .tc main_arg9) = X (Proc.devRef .tc main_arg9) := by after_results
theorem s3_keep_v15 : StableHlo.after hostOps3 X (Proc.devRef .tc main_v15) = X (Proc.devRef .tc main_v15) := by after_results

theorem s4_keep_arg5 : StableHlo.after hostOps4 X (Proc.devRef .tc main_arg5) = X (Proc.devRef .tc main_arg5) := by after_results
theorem s4_keep_arg6 : StableHlo.after hostOps4 X (Proc.devRef .tc main_arg6) = X (Proc.devRef .tc main_arg6) := by after_results
theorem s4_keep_arg7 : StableHlo.after hostOps4 X (Proc.devRef .tc main_arg7) = X (Proc.devRef .tc main_arg7) := by after_results
theorem s4_keep_arg8 : StableHlo.after hostOps4 X (Proc.devRef .tc main_arg8) = X (Proc.devRef .tc main_arg8) := by after_results
theorem s4_keep_arg9 : StableHlo.after hostOps4 X (Proc.devRef .tc main_arg9) = X (Proc.devRef .tc main_arg9) := by after_results

/-- The source words: row 0 of the edge array, then one self loop per node. -/
theorem s0_v3 : StableHlo.after hostOps0 X (Proc.devRef .tc main_v3) = Cert.Gcn.srcOf (X (Proc.devRef .tc main_arg1)) := by
  after_results
  rfl

/-- The destination words: row 1 of the edge array, then one self loop per node. -/
theorem s0_v6 : StableHlo.after hostOps0 X (Proc.devRef .tc main_v6) = Cert.Gcn.dstOf (X (Proc.devRef .tc main_arg1)) := by
  after_results
  rfl

/-- Whether a node's degree is positive. -/
theorem s0_v12 : StableHlo.after hostOps0 X (Proc.devRef .tc main_v12)
    = cmpf (F := Ideal) .ogt (Cert.Gcn.deg (Cert.Gcn.dstOf (X (Proc.devRef .tc main_arg1)))) Cert.Gcn.zerosN := by
  after_results
  unfold Cert.Gcn.deg Cert.Gcn.zerosN Cert.Gcn.col Cert.Gcn.dstOf
  rfl

/-- The degrees to the power -1/2. -/
theorem s0_v13 : StableHlo.after hostOps0 X (Proc.devRef .tc main_v13)
    = Host.rsqrt (F := Ideal) (Cert.Gcn.deg (Cert.Gcn.dstOf (X (Proc.devRef .tc main_arg1)))) := by
  after_results
  unfold Cert.Gcn.deg Cert.Gcn.zerosN Cert.Gcn.col Cert.Gcn.dstOf
  rfl

/-- The zero the factor takes where the degree is not positive. -/
theorem s0_cst2 : StableHlo.after hostOps0 X (Proc.devRef .tc main_cst_2) = constant (F := Ideal) S_ .f32 0x00000000#32 := by
  after_results

/-- The factor: the power where the degree is positive, zero elsewhere. -/
theorem s01_v14 : StableHlo.after hostOps0_1 X (Proc.devRef .tc main_v14)
    = select (X (Proc.devRef .tc main_v12)) (X (Proc.devRef .tc main_v13))
        (broadcastInDim S100000 ![] bcast_S_S100000 (X (Proc.devRef .tc main_cst_2))) := by
  after_results
  rfl

/-- The factor as a column. -/
theorem s02_v15 : StableHlo.after hostOps0_2 X (Proc.devRef .tc main_v15)
    = shapeCast S100000x1 (X (Proc.devRef .tc main_v14)) shapeCasts_S100000_S100000x1 := by
  after_results
  rfl

set_option maxHeartbeats 1000000 in
/-- The first aggregate: the first grid's output gathered at the source words and summed per destination. -/
theorem s1_v27 : StableHlo.after hostOps1 X (Proc.devRef .tc main_v27)
    = Cert.Gcn.aggK (X (Proc.devRef .tc main_v3)) (X (Proc.devRef .tc main_v6)) (X (Proc.devRef .tc main_v16)) := by
  after_results
  unfold Cert.Gcn.aggK Cert.Gcn.zerosN64 Cert.Gcn.col Cert.Gcn.wrap
  rfl

/-- The first bias as one row. -/
theorem s1_v28 : StableHlo.after hostOps1 X (Proc.devRef .tc main_v28)
    = shapeCast S1x64 (X (Proc.devRef .tc main_arg3)) shapeCasts_S64_S1x64 := by
  after_results
  rfl

set_option maxHeartbeats 1000000 in
/-- The second aggregate. -/
theorem s2_v40 : StableHlo.after hostOps2 X (Proc.devRef .tc main_v40)
    = Cert.Gcn.aggK (X (Proc.devRef .tc main_v3)) (X (Proc.devRef .tc main_v6)) (X (Proc.devRef .tc main_v29)) := by
  after_results
  unfold Cert.Gcn.aggK Cert.Gcn.zerosN64 Cert.Gcn.col Cert.Gcn.wrap
  rfl

/-- The second bias as one row. -/
theorem s2_v41 : StableHlo.after hostOps2 X (Proc.devRef .tc main_v41)
    = shapeCast S1x64 (X (Proc.devRef .tc main_arg5)) shapeCasts_S64_S1x64 := by
  after_results
  rfl

set_option maxHeartbeats 1000000 in
/-- The third aggregate. -/
theorem s3_v53 : StableHlo.after hostOps3 X (Proc.devRef .tc main_v53)
    = Cert.Gcn.aggK (X (Proc.devRef .tc main_v3)) (X (Proc.devRef .tc main_v6)) (X (Proc.devRef .tc main_v42)) := by
  after_results
  unfold Cert.Gcn.aggK Cert.Gcn.zerosN64 Cert.Gcn.col Cert.Gcn.wrap
  rfl

/-- The third bias as one row. -/
theorem s3_v54 : StableHlo.after hostOps3 X (Proc.devRef .tc main_v54)
    = shapeCast S1x64 (X (Proc.devRef .tc main_arg7)) shapeCasts_S64_S1x64 := by
  after_results
  rfl

/-- The output bias as a one-by-one array. -/
theorem s3_v55 : StableHlo.after hostOps3 X (Proc.devRef .tc main_v55)
    = shapeCast S1x1 (X (Proc.devRef .tc main_arg9)) shapeCasts_S1_S1x1 := by
  after_results
  rfl

/-- The result: the last grid's output column flattened. -/
theorem s4_v57 : StableHlo.after hostOps4 X (Proc.devRef .tc main_v57)
    = shapeCast S100000 (X (Proc.devRef .tc main_v56)) shapeCasts_S100000x1_S100000 := by
  after_results
  rfl

end Stretches

/-! ## The fold, buffer by buffer

`Wj` is the buffers' contents at boundary `j` of the program (0 the launch, 3 / 5 / 7 / 9 the grids' entries, 4 / 6 /
8 / 10 their exits, 11 the end). Below, each buffer a later stage reads, at each boundary where it is read. -/

/-! ### Up to the first grid: the edge words and the node factor -/

theorem W1_v3 : W1 (F := Ideal) m ρ c (Proc.devRef .tc main_v3) = (Cert.Gcn.srcOf (m ((c : Thread nD τ).loc main_arg1))) := s0_v3 (W0 (F := Ideal) m ρ c)
theorem W1_v6 : W1 (F := Ideal) m ρ c (Proc.devRef .tc main_v6) = (Cert.Gcn.dstOf (m ((c : Thread nD τ).loc main_arg1))) := s0_v6 (W0 (F := Ideal) m ρ c)
theorem W1_v12 : W1 (F := Ideal) m ρ c (Proc.devRef .tc main_v12) = cmpf (F := Ideal) .ogt (Cert.Gcn.deg (Cert.Gcn.dstOf (m ((c : Thread nD τ).loc main_arg1)))) Cert.Gcn.zerosN := s0_v12 (W0 (F := Ideal) m ρ c)
theorem W1_v13 : W1 (F := Ideal) m ρ c (Proc.devRef .tc main_v13) = Host.rsqrt (F := Ideal) (Cert.Gcn.deg (Cert.Gcn.dstOf (m ((c : Thread nD τ).loc main_arg1)))) := s0_v13 (W0 (F := Ideal) m ρ c)
theorem W1_cst2 : W1 (F := Ideal) m ρ c (Proc.devRef .tc main_cst_2) = constant (F := Ideal) S_ .f32 0x00000000#32 := s0_cst2 (W0 (F := Ideal) m ρ c)

theorem W2_v14 : W2 (F := Ideal) m ρ c (Proc.devRef .tc main_v14) = Cert.Gcn.dinv (Cert.Gcn.dstOf (m ((c : Thread nD τ).loc main_arg1))) := by
  refine (s01_v14 (W1 (F := Ideal) m ρ c)).trans ?_
  rw [W1_v12 m ρ c, W1_v13 m ρ c, W1_cst2 m ρ c]
  rfl
theorem W2_v3 : W2 (F := Ideal) m ρ c (Proc.devRef .tc main_v3) = (Cert.Gcn.srcOf (m ((c : Thread nD τ).loc main_arg1))) := (s01_keep_v3 (W1 (F := Ideal) m ρ c)).trans (W1_v3 m ρ c)
theorem W2_v6 : W2 (F := Ideal) m ρ c (Proc.devRef .tc main_v6) = (Cert.Gcn.dstOf (m ((c : Thread nD τ).loc main_arg1))) := (s01_keep_v6 (W1 (F := Ideal) m ρ c)).trans (W1_v6 m ρ c)

theorem W3_v15 : W3 (F := Ideal) m ρ c (Proc.devRef .tc main_v15) = (Cert.Gcn.dcol (Cert.Gcn.dstOf (m ((c : Thread nD τ).loc main_arg1)))) := by
  refine (s02_v15 (W2 (F := Ideal) m ρ c)).trans ?_
  rw [W2_v14 m ρ c]
  rfl
theorem W3_v3 : W3 (F := Ideal) m ρ c (Proc.devRef .tc main_v3) = (Cert.Gcn.srcOf (m ((c : Thread nD τ).loc main_arg1))) := (s02_keep_v3 (W2 (F := Ideal) m ρ c)).trans (W2_v3 m ρ c)
theorem W3_v6 : W3 (F := Ideal) m ρ c (Proc.devRef .tc main_v6) = (Cert.Gcn.dstOf (m ((c : Thread nD τ).loc main_arg1))) := (s02_keep_v6 (W2 (F := Ideal) m ρ c)).trans (W2_v6 m ρ c)
theorem W3_arg0 : W3 (F := Ideal) m ρ c (Proc.devRef .tc main_arg0) = (m ((c : Thread nD τ).loc main_arg0)) :=
  (s02_keep_arg0 (W2 (F := Ideal) m ρ c)).trans ((s01_keep_arg0 (W1 (F := Ideal) m ρ c)).trans (s0_keep_arg0 (W0 (F := Ideal) m ρ c)))
theorem W3_arg2 : W3 (F := Ideal) m ρ c (Proc.devRef .tc main_arg2) = (m ((c : Thread nD τ).loc main_arg2)) :=
  (s02_keep_arg2 (W2 (F := Ideal) m ρ c)).trans ((s01_keep_arg2 (W1 (F := Ideal) m ρ c)).trans (s0_keep_arg2 (W0 (F := Ideal) m ρ c)))
theorem W3_arg3 : W3 (F := Ideal) m ρ c (Proc.devRef .tc main_arg3) = (m ((c : Thread nD τ).loc main_arg3)) :=
  (s02_keep_arg3 (W2 (F := Ideal) m ρ c)).trans ((s01_keep_arg3 (W1 (F := Ideal) m ρ c)).trans (s0_keep_arg3 (W0 (F := Ideal) m ρ c)))
theorem W3_arg4 : W3 (F := Ideal) m ρ c (Proc.devRef .tc main_arg4) = (m ((c : Thread nD τ).loc main_arg4)) :=
  (s02_keep_arg4 (W2 (F := Ideal) m ρ c)).trans ((s01_keep_arg4 (W1 (F := Ideal) m ρ c)).trans (s0_keep_arg4 (W0 (F := Ideal) m ρ c)))

/-! ### The first grid and the stretch after it -/

theorem W4_v16 : W4 (F := Ideal) m ρ c (Proc.devRef .tc main_v16) = (Cert.Gcn.proj0 (m ((c : Thread nD τ).loc main_arg0)) (m ((c : Thread nD τ).loc main_arg2)) (Cert.Gcn.dcol (Cert.Gcn.dstOf (m ((c : Thread nD τ).loc main_arg1))))) := by
  refine ((W4_arr m ρ c 3).trans (RegionValue.final0 (V3 m ρ) c)).trans ?_
  show Cert.Gcn.proj0 (W3 (F := Ideal) m ρ c (Proc.devRef .tc main_arg0)) (W3 (F := Ideal) m ρ c (Proc.devRef .tc main_arg2)) (W3 (F := Ideal) m ρ c (Proc.devRef .tc main_v15)) = _
  rw [W3_arg0 m ρ c, W3_arg2 m ρ c, W3_v15 m ρ c]
theorem W4_v3 : W4 (F := Ideal) m ρ c (Proc.devRef .tc main_v3) = (Cert.Gcn.srcOf (m ((c : Thread nD τ).loc main_arg1))) := (W4_of_ne m ρ c main_v3 (by decide)).trans (W3_v3 m ρ c)
theorem W4_v6 : W4 (F := Ideal) m ρ c (Proc.devRef .tc main_v6) = (Cert.Gcn.dstOf (m ((c : Thread nD τ).loc main_arg1))) := (W4_of_ne m ρ c main_v6 (by decide)).trans (W3_v6 m ρ c)
theorem W4_v15 : W4 (F := Ideal) m ρ c (Proc.devRef .tc main_v15) = (Cert.Gcn.dcol (Cert.Gcn.dstOf (m ((c : Thread nD τ).loc main_arg1)))) :=
  ((W4_arr m ρ c 2).trans (((dat0 (V3 m ρ) c).arrAt_in 2 rfl _).trans (A_eq0 (V3 m ρ) c 2))).trans (W3_v15 m ρ c)
theorem W4_arg3 : W4 (F := Ideal) m ρ c (Proc.devRef .tc main_arg3) = (m ((c : Thread nD τ).loc main_arg3)) := (W4_of_ne m ρ c main_arg3 (by decide)).trans (W3_arg3 m ρ c)
theorem W4_arg4 : W4 (F := Ideal) m ρ c (Proc.devRef .tc main_arg4) = (m ((c : Thread nD τ).loc main_arg4)) := (W4_of_ne m ρ c main_arg4 (by decide)).trans (W3_arg4 m ρ c)

theorem W5_v27 : W5 (F := Ideal) m ρ c (Proc.devRef .tc main_v27) = (Cert.Gcn.aggK (Cert.Gcn.srcOf (m ((c : Thread nD τ).loc main_arg1))) (Cert.Gcn.dstOf (m ((c : Thread nD τ).loc main_arg1))) (Cert.Gcn.proj0 (m ((c : Thread nD τ).loc main_arg0)) (m ((c : Thread nD τ).loc main_arg2)) (Cert.Gcn.dcol (Cert.Gcn.dstOf (m ((c : Thread nD τ).loc main_arg1)))))) := by
  refine (s1_v27 (W4 (F := Ideal) m ρ c)).trans ?_
  rw [W4_v3 m ρ c, W4_v6 m ρ c, W4_v16 m ρ c]
theorem W5_v28 : W5 (F := Ideal) m ρ c (Proc.devRef .tc main_v28) = (shapeCast S1x64 (m ((c : Thread nD τ).loc main_arg3)) shapeCasts_S64_S1x64) := by
  refine (s1_v28 (W4 (F := Ideal) m ρ c)).trans ?_
  rw [W4_arg3 m ρ c]
theorem W5_v3 : W5 (F := Ideal) m ρ c (Proc.devRef .tc main_v3) = (Cert.Gcn.srcOf (m ((c : Thread nD τ).loc main_arg1))) := (s1_keep_v3 (W4 (F := Ideal) m ρ c)).trans (W4_v3 m ρ c)
theorem W5_v6 : W5 (F := Ideal) m ρ c (Proc.devRef .tc main_v6) = (Cert.Gcn.dstOf (m ((c : Thread nD τ).loc main_arg1))) := (s1_keep_v6 (W4 (F := Ideal) m ρ c)).trans (W4_v6 m ρ c)
theorem W5_v15 : W5 (F := Ideal) m ρ c (Proc.devRef .tc main_v15) = (Cert.Gcn.dcol (Cert.Gcn.dstOf (m ((c : Thread nD τ).loc main_arg1)))) := (s1_keep_v15 (W4 (F := Ideal) m ρ c)).trans (W4_v15 m ρ c)
theorem W5_arg4 : W5 (F := Ideal) m ρ c (Proc.devRef .tc main_arg4) = (m ((c : Thread nD τ).loc main_arg4)) := (s1_keep_arg4 (W4 (F := Ideal) m ρ c)).trans (W4_arg4 m ρ c)

/-! ### The later arguments, read back from the end: nothing after a boundary writes them -/

theorem W10_arg5 : W10 (F := Ideal) m ρ c (Proc.devRef .tc main_arg5) = (m ((c : Thread nD τ).loc main_arg5)) := (s4_keep_arg5 (W10 (F := Ideal) m ρ c)).symm.trans (W11_main_arg5 m ρ c)
theorem W10_arg6 : W10 (F := Ideal) m ρ c (Proc.devRef .tc main_arg6) = (m ((c : Thread nD τ).loc main_arg6)) := (s4_keep_arg6 (W10 (F := Ideal) m ρ c)).symm.trans (W11_main_arg6 m ρ c)
theorem W10_arg7 : W10 (F := Ideal) m ρ c (Proc.devRef .tc main_arg7) = (m ((c : Thread nD τ).loc main_arg7)) := (s4_keep_arg7 (W10 (F := Ideal) m ρ c)).symm.trans (W11_main_arg7 m ρ c)
theorem W10_arg8 : W10 (F := Ideal) m ρ c (Proc.devRef .tc main_arg8) = (m ((c : Thread nD τ).loc main_arg8)) := (s4_keep_arg8 (W10 (F := Ideal) m ρ c)).symm.trans (W11_main_arg8 m ρ c)
theorem W10_arg9 : W10 (F := Ideal) m ρ c (Proc.devRef .tc main_arg9) = (m ((c : Thread nD τ).loc main_arg9)) := (s4_keep_arg9 (W10 (F := Ideal) m ρ c)).symm.trans (W11_main_arg9 m ρ c)
theorem W9_arg5 : W9 (F := Ideal) m ρ c (Proc.devRef .tc main_arg5) = (m ((c : Thread nD τ).loc main_arg5)) := (W10_of_ne m ρ c main_arg5 (by decide)).symm.trans (W10_arg5 m ρ c)
theorem W9_arg6 : W9 (F := Ideal) m ρ c (Proc.devRef .tc main_arg6) = (m ((c : Thread nD τ).loc main_arg6)) := (W10_of_ne m ρ c main_arg6 (by decide)).symm.trans (W10_arg6 m ρ c)
theorem W9_arg7 : W9 (F := Ideal) m ρ c (Proc.devRef .tc main_arg7) = (m ((c : Thread nD τ).loc main_arg7)) := (W10_of_ne m ρ c main_arg7 (by decide)).symm.trans (W10_arg7 m ρ c)
theorem W9_arg9 : W9 (F := Ideal) m ρ c (Proc.devRef .tc main_arg9) = (m ((c : Thread nD τ).loc main_arg9)) := (W10_of_ne m ρ c main_arg9 (by decide)).symm.trans (W10_arg9 m ρ c)
theorem W9_arg8 : W9 (F := Ideal) m ρ c (Proc.devRef .tc main_arg8) = (m ((c : Thread nD τ).loc main_arg8)) :=
  ((W10_arr m ρ c 3).trans (((dat3 (V9 m ρ) c).arrAt_in 3 rfl _).trans (A_eq3 (V9 m ρ) c 3))).symm.trans (W10_arg8 m ρ c)
theorem W8_arg5 : W8 (F := Ideal) m ρ c (Proc.devRef .tc main_arg5) = (m ((c : Thread nD τ).loc main_arg5)) := (s3_keep_arg5 (W8 (F := Ideal) m ρ c)).symm.trans (W9_arg5 m ρ c)
theorem W8_arg6 : W8 (F := Ideal) m ρ c (Proc.devRef .tc main_arg6) = (m ((c : Thread nD τ).loc main_arg6)) := (s3_keep_arg6 (W8 (F := Ideal) m ρ c)).symm.trans (W9_arg6 m ρ c)
theorem W8_arg7 : W8 (F := Ideal) m ρ c (Proc.devRef .tc main_arg7) = (m ((c : Thread nD τ).loc main_arg7)) := (s3_keep_arg7 (W8 (F := Ideal) m ρ c)).symm.trans (W9_arg7 m ρ c)
theorem W8_arg9 : W8 (F := Ideal) m ρ c (Proc.devRef .tc main_arg9) = (m ((c : Thread nD τ).loc main_arg9)) := (s3_keep_arg9 (W8 (F := Ideal) m ρ c)).symm.trans (W9_arg9 m ρ c)
theorem W7_arg5 : W7 (F := Ideal) m ρ c (Proc.devRef .tc main_arg5) = (m ((c : Thread nD τ).loc main_arg5)) := (W8_of_ne m ρ c main_arg5 (by decide)).symm.trans (W8_arg5 m ρ c)
theorem W7_arg6 : W7 (F := Ideal) m ρ c (Proc.devRef .tc main_arg6) = (m ((c : Thread nD τ).loc main_arg6)) :=
  ((W8_arr m ρ c 2).trans (((dat2 (V7 m ρ) c).arrAt_in 2 rfl _).trans (A_eq2 (V7 m ρ) c 2))).symm.trans (W8_arg6 m ρ c)
theorem W6_arg5 : W6 (F := Ideal) m ρ c (Proc.devRef .tc main_arg5) = (m ((c : Thread nD τ).loc main_arg5)) := (s2_keep_arg5 (W6 (F := Ideal) m ρ c)).symm.trans (W7_arg5 m ρ c)

/-! ### The second grid and the stretch after it -/

theorem W6_v29 : W6 (F := Ideal) m ρ c (Proc.devRef .tc main_v29) = (Cert.Gcn.projH (Cert.Gcn.aggK (Cert.Gcn.srcOf (m ((c : Thread nD τ).loc main_arg1))) (Cert.Gcn.dstOf (m ((c : Thread nD τ).loc main_arg1))) (Cert.Gcn.proj0 (m ((c : Thread nD τ).loc main_arg0)) (m ((c : Thread nD τ).loc main_arg2)) (Cert.Gcn.dcol (Cert.Gcn.dstOf (m ((c : Thread nD τ).loc main_arg1)))))) (shapeCast S1x64 (m ((c : Thread nD τ).loc main_arg3)) shapeCasts_S64_S1x64) (m ((c : Thread nD τ).loc main_arg4)) (Cert.Gcn.dcol (Cert.Gcn.dstOf (m ((c : Thread nD τ).loc main_arg1))))) := by
  refine ((W6_arr m ρ c 4).trans (RegionValue.final1 (V5 m ρ) c)).trans ?_
  show Cert.Gcn.projH (W5 (F := Ideal) m ρ c (Proc.devRef .tc main_v27)) (W5 (F := Ideal) m ρ c (Proc.devRef .tc main_v28)) (W5 (F := Ideal) m ρ c (Proc.devRef .tc main_arg4)) (W5 (F := Ideal) m ρ c (Proc.devRef .tc main_v15)) = _
  rw [W5_v27 m ρ c, W5_v28 m ρ c, W5_arg4 m ρ c, W5_v15 m ρ c]
theorem W6_v3 : W6 (F := Ideal) m ρ c (Proc.devRef .tc main_v3) = (Cert.Gcn.srcOf (m ((c : Thread nD τ).loc main_arg1))) := (W6_of_ne m ρ c main_v3 (by decide)).trans (W5_v3 m ρ c)
theorem W6_v6 : W6 (F := Ideal) m ρ c (Proc.devRef .tc main_v6) = (Cert.Gcn.dstOf (m ((c : Thread nD τ).loc main_arg1))) := (W6_of_ne m ρ c main_v6 (by decide)).trans (W5_v6 m ρ c)
theorem W6_v15 : W6 (F := Ideal) m ρ c (Proc.devRef .tc main_v15) = (Cert.Gcn.dcol (Cert.Gcn.dstOf (m ((c : Thread nD τ).loc main_arg1)))) :=
  ((W6_arr m ρ c 3).trans (((dat1 (V5 m ρ) c).arrAt_in 3 rfl _).trans (A_eq1 (V5 m ρ) c 3))).trans (W5_v15 m ρ c)

theorem W7_v40 : W7 (F := Ideal) m ρ c (Proc.devRef .tc main_v40) = (Cert.Gcn.aggK (Cert.Gcn.srcOf (m ((c : Thread nD τ).loc main_arg1))) (Cert.Gcn.dstOf (m ((c : Thread nD τ).loc main_arg1))) (Cert.Gcn.projH (Cert.Gcn.aggK (Cert.Gcn.srcOf (m ((c : Thread nD τ).loc main_arg1))) (Cert.Gcn.dstOf (m ((c : Thread nD τ).loc main_arg1))) (Cert.Gcn.proj0 (m ((c : Thread nD τ).loc main_arg0)) (m ((c : Thread nD τ).loc main_arg2)) (Cert.Gcn.dcol (Cert.Gcn.dstOf (m ((c : Thread nD τ).loc main_arg1)))))) (shapeCast S1x64 (m ((c : Thread nD τ).loc main_arg3)) shapeCasts_S64_S1x64) (m ((c : Thread nD τ).loc main_arg4)) (Cert.Gcn.dcol (Cert.Gcn.dstOf (m ((c : Thread nD τ).loc main_arg1)))))) := by
  refine (s2_v40 (W6 (F := Ideal) m ρ c)).trans ?_
  rw [W6_v3 m ρ c, W6_v6 m ρ c, W6_v29 m ρ c]
theorem W7_v41 : W7 (F := Ideal) m ρ c (Proc.devRef .tc main_v41) = (shapeCast S1x64 (m ((c : Thread nD τ).loc main_arg5)) shapeCasts_S64_S1x64) := by
  refine (s2_v41 (W6 (F := Ideal) m ρ c)).trans ?_
  rw [W6_arg5 m ρ c]
theorem W7_v3 : W7 (F := Ideal) m ρ c (Proc.devRef .tc main_v3) = (Cert.Gcn.srcOf (m ((c : Thread nD τ).loc main_arg1))) := (s2_keep_v3 (W6 (F := Ideal) m ρ c)).trans (W6_v3 m ρ c)
theorem W7_v6 : W7 (F := Ideal) m ρ c (Proc.devRef .tc main_v6) = (Cert.Gcn.dstOf (m ((c : Thread nD τ).loc main_arg1))) := (s2_keep_v6 (W6 (F := Ideal) m ρ c)).trans (W6_v6 m ρ c)
theorem W7_v15 : W7 (F := Ideal) m ρ c (Proc.devRef .tc main_v15) = (Cert.Gcn.dcol (Cert.Gcn.dstOf (m ((c : Thread nD τ).loc main_arg1)))) := (s2_keep_v15 (W6 (F := Ideal) m ρ c)).trans (W6_v15 m ρ c)

/-! ### The third grid and the stretch after it -/

theorem W8_v42 : W8 (F := Ideal) m ρ c (Proc.devRef .tc main_v42) = (Cert.Gcn.projH (Cert.Gcn.aggK (Cert.Gcn.srcOf (m ((c : Thread nD τ).loc main_arg1))) (Cert.Gcn.dstOf (m ((c : Thread nD τ).loc main_arg1))) (Cert.Gcn.projH (Cert.Gcn.aggK (Cert.Gcn.srcOf (m ((c : Thread nD τ).loc main_arg1))) (Cert.Gcn.dstOf (m ((c : Thread nD τ).loc main_arg1))) (Cert.Gcn.proj0 (m ((c : Thread nD τ).loc main_arg0)) (m ((c : Thread nD τ).loc main_arg2)) (Cert.Gcn.dcol (Cert.Gcn.dstOf (m ((c : Thread nD τ).loc main_arg1)))))) (shapeCast S1x64 (m ((c : Thread nD τ).loc main_arg3)) shapeCasts_S64_S1x64) (m ((c : Thread nD τ).loc main_arg4)) (Cert.Gcn.dcol (Cert.Gcn.dstOf (m ((c : Thread nD τ).loc main_arg1)))))) (shapeCast S1x64 (m ((c : Thread nD τ).loc main_arg5)) shapeCasts_S64_S1x64) (m ((c : Thread nD τ).loc main_arg6)) (Cert.Gcn.dcol (Cert.Gcn.dstOf (m ((c : Thread nD τ).loc main_arg1))))) := by
  refine ((W8_arr m ρ c 4).trans (RegionValue.final2 (V7 m ρ) c)).trans ?_
  show Cert.Gcn.projH (W7 (F := Ideal) m ρ c (Proc.devRef .tc main_v40)) (W7 (F := Ideal) m ρ c (Proc.devRef .tc main_v41)) (W7 (F := Ideal) m ρ c (Proc.devRef .tc main_arg6)) (W7 (F := Ideal) m ρ c (Proc.devRef .tc main_v15)) = _
  rw [W7_v40 m ρ c, W7_v41 m ρ c, W7_arg6 m ρ c, W7_v15 m ρ c]
theorem W8_v3 : W8 (F := Ideal) m ρ c (Proc.devRef .tc main_v3) = (Cert.Gcn.srcOf (m ((c : Thread nD τ).loc main_arg1))) := (W8_of_ne m ρ c main_v3 (by decide)).trans (W7_v3 m ρ c)
theorem W8_v6 : W8 (F := Ideal) m ρ c (Proc.devRef .tc main_v6) = (Cert.Gcn.dstOf (m ((c : Thread nD τ).loc main_arg1))) := (W8_of_ne m ρ c main_v6 (by decide)).trans (W7_v6 m ρ c)
theorem W8_v15 : W8 (F := Ideal) m ρ c (Proc.devRef .tc main_v15) = (Cert.Gcn.dcol (Cert.Gcn.dstOf (m ((c : Thread nD τ).loc main_arg1)))) :=
  ((W8_arr m ρ c 3).trans (((dat2 (V7 m ρ) c).arrAt_in 3 rfl _).trans (A_eq2 (V7 m ρ) c 3))).trans (W7_v15 m ρ c)

theorem W9_v53 : W9 (F := Ideal) m ρ c (Proc.devRef .tc main_v53) = (Cert.Gcn.aggK (Cert.Gcn.srcOf (m ((c : Thread nD τ).loc main_arg1))) (Cert.Gcn.dstOf (m ((c : Thread nD τ).loc main_arg1))) (Cert.Gcn.projH (Cert.Gcn.aggK (Cert.Gcn.srcOf (m ((c : Thread nD τ).loc main_arg1))) (Cert.Gcn.dstOf (m ((c : Thread nD τ).loc main_arg1))) (Cert.Gcn.projH (Cert.Gcn.aggK (Cert.Gcn.srcOf (m ((c : Thread nD τ).loc main_arg1))) (Cert.Gcn.dstOf (m ((c : Thread nD τ).loc main_arg1))) (Cert.Gcn.proj0 (m ((c : Thread nD τ).loc main_arg0)) (m ((c : Thread nD τ).loc main_arg2)) (Cert.Gcn.dcol (Cert.Gcn.dstOf (m ((c : Thread nD τ).loc main_arg1)))))) (shapeCast S1x64 (m ((c : Thread nD τ).loc main_arg3)) shapeCasts_S64_S1x64) (m ((c : Thread nD τ).loc main_arg4)) (Cert.Gcn.dcol (Cert.Gcn.dstOf (m ((c : Thread nD τ).loc main_arg1)))))) (shapeCast S1x64 (m ((c : Thread nD τ).loc main_arg5)) shapeCasts_S64_S1x64) (m ((c : Thread nD τ).loc main_arg6)) (Cert.Gcn.dcol (Cert.Gcn.dstOf (m ((c : Thread nD τ).loc main_arg1)))))) := by
  refine (s3_v53 (W8 (F := Ideal) m ρ c)).trans ?_
  rw [W8_v3 m ρ c, W8_v6 m ρ c, W8_v42 m ρ c]
theorem W9_v54 : W9 (F := Ideal) m ρ c (Proc.devRef .tc main_v54) = (shapeCast S1x64 (m ((c : Thread nD τ).loc main_arg7)) shapeCasts_S64_S1x64) := by
  refine (s3_v54 (W8 (F := Ideal) m ρ c)).trans ?_
  rw [W8_arg7 m ρ c]
theorem W9_v55 : W9 (F := Ideal) m ρ c (Proc.devRef .tc main_v55) = (shapeCast S1x1 (m ((c : Thread nD τ).loc main_arg9)) shapeCasts_S1_S1x1) := by
  refine (s3_v55 (W8 (F := Ideal) m ρ c)).trans ?_
  rw [W8_arg9 m ρ c]
theorem W9_v15 : W9 (F := Ideal) m ρ c (Proc.devRef .tc main_v15) = (Cert.Gcn.dcol (Cert.Gcn.dstOf (m ((c : Thread nD τ).loc main_arg1)))) := (s3_keep_v15 (W8 (F := Ideal) m ρ c)).trans (W8_v15 m ρ c)

/-! ### The last grid and the result -/

theorem W10_v56 : W10 (F := Ideal) m ρ c (Proc.devRef .tc main_v56) = (Cert.Gcn.readout (Cert.Gcn.aggK (Cert.Gcn.srcOf (m ((c : Thread nD τ).loc main_arg1))) (Cert.Gcn.dstOf (m ((c : Thread nD τ).loc main_arg1))) (Cert.Gcn.projH (Cert.Gcn.aggK (Cert.Gcn.srcOf (m ((c : Thread nD τ).loc main_arg1))) (Cert.Gcn.dstOf (m ((c : Thread nD τ).loc main_arg1))) (Cert.Gcn.projH (Cert.Gcn.aggK (Cert.Gcn.srcOf (m ((c : Thread nD τ).loc main_arg1))) (Cert.Gcn.dstOf (m ((c : Thread nD τ).loc main_arg1))) (Cert.Gcn.proj0 (m ((c : Thread nD τ).loc main_arg0)) (m ((c : Thread nD τ).loc main_arg2)) (Cert.Gcn.dcol (Cert.Gcn.dstOf (m ((c : Thread nD τ).loc main_arg1)))))) (shapeCast S1x64 (m ((c : Thread nD τ).loc main_arg3)) shapeCasts_S64_S1x64) (m ((c : Thread nD τ).loc main_arg4)) (Cert.Gcn.dcol (Cert.Gcn.dstOf (m ((c : Thread nD τ).loc main_arg1)))))) (shapeCast S1x64 (m ((c : Thread nD τ).loc main_arg5)) shapeCasts_S64_S1x64) (m ((c : Thread nD τ).loc main_arg6)) (Cert.Gcn.dcol (Cert.Gcn.dstOf (m ((c : Thread nD τ).loc main_arg1)))))) (shapeCast S1x64 (m ((c : Thread nD τ).loc main_arg7)) shapeCasts_S64_S1x64) (Cert.Gcn.dcol (Cert.Gcn.dstOf (m ((c : Thread nD τ).loc main_arg1)))) (m ((c : Thread nD τ).loc main_arg8)) (shapeCast S1x1 (m ((c : Thread nD τ).loc main_arg9)) shapeCasts_S1_S1x1)) := by
  refine ((W10_arr m ρ c 5).trans (RegionValue.final3 (V9 m ρ) c)).trans ?_
  show Cert.Gcn.readout (W9 (F := Ideal) m ρ c (Proc.devRef .tc main_v53)) (W9 (F := Ideal) m ρ c (Proc.devRef .tc main_v54)) (W9 (F := Ideal) m ρ c (Proc.devRef .tc main_v15)) (W9 (F := Ideal) m ρ c (Proc.devRef .tc main_arg8)) (W9 (F := Ideal) m ρ c (Proc.devRef .tc main_v55)) = _
  rw [W9_v53 m ρ c, W9_v54 m ρ c, W9_v15 m ρ c, W9_arg8 m ρ c, W9_v55 m ρ c]

/-- THE KERNEL'S VALUE: the result buffer at the last fold is the factored network of the launch arrays. -/
theorem value : W11 (F := Ideal) m ρ c (Proc.devRef .tc main_v57)
    = Cert.Gcn.kernelOut (Cert.Gcn.srcOf (m ((c : Thread nD τ).loc main_arg1))) (Cert.Gcn.dstOf (m ((c : Thread nD τ).loc main_arg1)))
        (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (s4_v57 (W10 (F := Ideal) m ρ c)).trans ?_
  rw [W10_v56 m ρ c]
  unfold Cert.Gcn.kernelOut
  rfl

end Cert.KernelIdeal.RunValue

end
-- ==== Proof.RefOps.lean ====
/-
  The reference program as a list of array operations.

  The reference is a straight line of 152 array operations on one device (the two outlined functions, a select against
  a scalar and a clamp at zero, stand inline at their four call sites). The program IS the sequence of that list; it
  scopes no buffer and no semaphore; and every operation reads and writes buffers of the device only. These are the
  facts the run of the list is read from.
-/
import proofs.«181710_j67044439491025_2_alg».proof.Proof.Gen.ReferenceIdeal
import proofs.«181710_j67044439491025_2_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 152 array operations, in program order. The outlined `where` (once) and `relu` (three times)
    stand at their call sites as their own operations: a copy, a broadcast and a select; a zero, a broadcast and a maximum. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    binary main_arg0 main_arg2 main_v15 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v14 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v15 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf,
    binary main_v47 main_arg4 main_v48 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v14 main_v54 main_v55 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_11 (constantI S_ 32 0#32),
    unary main_c_11 main_v56 (broadcastInDim S1700000 ![] bcast_S_S1700000 : (⟨S_, .i32⟩ : BufTy).Contents (Elt F) → (⟨S1700000, .i32⟩ : BufTy).Contents (Elt F)),
    binary main_v6 main_v56 main_v57 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v58 (broadcastInDim S1700000 ![] bcast_S_S1700000 : (⟨S_, .i32⟩ : BufTy).Contents (Elt F) → (⟨S1700000, .i32⟩ : BufTy).Contents (Elt F)),
    binary main_v6 main_v58 main_v59 (addi : (⟨S1700000, .i32⟩ : BufTy).Contents (Elt F) → (⟨S1700000, .i32⟩ : BufTy).Contents (Elt F) → (⟨S1700000, .i32⟩ : BufTy).Contents (Elt F)),
    ternary main_v57 main_v59 main_v6 main_v60 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v60 main_v61 (broadcastInDim S1700000x1 ![0] bcast_S1700000_S1700000x1_0 : (⟨S1700000, .i32⟩ : BufTy).Contents (Elt F) → (⟨S1700000x1, .i32⟩ : BufTy).Contents (Elt F)),
    binary main_v14 main_v61 main_v62 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v55 main_v62 main_v63 (mulf : (⟨S1700000, .f32⟩ : BufTy).Contents (Elt F) → (⟨S1700000, .f32⟩ : BufTy).Contents (Elt F) → (⟨S1700000, .f32⟩ : BufTy).Contents (Elt F)),
    nullary main_c_13 (constantI S_ 32 0#32),
    unary main_c_13 main_v64 (broadcastInDim S1700000 ![] bcast_S_S1700000 : (⟨S_, .i32⟩ : BufTy).Contents (Elt F) → (⟨S1700000, .i32⟩ : BufTy).Contents (Elt F)),
    binary main_v3 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v66 (broadcastInDim S1700000 ![] bcast_S_S1700000 : (⟨S_, .i32⟩ : BufTy).Contents (Elt F) → (⟨S1700000, .i32⟩ : BufTy).Contents (Elt F)),
    binary main_v3 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v3 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v48 main_v69 main_v70 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v63 main_v71 (broadcastInDim S1700000x1 ![0] bcast_S1700000_S1700000x1_0 : (⟨S1700000, .f32⟩ : BufTy).Contents (Elt F) → (⟨S1700000x1, .f32⟩ : BufTy).Contents (Elt F)),
    unary main_v71 main_v72 (broadcastInDim S1700000x64 ![0, 1] bcast_S1700000x1_S1700000x64_0_1 : (⟨S1700000x1, .f32⟩ : BufTy).Contents (Elt F) → (⟨S1700000x64, .f32⟩ : BufTy).Contents (Elt F)),
    binary main_v70 main_v72 main_v73 (mulf : (⟨S1700000x64, .f32⟩ : BufTy).Contents (Elt F) → (⟨S1700000x64, .f32⟩ : BufTy).Contents (Elt F) → (⟨S1700000x64, .f32⟩ : BufTy).Contents (Elt F)),
    nullary main_cst_15 (constant S_ .f32 0x00000000#32),
    unary main_cst_15 main_v74 (broadcastInDim S100000x64 ![] bcast_S_S100000x64 : (⟨S_, .f32⟩ : BufTy).Contents (Elt F) → (⟨S100000x64, .f32⟩ : BufTy).Contents (Elt F)),
    unary main_v6 main_v75 (broadcastInDim S1700000x1 ![0] bcast_S1700000_S1700000x1_0 : (⟨S1700000, .i32⟩ : BufTy).Contents (Elt F) → (⟨S1700000x1, .i32⟩ : BufTy).Contents (Elt F)),
    ternary main_v74 main_v75 main_v73 main_v76 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v77 (broadcastInDim S1x64 ![1] bcast_S64_S1x64_1 : (⟨S64, .f32⟩ : BufTy).Contents (Elt F) → (⟨S1x64, .f32⟩ : BufTy).Contents (Elt F)),
    unary main_v77 main_v78 (broadcastInDim S100000x64 ![0, 1] bcast_S1x64_S100000x64_0_1 : (⟨S1x64, .f32⟩ : BufTy).Contents (Elt F) → (⟨S100000x64, .f32⟩ : BufTy).Contents (Elt F)),
    binary main_v76 main_v78 main_v79 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v79) (TRef.of (T := ⟨S100000x64, .f32⟩) main_call2_v0) (TRef.of (T := ⟨S100000x64, .f32⟩) main_v80) maximumf,
    binary main_v80 main_arg6 main_v81 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_16 (constantI S_ 32 0#32),
    unary main_c_16 main_v82 (broadcastInDim S1700000 ![] bcast_S_S1700000 : (⟨S_, .i32⟩ : BufTy).Contents (Elt F) → (⟨S1700000, .i32⟩ : BufTy).Contents (Elt F)),
    binary main_v3 main_v82 main_v83 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v84 (broadcastInDim S1700000 ![] bcast_S_S1700000 : (⟨S_, .i32⟩ : BufTy).Contents (Elt F) → (⟨S1700000, .i32⟩ : BufTy).Contents (Elt F)),
    binary main_v3 main_v84 main_v85 (addi : (⟨S1700000, .i32⟩ : BufTy).Contents (Elt F) → (⟨S1700000, .i32⟩ : BufTy).Contents (Elt F) → (⟨S1700000, .i32⟩ : BufTy).Contents (Elt F)),
    ternary main_v83 main_v85 main_v3 main_v86 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v86 main_v87 (broadcastInDim S1700000x1 ![0] bcast_S1700000_S1700000x1_0 : (⟨S1700000, .i32⟩ : BufTy).Contents (Elt F) → (⟨S1700000x1, .i32⟩ : BufTy).Contents (Elt F)),
    binary main_v14 main_v87 main_v88 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_18 (constantI S_ 32 0#32),
    unary main_c_18 main_v89 (broadcastInDim S1700000 ![] bcast_S_S1700000 : (⟨S_, .i32⟩ : BufTy).Contents (Elt F) → (⟨S1700000, .i32⟩ : BufTy).Contents (Elt F)),
    binary main_v6 main_v89 main_v90 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v91 (broadcastInDim S1700000 ![] bcast_S_S1700000 : (⟨S_, .i32⟩ : BufTy).Contents (Elt F) → (⟨S1700000, .i32⟩ : BufTy).Contents (Elt F)),
    binary main_v6 main_v91 main_v92 (addi : (⟨S1700000, .i32⟩ : BufTy).Contents (Elt F) → (⟨S1700000, .i32⟩ : BufTy).Contents (Elt F) → (⟨S1700000, .i32⟩ : BufTy).Contents (Elt F)),
    ternary main_v90 main_v92 main_v6 main_v93 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v93 main_v94 (broadcastInDim S1700000x1 ![0] bcast_S1700000_S1700000x1_0 : (⟨S1700000, .i32⟩ : BufTy).Contents (Elt F) → (⟨S1700000x1, .i32⟩ : BufTy).Contents (Elt F)),
    binary main_v14 main_v94 main_v95 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v88 main_v95 main_v96 (mulf : (⟨S1700000, .f32⟩ : BufTy).Contents (Elt F) → (⟨S1700000, .f32⟩ : BufTy).Contents (Elt F) → (⟨S1700000, .f32⟩ : BufTy).Contents (Elt F)),
    nullary main_c_20 (constantI S_ 32 0#32),
    unary main_c_20 main_v97 (broadcastInDim S1700000 ![] bcast_S_S1700000 : (⟨S_, .i32⟩ : BufTy).Contents (Elt F) → (⟨S1700000, .i32⟩ : BufTy).Contents (Elt F)),
    binary main_v3 main_v97 main_v98 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v99 (broadcastInDim S1700000 ![] bcast_S_S1700000 : (⟨S_, .i32⟩ : BufTy).Contents (Elt F) → (⟨S1700000, .i32⟩ : BufTy).Contents (Elt F)),
    binary main_v3 main_v99 main_v100 (addi : (⟨S1700000, .i32⟩ : BufTy).Contents (Elt F) → (⟨S1700000, .i32⟩ : BufTy).Contents (Elt F) → (⟨S1700000, .i32⟩ : BufTy).Contents (Elt F)),
    ternary main_v98 main_v100 main_v3 main_v101 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v101 main_v102 (broadcastInDim S1700000x1 ![0] bcast_S1700000_S1700000x1_0 : (⟨S1700000, .i32⟩ : BufTy).Contents (Elt F) → (⟨S1700000x1, .i32⟩ : BufTy).Contents (Elt F)),
    binary main_v81 main_v102 main_v103 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v96 main_v104 (broadcastInDim S1700000x1 ![0] bcast_S1700000_S1700000x1_0 : (⟨S1700000, .f32⟩ : BufTy).Contents (Elt F) → (⟨S1700000x1, .f32⟩ : BufTy).Contents (Elt F)),
    unary main_v104 main_v105 (broadcastInDim S1700000x64 ![0, 1] bcast_S1700000x1_S1700000x64_0_1 : (⟨S1700000x1, .f32⟩ : BufTy).Contents (Elt F) → (⟨S1700000x64, .f32⟩ : BufTy).Contents (Elt F)),
    binary main_v103 main_v105 main_v106 (mulf : (⟨S1700000x64, .f32⟩ : BufTy).Contents (Elt F) → (⟨S1700000x64, .f32⟩ : BufTy).Contents (Elt F) → (⟨S1700000x64, .f32⟩ : BufTy).Contents (Elt F)),
    nullary main_cst_22 (constant S_ .f32 0x00000000#32),
    unary main_cst_22 main_v107 (broadcastInDim S100000x64 ![] bcast_S_S100000x64 : (⟨S_, .f32⟩ : BufTy).Contents (Elt F) → (⟨S100000x64, .f32⟩ : BufTy).Contents (Elt F)),
    unary main_v6 main_v108 (broadcastInDim S1700000x1 ![0] bcast_S1700000_S1700000x1_0 : (⟨S1700000, .i32⟩ : BufTy).Contents (Elt F) → (⟨S1700000x1, .i32⟩ : BufTy).Contents (Elt F)),
    ternary main_v107 main_v108 main_v106 main_v109 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v110 (broadcastInDim S1x64 ![1] bcast_S64_S1x64_1 : (⟨S64, .f32⟩ : BufTy).Contents (Elt F) → (⟨S1x64, .f32⟩ : BufTy).Contents (Elt F)),
    unary main_v110 main_v111 (broadcastInDim S100000x64 ![0, 1] bcast_S1x64_S100000x64_0_1 : (⟨S1x64, .f32⟩ : BufTy).Contents (Elt F) → (⟨S100000x64, .f32⟩ : BufTy).Contents (Elt F)),
    binary main_v109 main_v111 main_v112 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v112) (TRef.of (T := ⟨S100000x64, .f32⟩) main_call3_v0) (TRef.of (T := ⟨S100000x64, .f32⟩) main_v113) maximumf,
    binary main_v113 main_arg8 main_v114 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg9 main_v115 (broadcastInDim S1x1 ![1] bcast_S1_S1x1_1 : (⟨S1, .f32⟩ : BufTy).Contents (Elt F) → (⟨S1x1, .f32⟩ : BufTy).Contents (Elt F)),
    unary main_v115 main_v116 (broadcastInDim S100000x1 ![0, 1] bcast_S1x1_S100000x1_0_1 : (⟨S1x1, .f32⟩ : BufTy).Contents (Elt F) → (⟨S100000x1, .f32⟩ : BufTy).Contents (Elt F)),
    binary main_v114 main_v116 main_v117 (addf : (⟨S100000x1, .f32⟩ : BufTy).Contents (Elt F) → (⟨S100000x1, .f32⟩ : BufTy).Contents (Elt F) → (⟨S100000x1, .f32⟩ : BufTy).Contents (Elt F)),
    reshape main_v117 main_v118 rfl shapeCasts_S100000x1_S100000 ]

set_option maxRecDepth 8192 in
set_option maxHeartbeats 4000000 in
/-- The program is the sequence of its operations. -/
theorem main_eq (c : Dev nD) : main (F := F) c = seq ops := rfl
/-- No buffer and no semaphore of the program is scoped: every buffer lives for the whole run. -/
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation reads and writes buffers of the device only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

end Cert.ReferenceIdeal.RefRun

end
-- ==== Proof.RefValue.lean ====
/-
  The reference program's value: its 152 array operations, applied in order to the launch contents, leave in the
  result buffer the specification's network of the edge lists and the float arguments.

  The list is cut into consecutive stretches: the edge words and the degrees; the node factor; for each of the three
  convolutions, the dense product, the two gathered factors and their product, the gathered rows scaled edge by edge,
  the segment sum and the bias, and then the clamp at zero; the readout. For each stretch, over ANY contents at its
  start, the few buffers later stretches read hold the specification's pieces of what the stretch reads, and the
  buffers it does not write keep their contents. The value is the composition of these facts along the list.
-/
import proofs.«181710_j67044439491025_2_alg».proof.Proof.RefOps
import proofs.«181710_j67044439491025_2_alg».proof.Proof.Spec
import Idealize.ShloMosaic.Lib.StableHlo.Run
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

section Lists
variable {F : FTy → Type} [FloatOps F]

/-- The edge words and the degrees: 18 operations. -/
abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The node factor chosen where the degree is positive: 3 operations. -/
abbrev opsW : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The first convolution up to its bias: 39 operations. -/
abbrev opsL1 : List (HloOp τ sig (Elt F)) :=
  [ binary main_arg0 main_arg2 main_v15 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v14 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v15 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)) ]

/-- The first clamp at zero: 3 operations. -/
abbrev opsC1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf ]

/-- The second convolution up to its bias: 39 operations. -/
abbrev opsL2 : List (HloOp τ sig (Elt F)) :=
  [ binary main_v47 main_arg4 main_v48 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v14 main_v54 main_v55 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_11 (constantI S_ 32 0#32),
    unary main_c_11 main_v56 (broadcastInDim S1700000 ![] bcast_S_S1700000 : (⟨S_, .i32⟩ : BufTy).Contents (Elt F) → (⟨S1700000, .i32⟩ : BufTy).Contents (Elt F)),
    binary main_v6 main_v56 main_v57 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v58 (broadcastInDim S1700000 ![] bcast_S_S1700000 : (⟨S_, .i32⟩ : BufTy).Contents (Elt F) → (⟨S1700000, .i32⟩ : BufTy).Contents (Elt F)),
    binary main_v6 main_v58 main_v59 (addi : (⟨S1700000, .i32⟩ : BufTy).Contents (Elt F) → (⟨S1700000, .i32⟩ : BufTy).Contents (Elt F) → (⟨S1700000, .i32⟩ : BufTy).Contents (Elt F)),
    ternary main_v57 main_v59 main_v6 main_v60 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v60 main_v61 (broadcastInDim S1700000x1 ![0] bcast_S1700000_S1700000x1_0 : (⟨S1700000, .i32⟩ : BufTy).Contents (Elt F) → (⟨S1700000x1, .i32⟩ : BufTy).Contents (Elt F)),
    binary main_v14 main_v61 main_v62 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v55 main_v62 main_v63 (mulf : (⟨S1700000, .f32⟩ : BufTy).Contents (Elt F) → (⟨S1700000, .f32⟩ : BufTy).Contents (Elt F) → (⟨S1700000, .f32⟩ : BufTy).Contents (Elt F)),
    nullary main_c_13 (constantI S_ 32 0#32),
    unary main_c_13 main_v64 (broadcastInDim S1700000 ![] bcast_S_S1700000 : (⟨S_, .i32⟩ : BufTy).Contents (Elt F) → (⟨S1700000, .i32⟩ : BufTy).Contents (Elt F)),
    binary main_v3 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v66 (broadcastInDim S1700000 ![] bcast_S_S1700000 : (⟨S_, .i32⟩ : BufTy).Contents (Elt F) → (⟨S1700000, .i32⟩ : BufTy).Contents (Elt F)),
    binary main_v3 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v3 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v48 main_v69 main_v70 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v63 main_v71 (broadcastInDim S1700000x1 ![0] bcast_S1700000_S1700000x1_0 : (⟨S1700000, .f32⟩ : BufTy).Contents (Elt F) → (⟨S1700000x1, .f32⟩ : BufTy).Contents (Elt F)),
    unary main_v71 main_v72 (broadcastInDim S1700000x64 ![0, 1] bcast_S1700000x1_S1700000x64_0_1 : (⟨S1700000x1, .f32⟩ : BufTy).Contents (Elt F) → (⟨S1700000x64, .f32⟩ : BufTy).Contents (Elt F)),
    binary main_v70 main_v72 main_v73 (mulf : (⟨S1700000x64, .f32⟩ : BufTy).Contents (Elt F) → (⟨S1700000x64, .f32⟩ : BufTy).Contents (Elt F) → (⟨S1700000x64, .f32⟩ : BufTy).Contents (Elt F)),
    nullary main_cst_15 (constant S_ .f32 0x00000000#32),
    unary main_cst_15 main_v74 (broadcastInDim S100000x64 ![] bcast_S_S100000x64 : (⟨S_, .f32⟩ : BufTy).Contents (Elt F) → (⟨S100000x64, .f32⟩ : BufTy).Contents (Elt F)),
    unary main_v6 main_v75 (broadcastInDim S1700000x1 ![0] bcast_S1700000_S1700000x1_0 : (⟨S1700000, .i32⟩ : BufTy).Contents (Elt F) → (⟨S1700000x1, .i32⟩ : BufTy).Contents (Elt F)),
    ternary main_v74 main_v75 main_v73 main_v76 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v77 (broadcastInDim S1x64 ![1] bcast_S64_S1x64_1 : (⟨S64, .f32⟩ : BufTy).Contents (Elt F) → (⟨S1x64, .f32⟩ : BufTy).Contents (Elt F)),
    unary main_v77 main_v78 (broadcastInDim S100000x64 ![0, 1] bcast_S1x64_S100000x64_0_1 : (⟨S1x64, .f32⟩ : BufTy).Contents (Elt F) → (⟨S100000x64, .f32⟩ : BufTy).Contents (Elt F)),
    binary main_v76 main_v78 main_v79 (addf : (⟨S100000x64, .f32⟩ : BufTy).Contents (Elt F) → (⟨S100000x64, .f32⟩ : BufTy).Contents (Elt F) → (⟨S100000x64, .f32⟩ : BufTy).Contents (Elt F)) ]

/-- The second clamp at zero: 3 operations. -/
abbrev opsC2 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v79) (TRef.of (T := ⟨S100000x64, .f32⟩) main_call2_v0) (TRef.of (T := ⟨S100000x64, .f32⟩) main_v80) maximumf ]

/-- The third convolution up to its bias: 39 operations. -/
abbrev opsL3 : List (HloOp τ sig (Elt F)) :=
  [ binary main_v80 main_arg6 main_v81 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_16 (constantI S_ 32 0#32),
    unary main_c_16 main_v82 (broadcastInDim S1700000 ![] bcast_S_S1700000 : (⟨S_, .i32⟩ : BufTy).Contents (Elt F) → (⟨S1700000, .i32⟩ : BufTy).Contents (Elt F)),
    binary main_v3 main_v82 main_v83 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v84 (broadcastInDim S1700000 ![] bcast_S_S1700000 : (⟨S_, .i32⟩ : BufTy).Contents (Elt F) → (⟨S1700000, .i32⟩ : BufTy).Contents (Elt F)),
    binary main_v3 main_v84 main_v85 (addi : (⟨S1700000, .i32⟩ : BufTy).Contents (Elt F) → (⟨S1700000, .i32⟩ : BufTy).Contents (Elt F) → (⟨S1700000, .i32⟩ : BufTy).Contents (Elt F)),
    ternary main_v83 main_v85 main_v3 main_v86 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v86 main_v87 (broadcastInDim S1700000x1 ![0] bcast_S1700000_S1700000x1_0 : (⟨S1700000, .i32⟩ : BufTy).Contents (Elt F) → (⟨S1700000x1, .i32⟩ : BufTy).Contents (Elt F)),
    binary main_v14 main_v87 main_v88 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_18 (constantI S_ 32 0#32),
    unary main_c_18 main_v89 (broadcastInDim S1700000 ![] bcast_S_S1700000 : (⟨S_, .i32⟩ : BufTy).Contents (Elt F) → (⟨S1700000, .i32⟩ : BufTy).Contents (Elt F)),
    binary main_v6 main_v89 main_v90 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v91 (broadcastInDim S1700000 ![] bcast_S_S1700000 : (⟨S_, .i32⟩ : BufTy).Contents (Elt F) → (⟨S1700000, .i32⟩ : BufTy).Contents (Elt F)),
    binary main_v6 main_v91 main_v92 (addi : (⟨S1700000, .i32⟩ : BufTy).Contents (Elt F) → (⟨S1700000, .i32⟩ : BufTy).Contents (Elt F) → (⟨S1700000, .i32⟩ : BufTy).Contents (Elt F)),
    ternary main_v90 main_v92 main_v6 main_v93 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v93 main_v94 (broadcastInDim S1700000x1 ![0] bcast_S1700000_S1700000x1_0 : (⟨S1700000, .i32⟩ : BufTy).Contents (Elt F) → (⟨S1700000x1, .i32⟩ : BufTy).Contents (Elt F)),
    binary main_v14 main_v94 main_v95 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v88 main_v95 main_v96 (mulf : (⟨S1700000, .f32⟩ : BufTy).Contents (Elt F) → (⟨S1700000, .f32⟩ : BufTy).Contents (Elt F) → (⟨S1700000, .f32⟩ : BufTy).Contents (Elt F)),
    nullary main_c_20 (constantI S_ 32 0#32),
    unary main_c_20 main_v97 (broadcastInDim S1700000 ![] bcast_S_S1700000 : (⟨S_, .i32⟩ : BufTy).Contents (Elt F) → (⟨S1700000, .i32⟩ : BufTy).Contents (Elt F)),
    binary main_v3 main_v97 main_v98 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v99 (broadcastInDim S1700000 ![] bcast_S_S1700000 : (⟨S_, .i32⟩ : BufTy).Contents (Elt F) → (⟨S1700000, .i32⟩ : BufTy).Contents (Elt F)),
    binary main_v3 main_v99 main_v100 (addi : (⟨S1700000, .i32⟩ : BufTy).Contents (Elt F) → (⟨S1700000, .i32⟩ : BufTy).Contents (Elt F) → (⟨S1700000, .i32⟩ : BufTy).Contents (Elt F)),
    ternary main_v98 main_v100 main_v3 main_v101 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v101 main_v102 (broadcastInDim S1700000x1 ![0] bcast_S1700000_S1700000x1_0 : (⟨S1700000, .i32⟩ : BufTy).Contents (Elt F) → (⟨S1700000x1, .i32⟩ : BufTy).Contents (Elt F)),
    binary main_v81 main_v102 main_v103 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v96 main_v104 (broadcastInDim S1700000x1 ![0] bcast_S1700000_S1700000x1_0 : (⟨S1700000, .f32⟩ : BufTy).Contents (Elt F) → (⟨S1700000x1, .f32⟩ : BufTy).Contents (Elt F)),
    unary main_v104 main_v105 (broadcastInDim S1700000x64 ![0, 1] bcast_S1700000x1_S1700000x64_0_1 : (⟨S1700000x1, .f32⟩ : BufTy).Contents (Elt F) → (⟨S1700000x64, .f32⟩ : BufTy).Contents (Elt F)),
    binary main_v103 main_v105 main_v106 (mulf : (⟨S1700000x64, .f32⟩ : BufTy).Contents (Elt F) → (⟨S1700000x64, .f32⟩ : BufTy).Contents (Elt F) → (⟨S1700000x64, .f32⟩ : BufTy).Contents (Elt F)),
    nullary main_cst_22 (constant S_ .f32 0x00000000#32),
    unary main_cst_22 main_v107 (broadcastInDim S100000x64 ![] bcast_S_S100000x64 : (⟨S_, .f32⟩ : BufTy).Contents (Elt F) → (⟨S100000x64, .f32⟩ : BufTy).Contents (Elt F)),
    unary main_v6 main_v108 (broadcastInDim S1700000x1 ![0] bcast_S1700000_S1700000x1_0 : (⟨S1700000, .i32⟩ : BufTy).Contents (Elt F) → (⟨S1700000x1, .i32⟩ : BufTy).Contents (Elt F)),
    ternary main_v107 main_v108 main_v106 main_v109 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v110 (broadcastInDim S1x64 ![1] bcast_S64_S1x64_1 : (⟨S64, .f32⟩ : BufTy).Contents (Elt F) → (⟨S1x64, .f32⟩ : BufTy).Contents (Elt F)),
    unary main_v110 main_v111 (broadcastInDim S100000x64 ![0, 1] bcast_S1x64_S100000x64_0_1 : (⟨S1x64, .f32⟩ : BufTy).Contents (Elt F) → (⟨S100000x64, .f32⟩ : BufTy).Contents (Elt F)),
    binary main_v109 main_v111 main_v112 (addf : (⟨S100000x64, .f32⟩ : BufTy).Contents (Elt F) → (⟨S100000x64, .f32⟩ : BufTy).Contents (Elt F) → (⟨S100000x64, .f32⟩ : BufTy).Contents (Elt F)) ]

/-- The third clamp at zero: 3 operations. -/
abbrev opsC3 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v112) (TRef.of (T := ⟨S100000x64, .f32⟩) main_call3_v0) (TRef.of (T := ⟨S100000x64, .f32⟩) main_v113) maximumf ]

/-- The readout: 5 operations. -/
abbrev opsR : List (HloOp τ sig (Elt F)) :=
  [ binary main_v113 main_arg8 main_v114 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg9 main_v115 (broadcastInDim S1x1 ![1] bcast_S1_S1x1_1 : (⟨S1, .f32⟩ : BufTy).Contents (Elt F) → (⟨S1x1, .f32⟩ : BufTy).Contents (Elt F)),
    unary main_v115 main_v116 (broadcastInDim S100000x1 ![0, 1] bcast_S1x1_S100000x1_0_1 : (⟨S1x1, .f32⟩ : BufTy).Contents (Elt F) → (⟨S100000x1, .f32⟩ : BufTy).Contents (Elt F)),
    binary main_v114 main_v116 main_v117 (addf : (⟨S100000x1, .f32⟩ : BufTy).Contents (Elt F) → (⟨S100000x1, .f32⟩ : BufTy).Contents (Elt F) → (⟨S100000x1, .f32⟩ : BufTy).Contents (Elt F)),
    reshape main_v117 main_v118 rfl shapeCasts_S100000x1_S100000 ]

set_option maxRecDepth 8192 in
/-- The program's list is these stretches in order. -/
theorem ops_split : (RefRun.ops : List (HloOp τ sig (Elt F)))
    = opsA ++ (opsW ++ (opsL1 ++ (opsC1 ++ (opsL2 ++ (opsC2 ++ (opsL3 ++ (opsC3 ++ opsR))))))) := rfl

end Lists

/-! ## Each stretch, over any contents `X` at its start -/

section Stretches
variable (X : Valuation τ sig (Elt Ideal))

/-! ### The edge words and the degrees -/

/-- The source words: row 0 of the edge array, then one self loop per node. -/
theorem A_v3 : StableHlo.after opsA X (Proc.devRef .tc main_v3) = Cert.Gcn.srcOf (X (Proc.devRef .tc main_arg1)) := by
  after_results
  rfl

/-- The destination words: row 1 of the edge array, then one self loop per node. -/
theorem A_v6 : StableHlo.after opsA X (Proc.devRef .tc main_v6) = Cert.Gcn.dstOf (X (Proc.devRef .tc main_arg1)) := by
  after_results
  rfl

/-- Whether a node's degree is positive. -/
theorem A_v12 : StableHlo.after opsA X (Proc.devRef .tc main_v12)
    = cmpf (F := Ideal) .ogt (Cert.Gcn.deg (Cert.Gcn.dstOf (X (Proc.devRef .tc main_arg1)))) Cert.Gcn.zerosN := by
  after_results
  unfold Cert.Gcn.deg Cert.Gcn.zerosN Cert.Gcn.col Cert.Gcn.dstOf
  rfl

/-- The degrees to the power -1/2. -/
theorem A_v13 : StableHlo.after opsA X (Proc.devRef .tc main_v13)
    = Host.rsqrt (F := Ideal) (Cert.Gcn.deg (Cert.Gcn.dstOf (X (Proc.devRef .tc main_arg1)))) := by
  after_results
  unfold Cert.Gcn.deg Cert.Gcn.zerosN Cert.Gcn.col Cert.Gcn.dstOf
  rfl

/-- The zero the factor takes where the degree is not positive. -/
theorem A_cst2 : StableHlo.after opsA X (Proc.devRef .tc main_cst_2) = constant (F := Ideal) S_ .f32 0x00000000#32 := by
  after_results

theorem A_keep_arg0 : StableHlo.after opsA X (Proc.devRef .tc main_arg0) = X (Proc.devRef .tc main_arg0) := by after_results_simp
theorem A_keep_arg2 : StableHlo.after opsA X (Proc.devRef .tc main_arg2) = X (Proc.devRef .tc main_arg2) := by after_results_simp
theorem A_keep_arg3 : StableHlo.after opsA X (Proc.devRef .tc main_arg3) = X (Proc.devRef .tc main_arg3) := by after_results_simp
theorem A_keep_arg4 : StableHlo.after opsA X (Proc.devRef .tc main_arg4) = X (Proc.devRef .tc main_arg4) := by after_results_simp
theorem A_keep_arg5 : StableHlo.after opsA X (Proc.devRef .tc main_arg5) = X (Proc.devRef .tc main_arg5) := by after_results_simp
theorem A_keep_arg6 : StableHlo.after opsA X (Proc.devRef .tc main_arg6) = X (Proc.devRef .tc main_arg6) := by after_results_simp
theorem A_keep_arg7 : StableHlo.after opsA X (Proc.devRef .tc main_arg7) = X (Proc.devRef .tc main_arg7) := by after_results_simp
theorem A_keep_arg8 : StableHlo.after opsA X (Proc.devRef .tc main_arg8) = X (Proc.devRef .tc main_arg8) := by after_results_simp
theorem A_keep_arg9 : StableHlo.after opsA X (Proc.devRef .tc main_arg9) = X (Proc.devRef .tc main_arg9) := by after_results_simp

/-! ### The node factor -/

/-- The factor: the power where the degree is positive, zero elsewhere. -/
theorem W_v14 : StableHlo.after opsW X (Proc.devRef .tc main_v14)
    = select (X (Proc.devRef .tc main_v12)) (X (Proc.devRef .tc main_v13))
        (broadcastInDim S100000 ![] bcast_S_S100000 (X (Proc.devRef .tc main_cst_2))) := by
  after_results
  rfl

theorem W_keep_v3 : StableHlo.after opsW X (Proc.devRef .tc main_v3) = X (Proc.devRef .tc main_v3) := by after_results_simp
theorem W_keep_v6 : StableHlo.after opsW X (Proc.devRef .tc main_v6) = X (Proc.devRef .tc main_v6) := by after_results_simp
theorem W_keep_arg0 : StableHlo.after opsW X (Proc.devRef .tc main_arg0) = X (Proc.devRef .tc main_arg0) := by after_results_simp
theorem W_keep_arg2 : StableHlo.after opsW X (Proc.devRef .tc main_arg2) = X (Proc.devRef .tc main_arg2) := by after_results_simp
theorem W_keep_arg3 : StableHlo.after opsW X (Proc.devRef .tc main_arg3) = X (Proc.devRef .tc main_arg3) := by after_results_simp
theorem W_keep_arg4 : StableHlo.after opsW X (Proc.devRef .tc main_arg4) = X (Proc.devRef .tc main_arg4) := by after_results_simp
theorem W_keep_arg5 : StableHlo.after opsW X (Proc.devRef .tc main_arg5) = X (Proc.devRef .tc main_arg5) := by after_results_simp
theorem W_keep_arg6 : StableHlo.after opsW X (Proc.devRef .tc main_arg6) = X (Proc.devRef .tc main_arg6) := by after_results_simp
theorem W_keep_arg7 : StableHlo.after opsW X (Proc.devRef .tc main_arg7) = X (Proc.devRef .tc main_arg7) := by after_results_simp
theorem W_keep_arg8 : StableHlo.after opsW X (Proc.devRef .tc main_arg8) = X (Proc.devRef .tc main_arg8) := by after_results_simp
theorem W_keep_arg9 : StableHlo.after opsW X (Proc.devRef .tc main_arg9) = X (Proc.devRef .tc main_arg9) := by after_results_simp

/-! ### Convolution 1 -/

set_option maxRecDepth 8192 in
set_option maxHeartbeats 4000000 in
/-- Before the clamp: the dense product aggregated edge by edge, plus the bias. -/
theorem L1_pre (h14 : X (Proc.devRef .tc main_v14) = Cert.Gcn.dinv (X (Proc.devRef .tc main_v6))) :
    StableHlo.after opsL1 X (Proc.devRef .tc main_v46)
      = addf (F := Ideal) (Cert.Gcn.aggR (X (Proc.devRef .tc main_v3)) (X (Proc.devRef .tc main_v6))
          (Host.dotGeneral (F := Ideal) (φ₁ := .f32) (φ₂ := .f32) dot_S100000x128_S128x64_S100000x64_1_0_0_1_n_n none (X (Proc.devRef .tc main_arg0)) (X (Proc.devRef .tc main_arg2))))
        (broadcastInDim S100000x64 ![0, 1] bcast_S1x64_S100000x64_0_1
          (broadcastInDim S1x64 ![1] bcast_S64_S1x64_1 (X (Proc.devRef .tc main_arg3)))) := by
  after_results_simp
  rw [h14]
  unfold Cert.Gcn.aggR Cert.Gcn.normv Cert.Gcn.wrap Cert.Gcn.col Cert.Gcn.zerosN64
  rfl

theorem L1_keep_v3 : StableHlo.after opsL1 X (Proc.devRef .tc main_v3) = X (Proc.devRef .tc main_v3) := by after_results_simp
theorem L1_keep_v6 : StableHlo.after opsL1 X (Proc.devRef .tc main_v6) = X (Proc.devRef .tc main_v6) := by after_results_simp
theorem L1_keep_v14 : StableHlo.after opsL1 X (Proc.devRef .tc main_v14) = X (Proc.devRef .tc main_v14) := by after_results_simp
theorem L1_keep_arg4 : StableHlo.after opsL1 X (Proc.devRef .tc main_arg4) = X (Proc.devRef .tc main_arg4) := by after_results_simp
theorem L1_keep_arg5 : StableHlo.after opsL1 X (Proc.devRef .tc main_arg5) = X (Proc.devRef .tc main_arg5) := by after_results_simp
theorem L1_keep_arg6 : StableHlo.after opsL1 X (Proc.devRef .tc main_arg6) = X (Proc.devRef .tc main_arg6) := by after_results_simp
theorem L1_keep_arg7 : StableHlo.after opsL1 X (Proc.devRef .tc main_arg7) = X (Proc.devRef .tc main_arg7) := by after_results_simp
theorem L1_keep_arg8 : StableHlo.after opsL1 X (Proc.devRef .tc main_arg8) = X (Proc.devRef .tc main_arg8) := by after_results_simp
theorem L1_keep_arg9 : StableHlo.after opsL1 X (Proc.devRef .tc main_arg9) = X (Proc.devRef .tc main_arg9) := by after_results_simp

/-- The clamp at zero. -/
theorem C1_out : StableHlo.after opsC1 X (Proc.devRef .tc main_v47)
    = maximumf (F := Ideal) (X (Proc.devRef .tc main_v46)) Cert.Gcn.zerosN64 := by
  after_results
  rfl

theorem C1_keep_v3 : StableHlo.after opsC1 X (Proc.devRef .tc main_v3) = X (Proc.devRef .tc main_v3) := by after_results_simp
theorem C1_keep_v6 : StableHlo.after opsC1 X (Proc.devRef .tc main_v6) = X (Proc.devRef .tc main_v6) := by after_results_simp
theorem C1_keep_v14 : StableHlo.after opsC1 X (Proc.devRef .tc main_v14) = X (Proc.devRef .tc main_v14) := by after_results_simp
theorem C1_keep_arg4 : StableHlo.after opsC1 X (Proc.devRef .tc main_arg4) = X (Proc.devRef .tc main_arg4) := by after_results_simp
theorem C1_keep_arg5 : StableHlo.after opsC1 X (Proc.devRef .tc main_arg5) = X (Proc.devRef .tc main_arg5) := by after_results_simp
theorem C1_keep_arg6 : StableHlo.after opsC1 X (Proc.devRef .tc main_arg6) = X (Proc.devRef .tc main_arg6) := by after_results_simp
theorem C1_keep_arg7 : StableHlo.after opsC1 X (Proc.devRef .tc main_arg7) = X (Proc.devRef .tc main_arg7) := by after_results_simp
theorem C1_keep_arg8 : StableHlo.after opsC1 X (Proc.devRef .tc main_arg8) = X (Proc.devRef .tc main_arg8) := by after_results_simp
theorem C1_keep_arg9 : StableHlo.after opsC1 X (Proc.devRef .tc main_arg9) = X (Proc.devRef .tc main_arg9) := by after_results_simp

/-! ### Convolution 2 -/

set_option maxRecDepth 8192 in
set_option maxHeartbeats 4000000 in
/-- Before the clamp: the dense product aggregated edge by edge, plus the bias. -/
theorem L2_pre (h14 : X (Proc.devRef .tc main_v14) = Cert.Gcn.dinv (X (Proc.devRef .tc main_v6))) :
    StableHlo.after opsL2 X (Proc.devRef .tc main_v79)
      = addf (F := Ideal) (Cert.Gcn.aggR (X (Proc.devRef .tc main_v3)) (X (Proc.devRef .tc main_v6))
          (Host.dotGeneral (F := Ideal) (φ₁ := .f32) (φ₂ := .f32) dot_S100000x64_S64x64_S100000x64_1_0_0_1_n_n none (X (Proc.devRef .tc main_v47)) (X (Proc.devRef .tc main_arg4))))
        (broadcastInDim S100000x64 ![0, 1] bcast_S1x64_S100000x64_0_1
          (broadcastInDim S1x64 ![1] bcast_S64_S1x64_1 (X (Proc.devRef .tc main_arg5)))) := by
  after_results_simp
  rw [h14]
  unfold Cert.Gcn.aggR Cert.Gcn.normv Cert.Gcn.wrap Cert.Gcn.col Cert.Gcn.zerosN64
  rfl

theorem L2_keep_v3 : StableHlo.after opsL2 X (Proc.devRef .tc main_v3) = X (Proc.devRef .tc main_v3) := by after_results_simp
theorem L2_keep_v6 : StableHlo.after opsL2 X (Proc.devRef .tc main_v6) = X (Proc.devRef .tc main_v6) := by after_results_simp
theorem L2_keep_v14 : StableHlo.after opsL2 X (Proc.devRef .tc main_v14) = X (Proc.devRef .tc main_v14) := by after_results_simp
theorem L2_keep_arg6 : StableHlo.after opsL2 X (Proc.devRef .tc main_arg6) = X (Proc.devRef .tc main_arg6) := by after_results_simp
theorem L2_keep_arg7 : StableHlo.after opsL2 X (Proc.devRef .tc main_arg7) = X (Proc.devRef .tc main_arg7) := by after_results_simp
theorem L2_keep_arg8 : StableHlo.after opsL2 X (Proc.devRef .tc main_arg8) = X (Proc.devRef .tc main_arg8) := by after_results_simp
theorem L2_keep_arg9 : StableHlo.after opsL2 X (Proc.devRef .tc main_arg9) = X (Proc.devRef .tc main_arg9) := by after_results_simp

/-- The clamp at zero. -/
theorem C2_out : StableHlo.after opsC2 X (Proc.devRef .tc main_v80)
    = maximumf (F := Ideal) (X (Proc.devRef .tc main_v79)) Cert.Gcn.zerosN64 := by
  after_results
  rfl

theorem C2_keep_v3 : StableHlo.after opsC2 X (Proc.devRef .tc main_v3) = X (Proc.devRef .tc main_v3) := by after_results_simp
theorem C2_keep_v6 : StableHlo.after opsC2 X (Proc.devRef .tc main_v6) = X (Proc.devRef .tc main_v6) := by after_results_simp
theorem C2_keep_v14 : StableHlo.after opsC2 X (Proc.devRef .tc main_v14) = X (Proc.devRef .tc main_v14) := by after_results_simp
theorem C2_keep_arg6 : StableHlo.after opsC2 X (Proc.devRef .tc main_arg6) = X (Proc.devRef .tc main_arg6) := by after_results_simp
theorem C2_keep_arg7 : StableHlo.after opsC2 X (Proc.devRef .tc main_arg7) = X (Proc.devRef .tc main_arg7) := by after_results_simp
theorem C2_keep_arg8 : StableHlo.after opsC2 X (Proc.devRef .tc main_arg8) = X (Proc.devRef .tc main_arg8) := by after_results_simp
theorem C2_keep_arg9 : StableHlo.after opsC2 X (Proc.devRef .tc main_arg9) = X (Proc.devRef .tc main_arg9) := by after_results_simp

/-! ### Convolution 3 -/

set_option maxRecDepth 8192 in
set_option maxHeartbeats 4000000 in
/-- Before the clamp: the dense product aggregated edge by edge, plus the bias. -/
theorem L3_pre (h14 : X (Proc.devRef .tc main_v14) = Cert.Gcn.dinv (X (Proc.devRef .tc main_v6))) :
    StableHlo.after opsL3 X (Proc.devRef .tc main_v112)
      = addf (F := Ideal) (Cert.Gcn.aggR (X (Proc.devRef .tc main_v3)) (X (Proc.devRef .tc main_v6))
          (Host.dotGeneral (F := Ideal) (φ₁ := .f32) (φ₂ := .f32) dot_S100000x64_S64x64_S100000x64_1_0_0_1_n_n none (X (Proc.devRef .tc main_v80)) (X (Proc.devRef .tc main_arg6))))
        (broadcastInDim S100000x64 ![0, 1] bcast_S1x64_S100000x64_0_1
          (broadcastInDim S1x64 ![1] bcast_S64_S1x64_1 (X (Proc.devRef .tc main_arg7)))) := by
  after_results_simp
  rw [h14]
  unfold Cert.Gcn.aggR Cert.Gcn.normv Cert.Gcn.wrap Cert.Gcn.col Cert.Gcn.zerosN64
  rfl

theorem L3_keep_arg8 : StableHlo.after opsL3 X (Proc.devRef .tc main_arg8) = X (Proc.devRef .tc main_arg8) := by after_results_simp
theorem L3_keep_arg9 : StableHlo.after opsL3 X (Proc.devRef .tc main_arg9) = X (Proc.devRef .tc main_arg9) := by after_results_simp

/-- The clamp at zero. -/
theorem C3_out : StableHlo.after opsC3 X (Proc.devRef .tc main_v113)
    = maximumf (F := Ideal) (X (Proc.devRef .tc main_v112)) Cert.Gcn.zerosN64 := by
  after_results
  rfl

theorem C3_keep_arg8 : StableHlo.after opsC3 X (Proc.devRef .tc main_arg8) = X (Proc.devRef .tc main_arg8) := by after_results_simp
theorem C3_keep_arg9 : StableHlo.after opsC3 X (Proc.devRef .tc main_arg9) = X (Proc.devRef .tc main_arg9) := by after_results_simp

/-! ### The readout -/

/-- The result: the last activations times the output column, plus the output bias, flattened. -/
theorem R_out : StableHlo.after opsR X (Proc.devRef .tc main_v118)
    = shapeCast S100000
        (addf (F := Ideal)
          (Host.dotGeneral (F := Ideal) (φ₁ := .f32) (φ₂ := .f32) dot_S100000x64_S64x1_S100000x1_1_0_0_1_n_n none (X (Proc.devRef .tc main_v113)) (X (Proc.devRef .tc main_arg8)))
          (broadcastInDim S100000x1 ![0, 1] bcast_S1x1_S100000x1_0_1
            (broadcastInDim S1x1 ![1] bcast_S1_S1x1_1 (X (Proc.devRef .tc main_arg9)))))
        shapeCasts_S100000x1_S100000 := by
  after_results
  rfl

end Stretches

/-! ## Along the list, from the launch contents

`X0` the launch contents; then the contents after each stretch in turn. Below, each buffer a later stretch reads, after
each stretch up to there. -/

section Along
variable (m : (ℓ : Loc nD τ sig) → Buf (Elt Ideal) ℓ) (c : Dev nD)

/-! ### After the edge words and the degrees -/

theorem XA_v3 : (StableHlo.after (opsA (F := Ideal)) (launchContents m c)) (Proc.devRef .tc main_v3) = (Cert.Gcn.srcOf (m ((c.tc : Thread nD τ).loc main_arg1))) := A_v3 (launchContents m c)
theorem XA_v6 : (StableHlo.after (opsA (F := Ideal)) (launchContents m c)) (Proc.devRef .tc main_v6) = (Cert.Gcn.dstOf (m ((c.tc : Thread nD τ).loc main_arg1))) := A_v6 (launchContents m c)
theorem XA_v12 : (StableHlo.after (opsA (F := Ideal)) (launchContents m c)) (Proc.devRef .tc main_v12) = cmpf (F := Ideal) .ogt (Cert.Gcn.deg (Cert.Gcn.dstOf (m ((c.tc : Thread nD τ).loc main_arg1)))) Cert.Gcn.zerosN := A_v12 (launchContents m c)
theorem XA_v13 : (StableHlo.after (opsA (F := Ideal)) (launchContents m c)) (Proc.devRef .tc main_v13) = Host.rsqrt (F := Ideal) (Cert.Gcn.deg (Cert.Gcn.dstOf (m ((c.tc : Thread nD τ).loc main_arg1)))) := A_v13 (launchContents m c)
theorem XA_cst2 : (StableHlo.after (opsA (F := Ideal)) (launchContents m c)) (Proc.devRef .tc main_cst_2) = constant (F := Ideal) S_ .f32 0x00000000#32 := A_cst2 (launchContents m c)
theorem XA_arg0 : (StableHlo.after (opsA (F := Ideal)) (launchContents m c)) (Proc.devRef .tc main_arg0) = (m ((c.tc : Thread nD τ).loc main_arg0)) := A_keep_arg0 (launchContents m c)
theorem XA_arg2 : (StableHlo.after (opsA (F := Ideal)) (launchContents m c)) (Proc.devRef .tc main_arg2) = (m ((c.tc : Thread nD τ).loc main_arg2)) := A_keep_arg2 (launchContents m c)
theorem XA_arg3 : (StableHlo.after (opsA (F := Ideal)) (launchContents m c)) (Proc.devRef .tc main_arg3) = (m ((c.tc : Thread nD τ).loc main_arg3)) := A_keep_arg3 (launchContents m c)
theorem XA_arg4 : (StableHlo.after (opsA (F := Ideal)) (launchContents m c)) (Proc.devRef .tc main_arg4) = (m ((c.tc : Thread nD τ).loc main_arg4)) := A_keep_arg4 (launchContents m c)
theorem XA_arg5 : (StableHlo.after (opsA (F := Ideal)) (launchContents m c)) (Proc.devRef .tc main_arg5) = (m ((c.tc : Thread nD τ).loc main_arg5)) := A_keep_arg5 (launchContents m c)
theorem XA_arg6 : (StableHlo.after (opsA (F := Ideal)) (launchContents m c)) (Proc.devRef .tc main_arg6) = (m ((c.tc : Thread nD τ).loc main_arg6)) := A_keep_arg6 (launchContents m c)
theorem XA_arg7 : (StableHlo.after (opsA (F := Ideal)) (launchContents m c)) (Proc.devRef .tc main_arg7) = (m ((c.tc : Thread nD τ).loc main_arg7)) := A_keep_arg7 (launchContents m c)
theorem XA_arg8 : (StableHlo.after (opsA (F := Ideal)) (launchContents m c)) (Proc.devRef .tc main_arg8) = (m ((c.tc : Thread nD τ).loc main_arg8)) := A_keep_arg8 (launchContents m c)
theorem XA_arg9 : (StableHlo.after (opsA (F := Ideal)) (launchContents m c)) (Proc.devRef .tc main_arg9) = (m ((c.tc : Thread nD τ).loc main_arg9)) := A_keep_arg9 (launchContents m c)

/-! ### After the node factor -/

theorem XW_v14 : (StableHlo.after (opsW (F := Ideal)) (StableHlo.after (opsA (F := Ideal)) (launchContents m c))) (Proc.devRef .tc main_v14) = Cert.Gcn.dinv (Cert.Gcn.dstOf (m ((c.tc : Thread nD τ).loc main_arg1))) := by
  refine (W_v14 (StableHlo.after (opsA (F := Ideal)) (launchContents m c))).trans ?_
  rw [XA_v12 m c, XA_v13 m c, XA_cst2 m c]
  rfl
theorem XW_v3 : (StableHlo.after (opsW (F := Ideal)) (StableHlo.after (opsA (F := Ideal)) (launchContents m c))) (Proc.devRef .tc main_v3) = (Cert.Gcn.srcOf (m ((c.tc : Thread nD τ).loc main_arg1))) := (W_keep_v3 (StableHlo.after (opsA (F := Ideal)) (launchContents m c))).trans (XA_v3 m c)
theorem XW_v6 : (StableHlo.after (opsW (F := Ideal)) (StableHlo.after (opsA (F := Ideal)) (launchContents m c))) (Proc.devRef .tc main_v6) = (Cert.Gcn.dstOf (m ((c.tc : Thread nD τ).loc main_arg1))) := (W_keep_v6 (StableHlo.after (opsA (F := Ideal)) (launchContents m c))).trans (XA_v6 m c)
theorem XW_arg0 : (StableHlo.after (opsW (F := Ideal)) (StableHlo.after (opsA (F := Ideal)) (launchContents m c))) (Proc.devRef .tc main_arg0) = (m ((c.tc : Thread nD τ).loc main_arg0)) := (W_keep_arg0 (StableHlo.after (opsA (F := Ideal)) (launchContents m c))).trans (XA_arg0 m c)
theorem XW_arg2 : (StableHlo.after (opsW (F := Ideal)) (StableHlo.after (opsA (F := Ideal)) (launchContents m c))) (Proc.devRef .tc main_arg2) = (m ((c.tc : Thread nD τ).loc main_arg2)) := (W_keep_arg2 (StableHlo.after (opsA (F := Ideal)) (launchContents m c))).trans (XA_arg2 m c)
theorem XW_arg3 : (StableHlo.after (opsW (F := Ideal)) (StableHlo.after (opsA (F := Ideal)) (launchContents m c))) (Proc.devRef .tc main_arg3) = (m ((c.tc : Thread nD τ).loc main_arg3)) := (W_keep_arg3 (StableHlo.after (opsA (F := Ideal)) (launchContents m c))).trans (XA_arg3 m c)
theorem XW_arg4 : (StableHlo.after (opsW (F := Ideal)) (StableHlo.after (opsA (F := Ideal)) (launchContents m c))) (Proc.devRef .tc main_arg4) = (m ((c.tc : Thread nD τ).loc main_arg4)) := (W_keep_arg4 (StableHlo.after (opsA (F := Ideal)) (launchContents m c))).trans (XA_arg4 m c)
theorem XW_arg5 : (StableHlo.after (opsW (F := Ideal)) (StableHlo.after (opsA (F := Ideal)) (launchContents m c))) (Proc.devRef .tc main_arg5) = (m ((c.tc : Thread nD τ).loc main_arg5)) := (W_keep_arg5 (StableHlo.after (opsA (F := Ideal)) (launchContents m c))).trans (XA_arg5 m c)
theorem XW_arg6 : (StableHlo.after (opsW (F := Ideal)) (StableHlo.after (opsA (F := Ideal)) (launchContents m c))) (Proc.devRef .tc main_arg6) = (m ((c.tc : Thread nD τ).loc main_arg6)) := (W_keep_arg6 (StableHlo.after (opsA (F := Ideal)) (launchContents m c))).trans (XA_arg6 m c)
theorem XW_arg7 : (StableHlo.after (opsW (F := Ideal)) (StableHlo.after (opsA (F := Ideal)) (launchContents m c))) (Proc.devRef .tc main_arg7) = (m ((c.tc : Thread nD τ).loc main_arg7)) := (W_keep_arg7 (StableHlo.after (opsA (F := Ideal)) (launchContents m c))).trans (XA_arg7 m c)
theorem XW_arg8 : (StableHlo.after (opsW (F := Ideal)) (StableHlo.after (opsA (F := Ideal)) (launchContents m c))) (Proc.devRef .tc main_arg8) = (m ((c.tc : Thread nD τ).loc main_arg8)) := (W_keep_arg8 (StableHlo.after (opsA (F := Ideal)) (launchContents m c))).trans (XA_arg8 m c)
theorem XW_arg9 : (StableHlo.after (opsW (F := Ideal)) (StableHlo.after (opsA (F := Ideal)) (launchContents m c))) (Proc.devRef .tc main_arg9) = (m ((c.tc : Thread nD τ).loc main_arg9)) := (W_keep_arg9 (StableHlo.after (opsA (F := Ideal)) (launchContents m c))).trans (XA_arg9 m c)

/-! ### Convolution 1 -/

theorem XL1_v46 : (StableHlo.after (opsL1 (F := Ideal)) (StableHlo.after (opsW (F := Ideal)) (StableHlo.after (opsA (F := Ideal)) (launchContents m c)))) (Proc.devRef .tc main_v46) = (addf (F := Ideal) (Cert.Gcn.aggR (Cert.Gcn.srcOf (m ((c.tc : Thread nD τ).loc main_arg1))) (Cert.Gcn.dstOf (m ((c.tc : Thread nD τ).loc main_arg1))) (Host.dotGeneral (F := Ideal) (φ₁ := .f32) (φ₂ := .f32) dot_S100000x128_S128x64_S100000x64_1_0_0_1_n_n none (m ((c.tc : Thread nD τ).loc main_arg0)) (m ((c.tc : Thread nD τ).loc main_arg2)))) (broadcastInDim S100000x64 ![0, 1] bcast_S1x64_S100000x64_0_1 (broadcastInDim S1x64 ![1] bcast_S64_S1x64_1 (m ((c.tc : Thread nD τ).loc main_arg3))))) := by
  refine (L1_pre (StableHlo.after (opsW (F := Ideal)) (StableHlo.after (opsA (F := Ideal)) (launchContents m c))) ((XW_v14 m c).trans (congrArg Cert.Gcn.dinv (XW_v6 m c).symm))).trans ?_
  rw [XW_v3 m c, XW_v6 m c, XW_arg0 m c, XW_arg2 m c, XW_arg3 m c]
theorem XL1_v3 : (StableHlo.after (opsL1 (F := Ideal)) (StableHlo.after (opsW (F := Ideal)) (StableHlo.after (opsA (F := Ideal)) (launchContents m c)))) (Proc.devRef .tc main_v3) = (Cert.Gcn.srcOf (m ((c.tc : Thread nD τ).loc main_arg1))) := (L1_keep_v3 (StableHlo.after (opsW (F := Ideal)) (StableHlo.after (opsA (F := Ideal)) (launchContents m c)))).trans (XW_v3 m c)
theorem XL1_v6 : (StableHlo.after (opsL1 (F := Ideal)) (StableHlo.after (opsW (F := Ideal)) (StableHlo.after (opsA (F := Ideal)) (launchContents m c)))) (Proc.devRef .tc main_v6) = (Cert.Gcn.dstOf (m ((c.tc : Thread nD τ).loc main_arg1))) := (L1_keep_v6 (StableHlo.after (opsW (F := Ideal)) (StableHlo.after (opsA (F := Ideal)) (launchContents m c)))).trans (XW_v6 m c)
theorem XL1_v14 : (StableHlo.after (opsL1 (F := Ideal)) (StableHlo.after (opsW (F := Ideal)) (StableHlo.after (opsA (F := Ideal)) (launchContents m c)))) (Proc.devRef .tc main_v14) = (Cert.Gcn.dinv (Cert.Gcn.dstOf (m ((c.tc : Thread nD τ).loc main_arg1)))) := (L1_keep_v14 (StableHlo.after (opsW (F := Ideal)) (StableHlo.after (opsA (F := Ideal)) (launchContents m c)))).trans (XW_v14 m c)
theorem XL1_arg4 : (StableHlo.after (opsL1 (F := Ideal)) (StableHlo.after (opsW (F := Ideal)) (StableHlo.after (opsA (F := Ideal)) (launchContents m c)))) (Proc.devRef .tc main_arg4) = (m ((c.tc : Thread nD τ).loc main_arg4)) := (L1_keep_arg4 (StableHlo.after (opsW (F := Ideal)) (StableHlo.after (opsA (F := Ideal)) (launchContents m c)))).trans (XW_arg4 m c)
theorem XL1_arg5 : (StableHlo.after (opsL1 (F := Ideal)) (StableHlo.after (opsW (F := Ideal)) (StableHlo.after (opsA (F := Ideal)) (launchContents m c)))) (Proc.devRef .tc main_arg5) = (m ((c.tc : Thread nD τ).loc main_arg5)) := (L1_keep_arg5 (StableHlo.after (opsW (F := Ideal)) (StableHlo.after (opsA (F := Ideal)) (launchContents m c)))).trans (XW_arg5 m c)
theorem XL1_arg6 : (StableHlo.after (opsL1 (F := Ideal)) (StableHlo.after (opsW (F := Ideal)) (StableHlo.after (opsA (F := Ideal)) (launchContents m c)))) (Proc.devRef .tc main_arg6) = (m ((c.tc : Thread nD τ).loc main_arg6)) := (L1_keep_arg6 (StableHlo.after (opsW (F := Ideal)) (StableHlo.after (opsA (F := Ideal)) (launchContents m c)))).trans (XW_arg6 m c)
theorem XL1_arg7 : (StableHlo.after (opsL1 (F := Ideal)) (StableHlo.after (opsW (F := Ideal)) (StableHlo.after (opsA (F := Ideal)) (launchContents m c)))) (Proc.devRef .tc main_arg7) = (m ((c.tc : Thread nD τ).loc main_arg7)) := (L1_keep_arg7 (StableHlo.after (opsW (F := Ideal)) (StableHlo.after (opsA (F := Ideal)) (launchContents m c)))).trans (XW_arg7 m c)
theorem XL1_arg8 : (StableHlo.after (opsL1 (F := Ideal)) (StableHlo.after (opsW (F := Ideal)) (StableHlo.after (opsA (F := Ideal)) (launchContents m c)))) (Proc.devRef .tc main_arg8) = (m ((c.tc : Thread nD τ).loc main_arg8)) := (L1_keep_arg8 (StableHlo.after (opsW (F := Ideal)) (StableHlo.after (opsA (F := Ideal)) (launchContents m c)))).trans (XW_arg8 m c)
theorem XL1_arg9 : (StableHlo.after (opsL1 (F := Ideal)) (StableHlo.after (opsW (F := Ideal)) (StableHlo.after (opsA (F := Ideal)) (launchContents m c)))) (Proc.devRef .tc main_arg9) = (m ((c.tc : Thread nD τ).loc main_arg9)) := (L1_keep_arg9 (StableHlo.after (opsW (F := Ideal)) (StableHlo.after (opsA (F := Ideal)) (launchContents m c)))).trans (XW_arg9 m c)

theorem XC1_v47 : (StableHlo.after (opsC1 (F := Ideal)) (StableHlo.after (opsL1 (F := Ideal)) (StableHlo.after (opsW (F := Ideal)) (StableHlo.after (opsA (F := Ideal)) (launchContents m c))))) (Proc.devRef .tc main_v47) = (Cert.Gcn.convR (Cert.Gcn.srcOf (m ((c.tc : Thread nD τ).loc main_arg1))) (Cert.Gcn.dstOf (m ((c.tc : Thread nD τ).loc main_arg1))) (Host.dotGeneral (F := Ideal) (φ₁ := .f32) (φ₂ := .f32) dot_S100000x128_S128x64_S100000x64_1_0_0_1_n_n none (m ((c.tc : Thread nD τ).loc main_arg0)) (m ((c.tc : Thread nD τ).loc main_arg2))) (m ((c.tc : Thread nD τ).loc main_arg3))) := by
  refine (C1_out (StableHlo.after (opsL1 (F := Ideal)) (StableHlo.after (opsW (F := Ideal)) (StableHlo.after (opsA (F := Ideal)) (launchContents m c))))).trans ?_
  rw [XL1_v46 m c]
  unfold Cert.Gcn.convR
  rfl
theorem XC1_v3 : (StableHlo.after (opsC1 (F := Ideal)) (StableHlo.after (opsL1 (F := Ideal)) (StableHlo.after (opsW (F := Ideal)) (StableHlo.after (opsA (F := Ideal)) (launchContents m c))))) (Proc.devRef .tc main_v3) = (Cert.Gcn.srcOf (m ((c.tc : Thread nD τ).loc main_arg1))) := (C1_keep_v3 (StableHlo.after (opsL1 (F := Ideal)) (StableHlo.after (opsW (F := Ideal)) (StableHlo.after (opsA (F := Ideal)) (launchContents m c))))).trans (XL1_v3 m c)
theorem XC1_v6 : (StableHlo.after (opsC1 (F := Ideal)) (StableHlo.after (opsL1 (F := Ideal)) (StableHlo.after (opsW (F := Ideal)) (StableHlo.after (opsA (F := Ideal)) (launchContents m c))))) (Proc.devRef .tc main_v6) = (Cert.Gcn.dstOf (m ((c.tc : Thread nD τ).loc main_arg1))) := (C1_keep_v6 (StableHlo.after (opsL1 (F := Ideal)) (StableHlo.after (opsW (F := Ideal)) (StableHlo.after (opsA (F := Ideal)) (launchContents m c))))).trans (XL1_v6 m c)
theorem XC1_v14 : (StableHlo.after (opsC1 (F := Ideal)) (StableHlo.after (opsL1 (F := Ideal)) (StableHlo.after (opsW (F := Ideal)) (StableHlo.after (opsA (F := Ideal)) (launchContents m c))))) (Proc.devRef .tc main_v14) = (Cert.Gcn.dinv (Cert.Gcn.dstOf (m ((c.tc : Thread nD τ).loc main_arg1)))) := (C1_keep_v14 (StableHlo.after (opsL1 (F := Ideal)) (StableHlo.after (opsW (F := Ideal)) (StableHlo.after (opsA (F := Ideal)) (launchContents m c))))).trans (XL1_v14 m c)
theorem XC1_arg4 : (StableHlo.after (opsC1 (F := Ideal)) (StableHlo.after (opsL1 (F := Ideal)) (StableHlo.after (opsW (F := Ideal)) (StableHlo.after (opsA (F := Ideal)) (launchContents m c))))) (Proc.devRef .tc main_arg4) = (m ((c.tc : Thread nD τ).loc main_arg4)) := (C1_keep_arg4 (StableHlo.after (opsL1 (F := Ideal)) (StableHlo.after (opsW (F := Ideal)) (StableHlo.after (opsA (F := Ideal)) (launchContents m c))))).trans (XL1_arg4 m c)
theorem XC1_arg5 : (StableHlo.after (opsC1 (F := Ideal)) (StableHlo.after (opsL1 (F := Ideal)) (StableHlo.after (opsW (F := Ideal)) (StableHlo.after (opsA (F := Ideal)) (launchContents m c))))) (Proc.devRef .tc main_arg5) = (m ((c.tc : Thread nD τ).loc main_arg5)) := (C1_keep_arg5 (StableHlo.after (opsL1 (F := Ideal)) (StableHlo.after (opsW (F := Ideal)) (StableHlo.after (opsA (F := Ideal)) (launchContents m c))))).trans (XL1_arg5 m c)
theorem XC1_arg6 : (StableHlo.after (opsC1 (F := Ideal)) (StableHlo.after (opsL1 (F := Ideal)) (StableHlo.after (opsW (F := Ideal)) (StableHlo.after (opsA (F := Ideal)) (launchContents m c))))) (Proc.devRef .tc main_arg6) = (m ((c.tc : Thread nD τ).loc main_arg6)) := (C1_keep_arg6 (StableHlo.after (opsL1 (F := Ideal)) (StableHlo.after (opsW (F := Ideal)) (StableHlo.after (opsA (F := Ideal)) (launchContents m c))))).trans (XL1_arg6 m c)
theorem XC1_arg7 : (StableHlo.after (opsC1 (F := Ideal)) (StableHlo.after (opsL1 (F := Ideal)) (StableHlo.after (opsW (F := Ideal)) (StableHlo.after (opsA (F := Ideal)) (launchContents m c))))) (Proc.devRef .tc main_arg7) = (m ((c.tc : Thread nD τ).loc main_arg7)) := (C1_keep_arg7 (StableHlo.after (opsL1 (F := Ideal)) (StableHlo.after (opsW (F := Ideal)) (StableHlo.after (opsA (F := Ideal)) (launchContents m c))))).trans (XL1_arg7 m c)
theorem XC1_arg8 : (StableHlo.after (opsC1 (F := Ideal)) (StableHlo.after (opsL1 (F := Ideal)) (StableHlo.after (opsW (F := Ideal)) (StableHlo.after (opsA (F := Ideal)) (launchContents m c))))) (Proc.devRef .tc main_arg8) = (m ((c.tc : Thread nD τ).loc main_arg8)) := (C1_keep_arg8 (StableHlo.after (opsL1 (F := Ideal)) (StableHlo.after (opsW (F := Ideal)) (StableHlo.after (opsA (F := Ideal)) (launchContents m c))))).trans (XL1_arg8 m c)
theorem XC1_arg9 : (StableHlo.after (opsC1 (F := Ideal)) (StableHlo.after (opsL1 (F := Ideal)) (StableHlo.after (opsW (F := Ideal)) (StableHlo.after (opsA (F := Ideal)) (launchContents m c))))) (Proc.devRef .tc main_arg9) = (m ((c.tc : Thread nD τ).loc main_arg9)) := (C1_keep_arg9 (StableHlo.after (opsL1 (F := Ideal)) (StableHlo.after (opsW (F := Ideal)) (StableHlo.after (opsA (F := Ideal)) (launchContents m c))))).trans (XL1_arg9 m c)

/-! ### Convolution 2 -/

theorem XL2_v79 : (StableHlo.after (opsL2 (F := Ideal)) (StableHlo.after (opsC1 (F := Ideal)) (StableHlo.after (opsL1 (F := Ideal)) (StableHlo.after (opsW (F := Ideal)) (StableHlo.after (opsA (F := Ideal)) (launchContents m c)))))) (Proc.devRef .tc main_v79) = (addf (F := Ideal) (Cert.Gcn.aggR (Cert.Gcn.srcOf (m ((c.tc : Thread nD τ).loc main_arg1))) (Cert.Gcn.dstOf (m ((c.tc : Thread nD τ).loc main_arg1))) (Host.dotGeneral (F := Ideal) (φ₁ := .f32) (φ₂ := .f32) dot_S100000x64_S64x64_S100000x64_1_0_0_1_n_n none (Cert.Gcn.convR (Cert.Gcn.srcOf (m ((c.tc : Thread nD τ).loc main_arg1))) (Cert.Gcn.dstOf (m ((c.tc : Thread nD τ).loc main_arg1))) (Host.dotGeneral (F := Ideal) (φ₁ := .f32) (φ₂ := .f32) dot_S100000x128_S128x64_S100000x64_1_0_0_1_n_n none (m ((c.tc : Thread nD τ).loc main_arg0)) (m ((c.tc : Thread nD τ).loc main_arg2))) (m ((c.tc : Thread nD τ).loc main_arg3))) (m ((c.tc : Thread nD τ).loc main_arg4)))) (broadcastInDim S100000x64 ![0, 1] bcast_S1x64_S100000x64_0_1 (broadcastInDim S1x64 ![1] bcast_S64_S1x64_1 (m ((c.tc : Thread nD τ).loc main_arg5))))) := by
  refine (L2_pre (StableHlo.after (opsC1 (F := Ideal)) (StableHlo.after (opsL1 (F := Ideal)) (StableHlo.after (opsW (F := Ideal)) (StableHlo.after (opsA (F := Ideal)) (launchContents m c))))) ((XC1_v14 m c).trans (congrArg Cert.Gcn.dinv (XC1_v6 m c).symm))).trans ?_
  rw [XC1_v3 m c, XC1_v6 m c, XC1_v47 m c, XC1_arg4 m c, XC1_arg5 m c]
theorem XL2_v3 : (StableHlo.after (opsL2 (F := Ideal)) (StableHlo.after (opsC1 (F := Ideal)) (StableHlo.after (opsL1 (F := Ideal)) (StableHlo.after (opsW (F := Ideal)) (StableHlo.after (opsA (F := Ideal)) (launchContents m c)))))) (Proc.devRef .tc main_v3) = (Cert.Gcn.srcOf (m ((c.tc : Thread nD τ).loc main_arg1))) := (L2_keep_v3 (StableHlo.after (opsC1 (F := Ideal)) (StableHlo.after (opsL1 (F := Ideal)) (StableHlo.after (opsW (F := Ideal)) (StableHlo.after (opsA (F := Ideal)) (launchContents m c)))))).trans (XC1_v3 m c)
theorem XL2_v6 : (StableHlo.after (opsL2 (F := Ideal)) (StableHlo.after (opsC1 (F := Ideal)) (StableHlo.after (opsL1 (F := Ideal)) (StableHlo.after (opsW (F := Ideal)) (StableHlo.after (opsA (F := Ideal)) (launchContents m c)))))) (Proc.devRef .tc main_v6) = (Cert.Gcn.dstOf (m ((c.tc : Thread nD τ).loc main_arg1))) := (L2_keep_v6 (StableHlo.after (opsC1 (F := Ideal)) (StableHlo.after (opsL1 (F := Ideal)) (StableHlo.after (opsW (F := Ideal)) (StableHlo.after (opsA (F := Ideal)) (launchContents m c)))))).trans (XC1_v6 m c)
theorem XL2_v14 : (StableHlo.after (opsL2 (F := Ideal)) (StableHlo.after (opsC1 (F := Ideal)) (StableHlo.after (opsL1 (F := Ideal)) (StableHlo.after (opsW (F := Ideal)) (StableHlo.after (opsA (F := Ideal)) (launchContents m c)))))) (Proc.devRef .tc main_v14) = (Cert.Gcn.dinv (Cert.Gcn.dstOf (m ((c.tc : Thread nD τ).loc main_arg1)))) := (L2_keep_v14 (StableHlo.after (opsC1 (F := Ideal)) (StableHlo.after (opsL1 (F := Ideal)) (StableHlo.after (opsW (F := Ideal)) (StableHlo.after (opsA (F := Ideal)) (launchContents m c)))))).trans (XC1_v14 m c)
theorem XL2_arg6 : (StableHlo.after (opsL2 (F := Ideal)) (StableHlo.after (opsC1 (F := Ideal)) (StableHlo.after (opsL1 (F := Ideal)) (StableHlo.after (opsW (F := Ideal)) (StableHlo.after (opsA (F := Ideal)) (launchContents m c)))))) (Proc.devRef .tc main_arg6) = (m ((c.tc : Thread nD τ).loc main_arg6)) := (L2_keep_arg6 (StableHlo.after (opsC1 (F := Ideal)) (StableHlo.after (opsL1 (F := Ideal)) (StableHlo.after (opsW (F := Ideal)) (StableHlo.after (opsA (F := Ideal)) (launchContents m c)))))).trans (XC1_arg6 m c)
theorem XL2_arg7 : (StableHlo.after (opsL2 (F := Ideal)) (StableHlo.after (opsC1 (F := Ideal)) (StableHlo.after (opsL1 (F := Ideal)) (StableHlo.after (opsW (F := Ideal)) (StableHlo.after (opsA (F := Ideal)) (launchContents m c)))))) (Proc.devRef .tc main_arg7) = (m ((c.tc : Thread nD τ).loc main_arg7)) := (L2_keep_arg7 (StableHlo.after (opsC1 (F := Ideal)) (StableHlo.after (opsL1 (F := Ideal)) (StableHlo.after (opsW (F := Ideal)) (StableHlo.after (opsA (F := Ideal)) (launchContents m c)))))).trans (XC1_arg7 m c)
theorem XL2_arg8 : (StableHlo.after (opsL2 (F := Ideal)) (StableHlo.after (opsC1 (F := Ideal)) (StableHlo.after (opsL1 (F := Ideal)) (StableHlo.after (opsW (F := Ideal)) (StableHlo.after (opsA (F := Ideal)) (launchContents m c)))))) (Proc.devRef .tc main_arg8) = (m ((c.tc : Thread nD τ).loc main_arg8)) := (L2_keep_arg8 (StableHlo.after (opsC1 (F := Ideal)) (StableHlo.after (opsL1 (F := Ideal)) (StableHlo.after (opsW (F := Ideal)) (StableHlo.after (opsA (F := Ideal)) (launchContents m c)))))).trans (XC1_arg8 m c)
theorem XL2_arg9 : (StableHlo.after (opsL2 (F := Ideal)) (StableHlo.after (opsC1 (F := Ideal)) (StableHlo.after (opsL1 (F := Ideal)) (StableHlo.after (opsW (F := Ideal)) (StableHlo.after (opsA (F := Ideal)) (launchContents m c)))))) (Proc.devRef .tc main_arg9) = (m ((c.tc : Thread nD τ).loc main_arg9)) := (L2_keep_arg9 (StableHlo.after (opsC1 (F := Ideal)) (StableHlo.after (opsL1 (F := Ideal)) (StableHlo.after (opsW (F := Ideal)) (StableHlo.after (opsA (F := Ideal)) (launchContents m c)))))).trans (XC1_arg9 m c)

theorem XC2_v80 : (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c))))))) (Proc.devRef .tc main_v80) = (Cert.Gcn.convR (Cert.Gcn.srcOf (m ((c.tc : Thread nD τ).loc main_arg1))) (Cert.Gcn.dstOf (m ((c.tc : Thread nD τ).loc main_arg1))) (Host.dotGeneral (F := Ideal) (φ₁ := .f32) (φ₂ := .f32) dot_S100000x64_S64x64_S100000x64_1_0_0_1_n_n none (Cert.Gcn.convR (Cert.Gcn.srcOf (m ((c.tc : Thread nD τ).loc main_arg1))) (Cert.Gcn.dstOf (m ((c.tc : Thread nD τ).loc main_arg1))) (Host.dotGeneral (F := Ideal) (φ₁ := .f32) (φ₂ := .f32) dot_S100000x128_S128x64_S100000x64_1_0_0_1_n_n none (m ((c.tc : Thread nD τ).loc main_arg0)) (m ((c.tc : Thread nD τ).loc main_arg2))) (m ((c.tc : Thread nD τ).loc main_arg3))) (m ((c.tc : Thread nD τ).loc main_arg4))) (m ((c.tc : Thread nD τ).loc main_arg5))) := by
  refine (C2_out (StableHlo.after (opsL2 (F := Ideal)) (StableHlo.after (opsC1 (F := Ideal)) (StableHlo.after (opsL1 (F := Ideal)) (StableHlo.after (opsW (F := Ideal)) (StableHlo.after (opsA (F := Ideal)) (launchContents m c))))))).trans ?_
  rw [XL2_v79 m c]
  unfold Cert.Gcn.convR
  rfl
theorem XC2_v3 : (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c))))))) (Proc.devRef .tc main_v3) = (Cert.Gcn.srcOf (m ((c.tc : Thread nD τ).loc main_arg1))) := (C2_keep_v3 (StableHlo.after (opsL2 (F := Ideal)) (StableHlo.after (opsC1 (F := Ideal)) (StableHlo.after (opsL1 (F := Ideal)) (StableHlo.after (opsW (F := Ideal)) (StableHlo.after (opsA (F := Ideal)) (launchContents m c))))))).trans (XL2_v3 m c)
theorem XC2_v6 : (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c))))))) (Proc.devRef .tc main_v6) = (Cert.Gcn.dstOf (m ((c.tc : Thread nD τ).loc main_arg1))) := (C2_keep_v6 (StableHlo.after (opsL2 (F := Ideal)) (StableHlo.after (opsC1 (F := Ideal)) (StableHlo.after (opsL1 (F := Ideal)) (StableHlo.after (opsW (F := Ideal)) (StableHlo.after (opsA (F := Ideal)) (launchContents m c))))))).trans (XL2_v6 m c)
theorem XC2_v14 : (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c))))))) (Proc.devRef .tc main_v14) = (Cert.Gcn.dinv (Cert.Gcn.dstOf (m ((c.tc : Thread nD τ).loc main_arg1)))) := (C2_keep_v14 (StableHlo.after (opsL2 (F := Ideal)) (StableHlo.after (opsC1 (F := Ideal)) (StableHlo.after (opsL1 (F := Ideal)) (StableHlo.after (opsW (F := Ideal)) (StableHlo.after (opsA (F := Ideal)) (launchContents m c))))))).trans (XL2_v14 m c)
theorem XC2_arg6 : (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c))))))) (Proc.devRef .tc main_arg6) = (m ((c.tc : Thread nD τ).loc main_arg6)) := (C2_keep_arg6 (StableHlo.after (opsL2 (F := Ideal)) (StableHlo.after (opsC1 (F := Ideal)) (StableHlo.after (opsL1 (F := Ideal)) (StableHlo.after (opsW (F := Ideal)) (StableHlo.after (opsA (F := Ideal)) (launchContents m c))))))).trans (XL2_arg6 m c)
theorem XC2_arg7 : (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c))))))) (Proc.devRef .tc main_arg7) = (m ((c.tc : Thread nD τ).loc main_arg7)) := (C2_keep_arg7 (StableHlo.after (opsL2 (F := Ideal)) (StableHlo.after (opsC1 (F := Ideal)) (StableHlo.after (opsL1 (F := Ideal)) (StableHlo.after (opsW (F := Ideal)) (StableHlo.after (opsA (F := Ideal)) (launchContents m c))))))).trans (XL2_arg7 m c)
theorem XC2_arg8 : (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c))))))) (Proc.devRef .tc main_arg8) = (m ((c.tc : Thread nD τ).loc main_arg8)) := (C2_keep_arg8 (StableHlo.after (opsL2 (F := Ideal)) (StableHlo.after (opsC1 (F := Ideal)) (StableHlo.after (opsL1 (F := Ideal)) (StableHlo.after (opsW (F := Ideal)) (StableHlo.after (opsA (F := Ideal)) (launchContents m c))))))).trans (XL2_arg8 m c)
theorem XC2_arg9 : (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c))))))) (Proc.devRef .tc main_arg9) = (m ((c.tc : Thread nD τ).loc main_arg9)) := (C2_keep_arg9 (StableHlo.after (opsL2 (F := Ideal)) (StableHlo.after (opsC1 (F := Ideal)) (StableHlo.after (opsL1 (F := Ideal)) (StableHlo.after (opsW (F := Ideal)) (StableHlo.after (opsA (F := Ideal)) (launchContents m c))))))).trans (XL2_arg9 m c)

/-! ### Convolution 3 -/

theorem XL3_v112 : (StableHlo.after (opsL3 (F := Ideal)) (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c)))))))) (Proc.devRef .tc main_v112) = (addf (F := Ideal) (Cert.Gcn.aggR (Cert.Gcn.srcOf (m ((c.tc : Thread nD τ).loc main_arg1))) (Cert.Gcn.dstOf (m ((c.tc : Thread nD τ).loc main_arg1))) (Host.dotGeneral (F := Ideal) (φ₁ := .f32) (φ₂ := .f32) dot_S100000x64_S64x64_S100000x64_1_0_0_1_n_n none (Cert.Gcn.convR (Cert.Gcn.srcOf (m ((c.tc : Thread nD τ).loc main_arg1))) (Cert.Gcn.dstOf (m ((c.tc : Thread nD τ).loc main_arg1))) (Host.dotGeneral (F := Ideal) (φ₁ := .f32) (φ₂ := .f32) dot_S100000x64_S64x64_S100000x64_1_0_0_1_n_n none (Cert.Gcn.convR (Cert.Gcn.srcOf (m ((c.tc : Thread nD τ).loc main_arg1))) (Cert.Gcn.dstOf (m ((c.tc : Thread nD τ).loc main_arg1))) (Host.dotGeneral (F := Ideal) (φ₁ := .f32) (φ₂ := .f32) dot_S100000x128_S128x64_S100000x64_1_0_0_1_n_n none (m ((c.tc : Thread nD τ).loc main_arg0)) (m ((c.tc : Thread nD τ).loc main_arg2))) (m ((c.tc : Thread nD τ).loc main_arg3))) (m ((c.tc : Thread nD τ).loc main_arg4))) (m ((c.tc : Thread nD τ).loc main_arg5))) (m ((c.tc : Thread nD τ).loc main_arg6)))) (broadcastInDim S100000x64 ![0, 1] bcast_S1x64_S100000x64_0_1 (broadcastInDim S1x64 ![1] bcast_S64_S1x64_1 (m ((c.tc : Thread nD τ).loc main_arg7))))) := by
  refine (L3_pre (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c))))))) ((XC2_v14 m c).trans (congrArg Cert.Gcn.dinv (XC2_v6 m c).symm))).trans ?_
  rw [XC2_v3 m c, XC2_v6 m c, XC2_v80 m c, XC2_arg6 m c, XC2_arg7 m c]
theorem XL3_arg8 : (StableHlo.after (opsL3 (F := Ideal)) (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c)))))))) (Proc.devRef .tc main_arg8) = (m ((c.tc : Thread nD τ).loc main_arg8)) := (L3_keep_arg8 (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c)))))))).trans (XC2_arg8 m c)
theorem XL3_arg9 : (StableHlo.after (opsL3 (F := Ideal)) (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c)))))))) (Proc.devRef .tc main_arg9) = (m ((c.tc : Thread nD τ).loc main_arg9)) := (L3_keep_arg9 (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c)))))))).trans (XC2_arg9 m c)

theorem XC3_v113 : (StableHlo.after (opsC3 (F := Ideal)) (StableHlo.after (opsL3 (F := Ideal)) (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c))))))))) (Proc.devRef .tc main_v113) = (Cert.Gcn.convR (Cert.Gcn.srcOf (m ((c.tc : Thread nD τ).loc main_arg1))) (Cert.Gcn.dstOf (m ((c.tc : Thread nD τ).loc main_arg1))) (Host.dotGeneral (F := Ideal) (φ₁ := .f32) (φ₂ := .f32) dot_S100000x64_S64x64_S100000x64_1_0_0_1_n_n none (Cert.Gcn.convR (Cert.Gcn.srcOf (m ((c.tc : Thread nD τ).loc main_arg1))) (Cert.Gcn.dstOf (m ((c.tc : Thread nD τ).loc main_arg1))) (Host.dotGeneral (F := Ideal) (φ₁ := .f32) (φ₂ := .f32) dot_S100000x64_S64x64_S100000x64_1_0_0_1_n_n none (Cert.Gcn.convR (Cert.Gcn.srcOf (m ((c.tc : Thread nD τ).loc main_arg1))) (Cert.Gcn.dstOf (m ((c.tc : Thread nD τ).loc main_arg1))) (Host.dotGeneral (F := Ideal) (φ₁ := .f32) (φ₂ := .f32) dot_S100000x128_S128x64_S100000x64_1_0_0_1_n_n none (m ((c.tc : Thread nD τ).loc main_arg0)) (m ((c.tc : Thread nD τ).loc main_arg2))) (m ((c.tc : Thread nD τ).loc main_arg3))) (m ((c.tc : Thread nD τ).loc main_arg4))) (m ((c.tc : Thread nD τ).loc main_arg5))) (m ((c.tc : Thread nD τ).loc main_arg6))) (m ((c.tc : Thread nD τ).loc main_arg7))) := by
  refine (C3_out (StableHlo.after (opsL3 (F := Ideal)) (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c))))))))).trans ?_
  rw [XL3_v112 m c]
  unfold Cert.Gcn.convR
  rfl
theorem XC3_arg8 : (StableHlo.after (opsC3 (F := Ideal)) (StableHlo.after (opsL3 (F := Ideal)) (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c))))))))) (Proc.devRef .tc main_arg8) = (m ((c.tc : Thread nD τ).loc main_arg8)) := (C3_keep_arg8 (StableHlo.after (opsL3 (F := Ideal)) (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c))))))))).trans (XL3_arg8 m c)
theorem XC3_arg9 : (StableHlo.after (opsC3 (F := Ideal)) (StableHlo.after (opsL3 (F := Ideal)) (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c))))))))) (Proc.devRef .tc main_arg9) = (m ((c.tc : Thread nD τ).loc main_arg9)) := (C3_keep_arg9 (StableHlo.after (opsL3 (F := Ideal)) (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c))))))))).trans (XL3_arg9 m c)

/-! ### The result -/

/-- THE REFERENCE'S VALUE: the result buffer after the 152 operations is the specification's network of the launch arrays. -/
theorem value : StableHlo.after (RefRun.ops (F := Ideal)) (launchContents m c) (Proc.devRef .tc main_v118)
    = Cert.Gcn.refOut (Cert.Gcn.srcOf (m ((c.tc : Thread nD τ).loc main_arg1))) (Cert.Gcn.dstOf (m ((c.tc : Thread nD τ).loc main_arg1)))
        (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [ops_split, StableHlo.after_append, StableHlo.after_append, StableHlo.after_append, StableHlo.after_append,
    StableHlo.after_append, StableHlo.after_append, StableHlo.after_append, StableHlo.after_append]
  refine (R_out (StableHlo.after (opsC3 (F := Ideal)) (StableHlo.after (opsL3 (F := Ideal)) (StableHlo.after (opsC2 (F := Ideal)) (StableHlo.after (opsL2 (F := Ideal)) (StableHlo.after (opsC1 (F := Ideal)) (StableHlo.after (opsL1 (F := Ideal)) (StableHlo.after (opsW (F := Ideal)) (StableHlo.after (opsA (F := Ideal)) (launchContents m c)))))))))).trans ?_
  rw [XC3_v113 m c, XC3_arg8 m c, XC3_arg9 m c]
  unfold Cert.Gcn.refOut
  rfl

end Along

end Cert.ReferenceIdeal.RefValue

end
-- ==== Proof.RefRun.lean ====
/-
  The reference program's run, against the specification of the network.

  Every weakly fair execution of the reference's 152 operations terminates, each buffer ends at the composition of the
  operations that wrote it over the argument arrays' launch contents, and no operation writes an argument. The result
  buffer's composition is the specification's `Cert.Gcn.refOut` of the edge lists cut from the edge argument and of the
  nine float arguments (`RefValue.value`: read stretch by stretch).
-/
import proofs.«181710_j67044439491025_2_alg».proof.Proof.RefOps
import proofs.«181710_j67044439491025_2_alg».proof.Proof.RefValue
import proofs.«181710_j67044439491025_2_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 60800000 in
/-- On every device, from any memory with zero counters: every weakly fair execution of the reference terminates with
    the result buffer at the specification's `refOut` of the edge lists and the float arguments' launch contents, and
    every argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v118)
          = Cert.Gcn.refOut (Cert.Gcn.srcOf (m ((c.tc : Thread nD τ).loc main_arg1))) (Cert.Gcn.dstOf (m ((c.tc : Thread nD τ).loc main_arg1)))
              (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v118).trans (Cert.ReferenceIdeal.RefValue.value m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.RefRun

end
-- ==== Proof.EdgeIndex.lean ====
/-
  How the edge operations read at an index.

  * A gather of rows at the one-column index array `idx` reads, for edge `e`, row `min (idx[e, 0] as a signed value, floored
    at 0) 99999` of its operand; the 64 columns of a row come along unchanged.
  * A segment sum lands update `(e, f)` on entry `(i, f)` only if the signed value of `idx[e, 0]` is in `[0, 100000)` and IS `i`.
  * `col v` holds `v e` at `(e, 0)`; `wrap v` leaves a word whose signed value is not negative as it is.
  * A per-edge scalar spread over the 64 columns reads the edge's scalar at every column.
-/
import proofs.«181710_j67044439491025_2_alg».proof.Proof.Spec
import Idealize.ShloMosaic.Lib.Pipeline.Value
import Idealize.ShloMosaic.Lib.ValueIdx

set_option maxRecDepth 16384

noncomputable section

namespace Cert.Gcn

open Idealize.ShloMosaic Idealize.ShloMosaic.ValueIdx Cert.ReferenceIdeal Cert.ReferenceIdeal.Facts₀

local notation "g1" => gather_S100000_S1700000x1_S1700000_n_0_n_n_0_1_1
local notation "g64" => gather_S100000x64_S1700000x1_S1700000x64_1_0_n_n_0_1_164
local notation "s64" => scatter_S100000x64_S1700000x1_S1700000x64_1_0_0_1

/-- The row a gather reads for a word: its signed value floored at 0 and capped at the last row. -/
def rowOf (v : BitVec 32) : Fin 100000 := ⟨min v.toInt.toNat 99999, by omega⟩

/-! ## Gathers -/

theorem g1_siIdx (e : Fin 1700000) (h) :
    GatherDims.siIdx g1 (ix1 e : S1700000.Idx) ⟨List.idxOf (0 : Fin 1) (GatherDims.startIndexMap g1), h⟩
      = (ix2 e (0 : Fin 1) : S1700000x1.Idx) := by
  funext b; refine Fin.ext ?_
  match b with
  | ⟨0, _⟩ => rfl
  | ⟨1, _⟩ => rfl

/-- One factor gathered per edge. -/
theorem gather1_apply {α : Type} (d : S100000.Idx → α) (idx : IVec S1700000x1 32) (e : Fin 1700000) :
    Host.gather g1 d idx (ix1 e) = d (ix1 (rowOf (idx (ix2 e (0 : Fin 1))))) := by
  unfold Host.gather
  refine congrArg d (funext fun a => Fin.ext ?_)
  match a with
  | ⟨0, _⟩ =>
    show GatherDims.start g1 (ix1 e) idx 0 + GatherDims.batchCoord g1 (ix1 e) 0 + GatherDims.offCoord g1 (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ GatherDims.startIndexMap g1 from List.mem_singleton.mpr rfl), g1_siIdx]
    rfl

theorem g64_siIdx (e : Fin 1700000) (f : Fin 64) (h) :
    GatherDims.siIdx g64 (ix2 e f : S1700000x64.Idx) ⟨List.idxOf (0 : Fin 2) (GatherDims.startIndexMap g64), h⟩
      = (ix2 e (0 : Fin 1) : S1700000x1.Idx) := by
  funext b; refine Fin.ext ?_
  match b with
  | ⟨0, _⟩ => rfl
  | ⟨1, _⟩ => rfl

/-- One row of 64 gathered per edge. -/
theorem gather64_apply {α : Type} (A : S100000x64.Idx → α) (idx : IVec S1700000x1 32) (e : Fin 1700000) (f : Fin 64) :
    Host.gather g64 A idx (ix2 e f) = A (ix2 (rowOf (idx (ix2 e (0 : Fin 1)))) f) := by
  unfold Host.gather
  refine congrArg A (funext fun a => Fin.ext ?_)
  match a with
  | ⟨0, _⟩ =>
    show GatherDims.start g64 (ix2 e f) idx 0 + GatherDims.batchCoord g64 (ix2 e f) 0 + GatherDims.offCoord g64 (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap g64 from List.mem_singleton.mpr rfl), g64_siIdx]
    rfl
  | ⟨1, _⟩ =>
    show GatherDims.start g64 (ix2 e f) idx 1 + GatherDims.batchCoord g64 (ix2 e f) 1 + GatherDims.offCoord g64 (ix2 e f) 1 = _
    rw [GatherDims.batchCoord_eq_zero _ _ _ List.not_mem_nil]
    unfold GatherDims.start
    rw [dif_neg (show ¬ (1 : Fin 2) ∈ GatherDims.startIndexMap g64 from by decide)]
    simp only [Nat.add_zero, Nat.zero_add]
    rfl

/-! ## The index array and the wrapped words -/

theorem col_apply (v : IVec S1700000 32) (e : Fin 1700000) : col v (ix2 e (0 : Fin 1)) = v (ix1 e) := by
  unfold col
  exact broadcastInDim_apply _ _ v _ (ix1 e) (fun a => by match a with | ⟨0, _⟩ => rfl)

theorem wrap_apply (v : IVec S1700000 32) (e : Fin 1700000) :
    wrap v (ix1 e) = Scalar.select (IntOp.cmpi .slt (v (ix1 e)) 0#32) (v (ix1 e) + 100000#32) (v (ix1 e)) := rfl

/-- A word that is not negative is read as it is. -/
theorem wrap_of_nonneg (v : IVec S1700000 32) (e : Fin 1700000) (h : 0 ≤ (v (ix1 e)).toInt) : wrap v (ix1 e) = v (ix1 e) := by
  rw [wrap_apply]
  have : IntOp.cmpi .slt (v (ix1 e)) 0#32 = 0#1 := by
    unfold IntOp.cmpi
    have hs : (v (ix1 e)).slt 0#32 = false := by
      rw [BitVec.slt_eq_decide]; simpa using h
    simp [hs]
  rw [this]; exact ValueIdx.select_zero _ _

/-- A per-edge scalar spread over the 64 columns. -/
theorem spread_apply {α : Type} (nv : S1700000.Idx → α) (e : Fin 1700000) (f : Fin 64) :
    broadcastInDim S1700000x64 ![0, 1] bcast_S1700000x1_S1700000x64_0_1
      (broadcastInDim S1700000x1 ![0] bcast_S1700000_S1700000x1_0 nv) (ix2 e f) = nv (ix1 e) := by
  rw [broadcastInDim_apply _ _ _ (ix2 e f) (ix2 e (0 : Fin 1)) (fun a => by match a with | ⟨0, _⟩ => rfl | ⟨1, _⟩ => rfl)]
  exact broadcastInDim_apply _ _ nv _ (ix1 e) (fun a => by match a with | ⟨0, _⟩ => rfl)

/-! ## Where a segment sum lands an update -/

theorem s64_siIdx (j : S1700000x64.Idx) (h) :
    ScatterDims.siIdx s64 j ⟨List.idxOf (0 : Fin 2) (ScatterDims.scatterDimsToOperandDims s64), h⟩
      = (ix2 (j 0) (0 : Fin 1) : S1700000x1.Idx) := by
  funext b; refine Fin.ext ?_
  match b with
  | ⟨0, _⟩ => rfl
  | ⟨1, _⟩ => rfl

theorem s64_start0 (j : S1700000x64.Idx) (idx : IVec S1700000x1 32) :
    ScatterDims.start s64 j idx 0 = (idx (ix2 (j 0) (0 : Fin 1))).toInt := by
  unfold ScatterDims.start
  rw [dif_pos (show (0 : Fin 2) ∈ ScatterDims.scatterDimsToOperandDims s64 from List.mem_singleton.mpr rfl), s64_siIdx]

theorem s64_window0 (j : S1700000x64.Idx) : ScatterDims.window s64 j 0 = 0 := by
  unfold ScatterDims.window
  rw [dif_neg (show ¬ (0 : Fin 2) ∈ ScatterDims.sKept s64 from by decide)]

/-- An update that lands on entry `i` has a destination word whose signed value is `i`'s row. -/
theorem land64 {idx : IVec S1700000x1 32} {j : S1700000x64.Idx} {i : S100000x64.Idx}
    (h : ScatterDims.resultIdx? s64 j idx = some i) :
    0 ≤ (idx (ix2 (j 0) (0 : Fin 1))).toInt ∧ (idx (ix2 (j 0) (0 : Fin 1))).toInt < 100000
      ∧ ((i 0).val : Int) = (idx (ix2 (j 0) (0 : Fin 1))).toInt := by
  unfold ScatterDims.resultIdx? at h
  split at h
  · rename_i hc
    have h0 := hc 0
    rw [s64_start0, s64_window0] at h0
    simp only [Nat.cast_zero, add_zero] at h0
    have hi : (i 0).val = (ScatterDims.start s64 j idx 0 + (ScatterDims.window s64 j 0 : Int)).toNat := by
      have := Option.some.inj h
      rw [← this]
    rw [s64_start0, s64_window0] at hi
    simp only [Nat.cast_zero, add_zero] at hi
    refine ⟨h0.1, h0.2, ?_⟩
    rw [hi]; exact Int.toNat_of_nonneg h0.1
  · exact absurd h (by simp)

end Cert.Gcn

end
-- ==== Proof.Factor.lean ====
/-
  The node factor and the law that lets it move across a segment sum.

  The node factor `dinv i` is `rsqrt (deg i)` where `deg i > 0` and the zero word elsewhere. On the extended reals
  `rsqrt` of a positive value is a real number that is not negative (`0` at `+∞`), so `0 ≤ dinv i < ∞` whatever the degree
  is. Multiplying by such a number distributes over any finite sum of extended reals, and multiplication is associative.
-/
import proofs.«181710_j67044439491025_2_alg».proof.Proof.EdgeIndex
import Idealize.ShloMosaic.PureOps.Ideal.Laws

set_option maxRecDepth 16384

noncomputable section

namespace Cert.Gcn

open Idealize.ShloMosaic Idealize.ShloMosaic.ValueIdx Cert.ReferenceIdeal Cert.ReferenceIdeal.Facts₀

local notation "g1" => gather_S100000_S1700000x1_S1700000_n_0_n_n_0_1_1
local notation "g64" => gather_S100000x64_S1700000x1_S1700000x64_1_0_n_n_0_1_164
local notation "s64" => scatter_S100000x64_S1700000x1_S1700000x64_1_0_0_1

theorem z0_eq : z0 = 0 := Ideal.ofBits_zero_f32

/-- Multiplying by a real in `[0, ∞)` distributes over a finite sum of extended reals. -/
theorem sum_mul_of_nonneg_of_ne_top {ι : Type} (s : Finset ι) (f : ι → EReal) {c : EReal} (h0 : 0 ≤ c) (hT : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 hT, ih]

/-- `rsqrt` of a positive extended real is a real number that is not negative. -/
theorem rsqrt_of_pos (y : EReal) (hy : 0 < y) : 0 ≤ Ideal.rsqrt y ∧ Ideal.rsqrt y ≠ ⊤ := by
  induction y using EReal.rec with
  | bot => exact absurd hy (by simp)
  | top => simp
  | coe r =>
    have hr : 0 < r := by exact_mod_cast hy
    rw [Ideal.rsqrt_coe, if_neg (not_lt.mpr hr.le), if_neg hr.ne']
    exact ⟨by exact_mod_cast (inv_nonneg.mpr (Real.sqrt_nonneg r)), EReal.coe_ne_top _⟩

/-- Where a value is positive take its `rsqrt`, elsewhere the zero word: a real number in `[0, ∞)` at every index,
    whatever the values are. -/
theorem rsqrt_where_pos (dg : FVec Ideal S100000 .f32) (i : S100000.Idx) :
    0 ≤ (select (cmpf (F := Ideal) .ogt dg zerosN) (Host.rsqrt (F := Ideal) dg)
          (broadcastInDim S100000 ![] bcast_S_S100000 (constant (F := Ideal) S_ .f32 0x00000000#32))) i
    ∧ (select (cmpf (F := Ideal) .ogt dg zerosN) (Host.rsqrt (F := Ideal) dg)
          (broadcastInDim S100000 ![] bcast_S_S100000 (constant (F := Ideal) S_ .f32 0x00000000#32))) i ≠ ⊤ := by
  show 0 ≤ Scalar.select (Ideal.cmp .ogt (dg i) z0) (Ideal.rsqrt (dg i)) z0
    ∧ Scalar.select (Ideal.cmp .ogt (dg i) z0) (Ideal.rsqrt (dg i)) z0 ≠ ⊤
  generalize dg i = y
  unfold Scalar.select
  split
  · rename_i hc
    have hy : 0 < y := by
      by_contra hn
      have hd : decide (z0 < y) = false := by rw [z0_eq]; exact decide_eq_false hn
      have : Ideal.cmp .ogt y z0 = 0#1 := by
        show BitVec.ofBool (decide (z0 < y)) = 0#1
        rw [hd]; rfl
      rw [this] at hc
      exact absurd hc (by decide)
    exact rsqrt_of_pos y hy
  · rw [z0_eq]; exact ⟨le_refl _, EReal.zero_ne_top⟩

-- the degree is a sum over every edge: nothing below may unfold it
attribute [local irreducible] deg

/-- The node factor is a real number in `[0, ∞)`, whatever the edge words are. -/
theorem dinv_nonneg_ne_top (dstv : IVec S1700000 32) (i : S100000.Idx) : 0 ≤ dinv dstv i ∧ dinv dstv i ≠ ⊤ := by
  unfold dinv
  exact rsqrt_where_pos (deg dstv) i

/-! ## Scaling a segment sum, for any shapes and dimension numbers -/

section Generic
variable {s si su : Shape} {φ : FTy} {w : Nat}

/-- A segment sum read at an entry: the starting entry plus the sum of the updates that land on it. -/
theorem scatterAdd_apply (d : ScatterDims s si su) (x : FVec Ideal s φ) (idx : IVec si w) (upd : FVec Ideal su φ) (i : s.Idx) :
    (Host.scatterAdd (F := Ideal) d x idx upd i : EReal)
      = x i + ∑ j ∈ Finset.univ.filter (fun j => d.resultIdx? j idx = some i), upd j := rfl

/-- Started from zero, a segment sum scaled by a real in `[0, ∞)` is the segment sum of the updates scaled one by one —
    and it is enough that the scaled updates agree with `u'` where they land on the entry. -/
theorem scatterAdd_mul (d : ScatterDims s si su) (x : FVec Ideal s φ) (idx : IVec si w) (u u' : FVec Ideal su φ) (i : s.Idx)
    {c : EReal} (hx : (x i : EReal) = 0) (h0 : 0 ≤ c) (hT : c ≠ ⊤)
    (H : ∀ j, d.resultIdx? j idx = some i → (u j : EReal) * c = u' j) :
    (Host.scatterAdd (F := Ideal) d x idx u i : EReal) * c = Host.scatterAdd (F := Ideal) d x idx u' i := by
  rw [scatterAdd_apply, scatterAdd_apply, hx, zero_add, zero_add, sum_mul_of_nonneg_of_ne_top _ _ h0 hT]
  exact Finset.sum_congr rfl fun j hj => H j (Finset.mem_filter.mp hj).2

end Generic

end Cert.Gcn

end
-- ==== Proof.Algebra.lean ====
/-
  The two arrangements of the edge aggregation agree.

  An update lands on entry `(r, f)` only when its destination word, read signed, is `r`; such a word is not negative, so
  wrapping leaves it alone and the gather clamps nothing: the reference's gathered destination factor is the factor of
  node `r`. The node factor is a real in `[0, ∞)`, so it moves across the segment sum, and multiplication is associative.
  Hence: scale every row by its own factor, gather and sum, then scale the sum by the factor of `r` — or gather, scale
  every update by the product of its two factors and sum: the same number.

  The law uses nothing of the factor but that its values lie in `[0, ∞)`. It is therefore proved for ANY vector `d` of
  such values (the degree, a sum over every edge, never enters), and read at the node factor in the last lines.
-/
import proofs.«181710_j67044439491025_2_alg».proof.Proof.Factor

set_option maxRecDepth 16384

noncomputable section

namespace Cert.Gcn

open Idealize.ShloMosaic Idealize.ShloMosaic.ValueIdx Cert.ReferenceIdeal Cert.ReferenceIdeal.Facts₀

local notation "g1" => gather_S100000_S1700000x1_S1700000_n_0_n_n_0_1_1
local notation "g64" => gather_S100000x64_S1700000x1_S1700000x64_1_0_n_n_0_1_164
local notation "s64" => scatter_S100000x64_S1700000x1_S1700000x64_1_0_0_1

/-! ## For any factor vector -/

section AnyFactor
variable (d : FVec Ideal S100000 .f32)

/-- Per edge, the product of the source's and the destination's gathered factor, for any factor vector. -/
def normvOf (srcv dstv : IVec S1700000 32) : FVec Ideal S1700000 .f32 :=
  mulf (Host.gather g1 d (col (wrap srcv))) (Host.gather g1 d (col (wrap dstv)))

/-- At edge `e` it is the factor of the source's row times the factor of the destination's row. -/
theorem normvOf_apply (srcv dstv : IVec S1700000 32) (e : Fin 1700000) :
    normvOf d srcv dstv (ix1 e)
      = d (ix1 (rowOf (col (wrap srcv) (ix2 e (0 : Fin 1))))) * d (ix1 (rowOf (col (wrap dstv) (ix2 e (0 : Fin 1))))) := by
  unfold normvOf
  rw [mulf_apply, gather1_apply, gather1_apply]

/-- A gathered entry of the pre-scaled rows: the gathered row's entry times that row's factor. -/
theorem prescaled_apply (A : FVec Ideal S100000x64 .f32) (idx : IVec S1700000x1 32) (e : Fin 1700000) (f' : Fin 64) :
    Host.gather g64 (fun q => A q * d (ix1 (q 0))) idx (ix2 e f')
      = A (ix2 (rowOf (idx (ix2 e (0 : Fin 1)))) f') * d (ix1 (rowOf (idx (ix2 e (0 : Fin 1))))) := by
  rw [gather64_apply]

/-- One update: the gathered, pre-scaled row entry times the destination's factor is the gathered row entry times the
    product of the two gathered factors, when the update lands on row `r`. -/
theorem update_bridge_any (srcv dstv : IVec S1700000 32) (A : FVec Ideal S100000x64 .f32) (r : Fin 100000) (f : Fin 64)
    (e : Fin 1700000) (f' : Fin 64)
    (hland : ScatterDims.resultIdx? s64 (ix2 e f' : S1700000x64.Idx) (col dstv) = some (ix2 r f : S100000x64.Idx)) :
    Host.gather g64 (fun q => A q * d (ix1 (q 0))) (col (wrap srcv)) (ix2 e f') * d (ix1 r)
      = Host.gather g64 A (col (wrap srcv)) (ix2 e f')
        * broadcastInDim S1700000x64 ![0, 1] bcast_S1700000x1_S1700000x64_0_1
            (broadcastInDim S1700000x1 ![0] bcast_S1700000_S1700000x1_0 (normvOf d srcv dstv)) (ix2 e f') := by
  have hl : 0 ≤ (col dstv (ix2 e (0 : Fin 1))).toInt ∧ (col dstv (ix2 e (0 : Fin 1))).toInt < 100000
      ∧ (((ix2 r f : S100000x64.Idx) 0).val : Int) = (col dstv (ix2 e (0 : Fin 1))).toInt := land64 hland
  rw [col_apply] at hl
  have hrow : rowOf (col (wrap dstv) (ix2 e (0 : Fin 1))) = r := by
    rw [col_apply, wrap_of_nonneg dstv e hl.1]
    refine Fin.ext ?_
    show min (dstv (ix1 e)).toInt.toNat 99999 = r.val
    have h3 : (r.val : Int) = (dstv (ix1 e)).toInt := hl.2.2
    omega
  rw [prescaled_apply, gather64_apply, spread_apply, normvOf_apply, hrow, mul_assoc]

/-- The factored aggregation scaled afterwards is the edge-scaled aggregation, for any factor vector with values in
    `[0, ∞)`. -/
theorem agg_bridge_any (hd : ∀ i, 0 ≤ d i ∧ d i ≠ ⊤) (srcv dstv : IVec S1700000 32) (A : FVec Ideal S100000x64 .f32)
    (r : Fin 100000) (f : Fin 64) :
    Host.scatterAdd (F := Ideal) s64 zerosN64 (col dstv)
        (extf (φ := .bf16) .f32 (Host.gather g64 (fun q => A q * d (ix1 (q 0))) (col (wrap srcv))) (by decide)) (ix2 r f)
        * d (ix1 r)
      = Host.scatterAdd (F := Ideal) s64 zerosN64 (col dstv)
          (mulf (Host.gather g64 A (col (wrap srcv)))
            (broadcastInDim S1700000x64 ![0, 1] bcast_S1700000x1_S1700000x64_0_1
              (broadcastInDim S1700000x1 ![0] bcast_S1700000_S1700000x1_0 (normvOf d srcv dstv)))) (ix2 r f) := by
  obtain ⟨h0, hT⟩ := hd (ix1 r)
  have hz : (zerosN64 (ix2 r f) : EReal) = 0 := z0_eq
  refine scatterAdd_mul s64 zerosN64 (col dstv) _ _ (ix2 r f) hz h0 hT (fun j hj => ?_)
  obtain ⟨e, f', rfl⟩ : ∃ (e : Fin 1700000) (f' : Fin 64), j = ix2 e f' := ⟨j 0, j 1, eq_ix2 j⟩
  rw [extf_apply, mulf_apply]
  exact update_bridge_any d srcv dstv A r f e f' hj

end AnyFactor

/-! ## At the node factor -/

/-- The reference's per-edge factor is the product of the two gathered node factors. -/
theorem normv_eq (srcv dstv : IVec S1700000 32) : normv srcv dstv = normvOf (dinv dstv) srcv dstv := by
  unfold normv normvOf
  rfl

/-- One update, at the node factor. -/
theorem update_bridge (srcv dstv : IVec S1700000 32) (A : FVec Ideal S100000x64 .f32) (r : Fin 100000) (f : Fin 64)
    (e : Fin 1700000) (f' : Fin 64)
    (hland : ScatterDims.resultIdx? s64 (ix2 e f' : S1700000x64.Idx) (col dstv) = some (ix2 r f : S100000x64.Idx)) :
    Host.gather g64 (fun q => A q * dinv dstv (ix1 (q 0))) (col (wrap srcv)) (ix2 e f') * dinv dstv (ix1 r)
      = Host.gather g64 A (col (wrap srcv)) (ix2 e f')
        * broadcastInDim S1700000x64 ![0, 1] bcast_S1700000x1_S1700000x64_0_1
            (broadcastInDim S1700000x1 ![0] bcast_S1700000_S1700000x1_0 (normv srcv dstv)) (ix2 e f') := by
  rw [normv_eq]
  exact update_bridge_any (dinv dstv) srcv dstv A r f e f' hland

/-- The factored aggregation, scaled by the destination's factor afterwards, is the reference's aggregation. -/
theorem agg_bridge (srcv dstv : IVec S1700000 32) (A : FVec Ideal S100000x64 .f32) (r : Fin 100000) (f : Fin 64) :
    aggK srcv dstv (fun q => A q * dinv dstv (ix1 (q 0))) (ix2 r f) * dinv dstv (ix1 r) = aggR srcv dstv A (ix2 r f) := by
  unfold aggK aggR
  rw [normv_eq]
  exact agg_bridge_any (dinv dstv) (dinv_nonneg_ne_top dstv) srcv dstv A r f

end Cert.Gcn

end
-- ==== Proof.Dense.lean ====
/-
  The host's dense products, bias rows and reshapes read at an entry.

  A dense product of a [n, K] array with a [K, m] array holds, at (r, f), the sum over k of x[r, k] · w[k, f].
  A bias of length 64 spread over the rows holds b[k] at (r, k); a length-1 bias spread over one column holds its entry.
  A vector of length n read as a column holds v[r] at (r, 0), and a column read as a vector holds its (r, 0) entry at r.
-/
import proofs.«181710_j67044439491025_2_alg».proof.Proof.Spec
import Idealize.ShloMosaic.PureOps.Ideal.Laws
import Idealize.ShloMosaic.Lib.Pipeline.Value
import Idealize.ShloMosaic.Lib.ValueIdx

set_option maxRecDepth 16384

noncomputable section

namespace Cert.Gcn

open Idealize.ShloMosaic Idealize.ShloMosaic.ValueIdx Cert.ReferenceIdeal Cert.ReferenceIdeal.Facts₀

/-- The host's dense product read at an entry: row `r` of the left operand against column `f` of the right. -/
theorem dot128_apply (x : FVec Ideal S100000x128 .f32) (w : FVec Ideal S128x64 .f32) (r : Fin 100000) (f : Fin 64) :
    Host.dotGeneral (F := Ideal) dot_S100000x128_S128x64_S100000x64_1_0_0_1_n_n none x w (ix2 r f) = ∑ k : Fin 128, x (ix2 r k) * w (ix2 k f) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : DotDims.lhsIdx dot_S100000x128_S128x64_S100000x64_1_0_0_1_n_n (ix2 r f : S100000x64.Idx) ((contrEquiv1 dot_S100000x128_S128x64_S100000x64_1_0_0_1_n_n 128 rfl rfl).symm k) = (ix2 r k : S100000x128.Idx) :=
    funext fun a => Fin.ext (by
      match a with
      | ⟨0, _⟩ =>
        show (DotDims.lhsIdx dot_S100000x128_S128x64_S100000x64_1_0_0_1_n_n (ix2 r f : S100000x64.Idx) _ 0).val = r.val
        unfold DotDims.lhsIdx
        rw [dif_neg (show ¬(0 : Fin S100000x128.rank) ∈ DotDims.lhsBatch dot_S100000x128_S128x64_S100000x64_1_0_0_1_n_n by decide),
          dif_pos (show (0 : Fin S100000x128.rank) ∈ DotDims.lhsNonContracting dot_S100000x128_S128x64_S100000x64_1_0_0_1_n_n by decide)]
        rfl
      | ⟨1, _⟩ => exact (DotDims.lhsIdx_val_of_single dot_S100000x128_S128x64_S100000x64_1_0_0_1_n_n rfl (ix2 r f : S100000x64.Idx) _).trans hk)
  have er : DotDims.rhsIdx dot_S100000x128_S128x64_S100000x64_1_0_0_1_n_n (ix2 r f : S100000x64.Idx) ((contrEquiv1 dot_S100000x128_S128x64_S100000x64_1_0_0_1_n_n 128 rfl rfl).symm k) = (ix2 k f : S128x64.Idx) :=
    funext fun a => Fin.ext (by
      match a with
      | ⟨0, _⟩ => exact (DotDims.rhsIdx_val_of_single dot_S100000x128_S128x64_S100000x64_1_0_0_1_n_n rfl (ix2 r f : S100000x64.Idx) _).trans hk
      | ⟨1, _⟩ =>
        show (DotDims.rhsIdx dot_S100000x128_S128x64_S100000x64_1_0_0_1_n_n (ix2 r f : S100000x64.Idx) _ 1).val = f.val
        unfold DotDims.rhsIdx
        rw [dif_neg (show ¬(1 : Fin S128x64.rank) ∈ DotDims.rhsBatch dot_S100000x128_S128x64_S100000x64_1_0_0_1_n_n by decide),
          dif_pos (show (1 : Fin S128x64.rank) ∈ DotDims.rhsNonContracting dot_S100000x128_S128x64_S100000x64_1_0_0_1_n_n by decide)]
        rfl)
  rw [el, er]

/-- The host's dense product read at an entry: row `r` of the left operand against column `f` of the right. -/
theorem dot64_apply (x : FVec Ideal S100000x64 .f32) (w : FVec Ideal S64x64 .f32) (r : Fin 100000) (f : Fin 64) :
    Host.dotGeneral (F := Ideal) dot_S100000x64_S64x64_S100000x64_1_0_0_1_n_n none x w (ix2 r f) = ∑ k : Fin 64, x (ix2 r k) * w (ix2 k f) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : DotDims.lhsIdx dot_S100000x64_S64x64_S100000x64_1_0_0_1_n_n (ix2 r f : S100000x64.Idx) ((contrEquiv1 dot_S100000x64_S64x64_S100000x64_1_0_0_1_n_n 64 rfl rfl).symm k) = (ix2 r k : S100000x64.Idx) :=
    funext fun a => Fin.ext (by
      match a with
      | ⟨0, _⟩ =>
        show (DotDims.lhsIdx dot_S100000x64_S64x64_S100000x64_1_0_0_1_n_n (ix2 r f : S100000x64.Idx) _ 0).val = r.val
        unfold DotDims.lhsIdx
        rw [dif_neg (show ¬(0 : Fin S100000x64.rank) ∈ DotDims.lhsBatch dot_S100000x64_S64x64_S100000x64_1_0_0_1_n_n by decide),
          dif_pos (show (0 : Fin S100000x64.rank) ∈ DotDims.lhsNonContracting dot_S100000x64_S64x64_S100000x64_1_0_0_1_n_n by decide)]
        rfl
      | ⟨1, _⟩ => exact (DotDims.lhsIdx_val_of_single dot_S100000x64_S64x64_S100000x64_1_0_0_1_n_n rfl (ix2 r f : S100000x64.Idx) _).trans hk)
  have er : DotDims.rhsIdx dot_S100000x64_S64x64_S100000x64_1_0_0_1_n_n (ix2 r f : S100000x64.Idx) ((contrEquiv1 dot_S100000x64_S64x64_S100000x64_1_0_0_1_n_n 64 rfl rfl).symm k) = (ix2 k f : S64x64.Idx) :=
    funext fun a => Fin.ext (by
      match a with
      | ⟨0, _⟩ => exact (DotDims.rhsIdx_val_of_single dot_S100000x64_S64x64_S100000x64_1_0_0_1_n_n rfl (ix2 r f : S100000x64.Idx) _).trans hk
      | ⟨1, _⟩ =>
        show (DotDims.rhsIdx dot_S100000x64_S64x64_S100000x64_1_0_0_1_n_n (ix2 r f : S100000x64.Idx) _ 1).val = f.val
        unfold DotDims.rhsIdx
        rw [dif_neg (show ¬(1 : Fin S64x64.rank) ∈ DotDims.rhsBatch dot_S100000x64_S64x64_S100000x64_1_0_0_1_n_n by decide),
          dif_pos (show (1 : Fin S64x64.rank) ∈ DotDims.rhsNonContracting dot_S100000x64_S64x64_S100000x64_1_0_0_1_n_n by decide)]
        rfl)
  rw [el, er]

/-- The host's dense product read at an entry: row `r` of the left operand against column 0 of the right. -/
theorem dot1_apply (x : FVec Ideal S100000x64 .f32) (w : FVec Ideal S64x1 .f32) (r : Fin 100000) (f : Fin 1) :
    Host.dotGeneral (F := Ideal) dot_S100000x64_S64x1_S100000x1_1_0_0_1_n_n none x w (ix2 r f) = ∑ k : Fin 64, x (ix2 r k) * w (ix2 k f) := by
  simp only [Host.dotGeneral]
  rw [Ideal.dotGeneral_apply, ← Equiv.sum_comp (contrEquiv1 dot_S100000x64_S64x1_S100000x1_1_0_0_1_n_n 64 rfl rfl).symm]
  refine Finset.sum_congr rfl fun k _ => ?_
  have hk := contrEquiv1_symm_val dot_S100000x64_S64x1_S100000x1_1_0_0_1_n_n 64 rfl rfl k
  have el : DotDims.lhsIdx dot_S100000x64_S64x1_S100000x1_1_0_0_1_n_n (ix2 r f : S100000x1.Idx) ((contrEquiv1 dot_S100000x64_S64x1_S100000x1_1_0_0_1_n_n 64 rfl rfl).symm k) = (ix2 r k : S100000x64.Idx) :=
    funext fun a => Fin.ext (by
      match a with
      | ⟨0, _⟩ =>
        show (DotDims.lhsIdx dot_S100000x64_S64x1_S100000x1_1_0_0_1_n_n (ix2 r f : S100000x1.Idx) _ 0).val = r.val
        unfold DotDims.lhsIdx
        rw [dif_neg (show ¬(0 : Fin S100000x64.rank) ∈ DotDims.lhsBatch dot_S100000x64_S64x1_S100000x1_1_0_0_1_n_n by decide),
          dif_pos (show (0 : Fin S100000x64.rank) ∈ DotDims.lhsNonContracting dot_S100000x64_S64x1_S100000x1_1_0_0_1_n_n by decide)]
        rfl
      | ⟨1, _⟩ => exact (DotDims.lhsIdx_val_of_single dot_S100000x64_S64x1_S100000x1_1_0_0_1_n_n rfl (ix2 r f : S100000x1.Idx) _).trans hk)
  have er : DotDims.rhsIdx dot_S100000x64_S64x1_S100000x1_1_0_0_1_n_n (ix2 r f : S100000x1.Idx) ((contrEquiv1 dot_S100000x64_S64x1_S100000x1_1_0_0_1_n_n 64 rfl rfl).symm k) = (ix2 k f : S64x1.Idx) :=
    funext fun a => Fin.ext (by
      match a with
      | ⟨0, _⟩ => exact (DotDims.rhsIdx_val_of_single dot_S100000x64_S64x1_S100000x1_1_0_0_1_n_n rfl (ix2 r f : S100000x1.Idx) _).trans hk
      | ⟨1, _⟩ =>
        show (DotDims.rhsIdx dot_S100000x64_S64x1_S100000x1_1_0_0_1_n_n (ix2 r f : S100000x1.Idx) _ 1).val = f.val
        unfold DotDims.rhsIdx
        rw [dif_neg (show ¬(1 : Fin S64x1.rank) ∈ DotDims.rhsBatch dot_S100000x64_S64x1_S100000x1_1_0_0_1_n_n by decide),
          dif_pos (show (1 : Fin S64x1.rank) ∈ DotDims.rhsNonContracting dot_S100000x64_S64x1_S100000x1_1_0_0_1_n_n by decide)]
        rfl)
  rw [el, er]

/-- A length-64 bias spread over the rows. -/
theorem bias_rows_apply (b : FVec Ideal S64 .f32) (r : Fin 100000) (k : Fin 64) :
    broadcastInDim S100000x64 ![0, 1] bcast_S1x64_S100000x64_0_1 (broadcastInDim S1x64 ![1] bcast_S64_S1x64_1 b) (ix2 r k)
      = b (ix1 k) := by
  rw [broadcastInDim_apply _ _ _ (ix2 r k) (ix2 (0 : Fin 1) k) (fun a => by match a with | ⟨0, _⟩ => rfl | ⟨1, _⟩ => rfl)]
  exact broadcastInDim_apply _ _ b _ (ix1 k) (fun a => by match a with | ⟨0, _⟩ => rfl)

/-- The output bias spread over the one output column. -/
theorem bias_out_apply (bo : FVec Ideal S1 .f32) (r : Fin 100000) :
    broadcastInDim S100000x1 ![0, 1] bcast_S1x1_S100000x1_0_1 (broadcastInDim S1x1 ![1] bcast_S1_S1x1_1 bo) (ix2 r (0 : Fin 1))
      = bo (ix1 (0 : Fin 1)) := by
  rw [broadcastInDim_apply _ _ _ (ix2 r (0 : Fin 1)) (ix2 (0 : Fin 1) (0 : Fin 1)) (fun a => by match a with | ⟨0, _⟩ => rfl | ⟨1, _⟩ => rfl)]
  exact broadcastInDim_apply _ _ bo _ (ix1 (0 : Fin 1)) (fun a => by match a with | ⟨0, _⟩ => rfl)

/-- A length-64 vector read as one row. -/
theorem row64_apply (b : FVec Ideal S64 .f32) (h : S64.ShapeCasts S1x64) (k : Fin 64) :
    shapeCast S1x64 b h (ix2 (0 : Fin 1) k) = b (ix1 k) :=
  shapeCast_apply b h _ (ix1 k) (by rw [Shape.rowMajor_val_one, Shape.rowMajor_val_two]; show k.val = 0 * 64 + k.val; omega)

/-- A length-1 vector read as a 1 × 1 array. -/
theorem row1_apply (bo : FVec Ideal S1 .f32) (h : S1.ShapeCasts S1x1) :
    shapeCast S1x1 bo h (ix2 (0 : Fin 1) (0 : Fin 1)) = bo (ix1 (0 : Fin 1)) :=
  shapeCast_apply bo h _ (ix1 (0 : Fin 1)) (by rw [Shape.rowMajor_val_one, Shape.rowMajor_val_two]; show 0 = 0 * 1 + 0; omega)

/-- A length-100000 vector read as a column. -/
theorem column_apply (v : FVec Ideal S100000 .f32) (h : S100000.ShapeCasts S100000x1) (r : Fin 100000) :
    shapeCast S100000x1 v h (ix2 r (0 : Fin 1)) = v (ix1 r) :=
  shapeCast_apply v h _ (ix1 r) (by rw [Shape.rowMajor_val_one, Shape.rowMajor_val_two]; show r.val = r.val * 1 + 0; omega)

/-- A column read as a length-100000 vector. -/
theorem uncolumn_apply (v : FVec Ideal S100000x1 .f32) (h : S100000x1.ShapeCasts S100000) (r : Fin 100000) :
    shapeCast S100000 v h (ix1 r) = v (ix2 r (0 : Fin 1)) :=
  shapeCast_apply v h _ (ix2 r (0 : Fin 1)) (by rw [Shape.rowMajor_val_one, Shape.rowMajor_val_two]; show r.val * 1 + 0 = r.val; omega)

end Cert.Gcn

end
-- ==== Proof.Bridge.lean ====
/-
  The kernel's result is the reference's result.

  Layer by layer. Write `A` for a layer's dense product (rows of the previous activations times the weights). The kernel
  holds `P = A · d` (each row scaled by its own node's factor `d`); its aggregation of `P`, scaled by the factor of row
  `r`, is the reference's aggregation of `A` (the aggregation law), so after the bias and the clamp at zero both programs
  hold the same activations; the next dense product of equal activations is equal, and the kernel again holds it scaled
  by the factor. After three layers the readout — a dense product with one column plus the output bias — is taken of
  equal activations.

  The argument uses nothing of the factor and of the two aggregations but the aggregation law between them. It is
  therefore written for ANY factor vector `d` and ANY two maps `aK`, `aR` of node arrays that satisfy the law, and
  read at the node factor and the two arrangements of the edge aggregation in the last lines.
-/
import proofs.«181710_j67044439491025_2_alg».proof.Proof.Algebra
import proofs.«181710_j67044439491025_2_alg».proof.Proof.Dense

set_option maxRecDepth 16384

noncomputable section

namespace Cert.Gcn

open Idealize.ShloMosaic Idealize.ShloMosaic.ValueIdx Cert.ReferenceIdeal Cert.ReferenceIdeal.Facts₀

/-! ## For any factor vector and any two aggregations that satisfy the law -/

section AnyAggregation
variable (d : FVec Ideal S100000 .f32) (hcol : S100000.ShapeCasts S100000x1)
variable (aK : FVec Ideal S100000x64 .bf16 → FVec Ideal S100000x64 .f32)
variable (aR : FVec Ideal S100000x64 .f32 → FVec Ideal S100000x64 .f32)

/-- One convolution of the reference after its dense product `A`, over the aggregation `aR`. -/
def convROf (A : FVec Ideal S100000x64 .f32) (b : FVec Ideal S64 .f32) : FVec Ideal S100000x64 .f32 :=
  maximumf (addf (aR A)
      (broadcastInDim S100000x64 ![0, 1] bcast_S1x64_S100000x64_0_1 (broadcastInDim S1x64 ![1] bcast_S64_S1x64_1 b)))
    zerosN64

/-- The reference's result over the aggregation `aR`. -/
def refOutOf (x : FVec Ideal S100000x128 .f32) (W1 : FVec Ideal S128x64 .f32) (b1 : FVec Ideal S64 .f32)
    (W2 : FVec Ideal S64x64 .f32) (b2 : FVec Ideal S64 .f32) (W3 : FVec Ideal S64x64 .f32) (b3 : FVec Ideal S64 .f32)
    (Wo : FVec Ideal S64x1 .f32) (bo : FVec Ideal S1 .f32) : FVec Ideal S100000 .f32 :=
  shapeCast S100000
    (addf
      (Host.dotGeneral (F := Ideal) dot_S100000x64_S64x1_S100000x1_1_0_0_1_n_n none
        (convROf aR (Host.dotGeneral (F := Ideal) dot_S100000x64_S64x64_S100000x64_1_0_0_1_n_n none
          (convROf aR (Host.dotGeneral (F := Ideal) dot_S100000x64_S64x64_S100000x64_1_0_0_1_n_n none
            (convROf aR (Host.dotGeneral (F := Ideal) dot_S100000x128_S128x64_S100000x64_1_0_0_1_n_n none x W1) b1)
            W2) b2)
          W3) b3)
        Wo)
      (broadcastInDim S100000x1 ![0, 1] bcast_S1x1_S100000x1_0_1 (broadcastInDim S1x1 ![1] bcast_S1_S1x1_1 bo)))
    shapeCasts_S100000x1_S100000

/-- The kernel's result over the factor column `dc` and the aggregation `aK`. -/
def kernelOutOf (dc : FVec Ideal S100000x1 .f32) (x : FVec Ideal S100000x128 .f32) (W1 : FVec Ideal S128x64 .f32)
    (b1 : FVec Ideal S64 .f32) (W2 : FVec Ideal S64x64 .f32) (b2 : FVec Ideal S64 .f32) (W3 : FVec Ideal S64x64 .f32)
    (b3 : FVec Ideal S64 .f32) (Wo : FVec Ideal S64x1 .f32) (bo : FVec Ideal S1 .f32) : FVec Ideal S100000 .f32 :=
  shapeCast S100000
    (readout
      (aK (projH
        (aK (projH
          (aK (proj0 x W1 dc))
          (shapeCast S1x64 b1 (by decide)) W2 dc))
        (shapeCast S1x64 b2 (by decide)) W3 dc))
      (shapeCast S1x64 b3 (by decide)) dc Wo (shapeCast S1x1 bo (by decide)))
    shapeCasts_S100000x1_S100000

/-- The arrays of the specification read at an entry. -/
theorem proj0_apply (x : FVec Ideal S100000x128 .f32) (w : FVec Ideal S128x64 .f32) (dc : FVec Ideal S100000x1 .f32)
    (r : Fin 100000) (f : Fin 64) : proj0 x w dc (ix2 r f) = proj0At x w dc r f := rfl
theorem projH_apply (agg : FVec Ideal S100000x64 .f32) (b : FVec Ideal S1x64 .f32) (w : FVec Ideal S64x64 .f32)
    (dc : FVec Ideal S100000x1 .f32) (r : Fin 100000) (f : Fin 64) : projH agg b w dc (ix2 r f) = projHAt agg b w dc r f := rfl
theorem readout_apply (agg : FVec Ideal S100000x64 .f32) (b : FVec Ideal S1x64 .f32) (dc : FVec Ideal S100000x1 .f32)
    (wo : FVec Ideal S64x1 .f32) (bo : FVec Ideal S1x1 .f32) (r : Fin 100000) (o : Fin 1) :
    readout agg b dc wo bo (ix2 r o) = readoutAt agg b dc wo bo r := rfl

/-- The zero the reference clamps at, read at an entry, is the zero word. -/
theorem zerosN64_apply (r : Fin 100000) (k : Fin 64) : zerosN64 (ix2 r k) = z0 := rfl

variable (hagg : ∀ (A : FVec Ideal S100000x64 .f32) (r : Fin 100000) (f : Fin 64),
  aK (fun q => A q * d (ix1 (q 0))) (ix2 r f) * d (ix1 r) = aR A (ix2 r f))

/-- The kernel's first projection is the reference's first dense product, each row scaled by its node's factor. -/
theorem proj0_eq_any (x : FVec Ideal S100000x128 .f32) (W1 : FVec Ideal S128x64 .f32) :
    proj0 x W1 (shapeCast S100000x1 d hcol)
      = fun q => Host.dotGeneral (F := Ideal) dot_S100000x128_S128x64_S100000x64_1_0_0_1_n_n none x W1 q * d (ix1 (q 0)) := by
  funext q
  obtain ⟨r, f, rfl⟩ : ∃ (r : Fin 100000) (f : Fin 64), q = ix2 r f := ⟨q 0, q 1, eq_ix2 q⟩
  rw [proj0_apply]
  unfold proj0At
  rw [column_apply, dot128_apply]

include hagg in
/-- After the bias and the clamp, the kernel's hidden activations are the reference's. -/
theorem hid_eq_any (A : FVec Ideal S100000x64 .f32) (b : FVec Ideal S64 .f32) (h : S64.ShapeCasts S1x64) (r : Fin 100000) (k : Fin 64) :
    hidAt (aK (fun q => A q * d (ix1 (q 0)))) (shapeCast S1x64 b h) (shapeCast S100000x1 d hcol) r k
      = convROf aR A b (ix2 r k) := by
  unfold hidAt convROf
  rw [column_apply, row64_apply, hagg, maximumf_apply, addf_apply, bias_rows_apply, zerosN64_apply]

include hagg in
/-- A later projection of the kernel is the reference's dense product of its activations, each row scaled by its node's factor. -/
theorem projH_eq_any (A : FVec Ideal S100000x64 .f32) (b : FVec Ideal S64 .f32) (h : S64.ShapeCasts S1x64) (W : FVec Ideal S64x64 .f32) :
    projH (aK (fun q => A q * d (ix1 (q 0)))) (shapeCast S1x64 b h) W (shapeCast S100000x1 d hcol)
      = fun q => Host.dotGeneral (F := Ideal) dot_S100000x64_S64x64_S100000x64_1_0_0_1_n_n none (convROf aR A b) W q
          * d (ix1 (q 0)) := by
  funext q
  obtain ⟨r, f, rfl⟩ : ∃ (r : Fin 100000) (f : Fin 64), q = ix2 r f := ⟨q 0, q 1, eq_ix2 q⟩
  rw [projH_apply]
  unfold projHAt
  rw [column_apply, dot64_apply]
  refine congrArg (· * d (ix1 r)) (Finset.sum_congr rfl fun k _ => ?_)
  rw [hid_eq_any d hcol aK aR hagg]

include hagg in
/-- The kernel's readout is the reference's. -/
theorem readout_eq_any (A : FVec Ideal S100000x64 .f32) (b : FVec Ideal S64 .f32) (h : S64.ShapeCasts S1x64)
    (Wo : FVec Ideal S64x1 .f32) (bo : FVec Ideal S1 .f32) (h' : S1.ShapeCasts S1x1) (r : Fin 100000) :
    readoutAt (aK (fun q => A q * d (ix1 (q 0)))) (shapeCast S1x64 b h) (shapeCast S100000x1 d hcol) Wo (shapeCast S1x1 bo h') r
      = Host.dotGeneral (F := Ideal) dot_S100000x64_S64x1_S100000x1_1_0_0_1_n_n none (convROf aR A b) Wo (ix2 r (0 : Fin 1))
        + broadcastInDim S100000x1 ![0, 1] bcast_S1x1_S100000x1_0_1 (broadcastInDim S1x1 ![1] bcast_S1_S1x1_1 bo) (ix2 r (0 : Fin 1)) := by
  unfold readoutAt
  rw [row1_apply, bias_out_apply, dot1_apply]
  refine congrArg (· + bo (ix1 (0 : Fin 1))) (Finset.sum_congr rfl fun k _ => ?_)
  rw [hid_eq_any d hcol aK aR hagg]

include hagg in
/-- The two compositions agree. -/
theorem layers_any (x : FVec Ideal S100000x128 .f32) (W1 : FVec Ideal S128x64 .f32) (b1 : FVec Ideal S64 .f32)
    (W2 : FVec Ideal S64x64 .f32) (b2 : FVec Ideal S64 .f32) (W3 : FVec Ideal S64x64 .f32) (b3 : FVec Ideal S64 .f32)
    (Wo : FVec Ideal S64x1 .f32) (bo : FVec Ideal S1 .f32) :
    kernelOutOf aK (shapeCast S100000x1 d hcol) x W1 b1 W2 b2 W3 b3 Wo bo = refOutOf aR x W1 b1 W2 b2 W3 b3 Wo bo := by
  funext i
  obtain ⟨r, rfl⟩ : ∃ r : Fin 100000, i = ix1 r := ⟨i 0, eq_ix1 i⟩
  unfold kernelOutOf refOutOf
  rw [uncolumn_apply, uncolumn_apply, readout_apply, addf_apply, proj0_eq_any d hcol, projH_eq_any d hcol aK aR hagg,
    projH_eq_any d hcol aK aR hagg, readout_eq_any d hcol aK aR hagg]

end AnyAggregation

/-! ## At the node factor and the two arrangements of the edge aggregation -/

section
variable (srcv dstv : IVec S1700000 32)

/-- The reference's convolution is the one over its aggregation. -/
theorem convR_eq (A : FVec Ideal S100000x64 .f32) (b : FVec Ideal S64 .f32) :
    convR srcv dstv A b = convROf (aggR srcv dstv) A b := by
  unfold convR convROf
  rfl

/-- The two programs compute the same array from the same edge words and float arguments. -/
theorem kernelOut_eq_refOut (x : FVec Ideal S100000x128 .f32) (W1 : FVec Ideal S128x64 .f32) (b1 : FVec Ideal S64 .f32)
    (W2 : FVec Ideal S64x64 .f32) (b2 : FVec Ideal S64 .f32) (W3 : FVec Ideal S64x64 .f32) (b3 : FVec Ideal S64 .f32)
    (Wo : FVec Ideal S64x1 .f32) (bo : FVec Ideal S1 .f32) :
    kernelOut srcv dstv x W1 b1 W2 b2 W3 b3 Wo bo = refOut srcv dstv x W1 b1 W2 b2 W3 b3 Wo bo := by
  have hK : kernelOut srcv dstv x W1 b1 W2 b2 W3 b3 Wo bo
      = kernelOutOf (aggK srcv dstv) (shapeCast S100000x1 (dinv dstv) (by decide)) x W1 b1 W2 b2 W3 b3 Wo bo := by
    unfold kernelOut kernelOutOf dcol
    rfl
  have hR : refOut srcv dstv x W1 b1 W2 b2 W3 b3 Wo bo = refOutOf (aggR srcv dstv) x W1 b1 W2 b2 W3 b3 Wo bo := by
    unfold refOut refOutOf
    rw [convR_eq, convR_eq, convR_eq]
  rw [hK, hR]
  exact layers_any (dinv dstv) _ (aggK srcv dstv) (aggR srcv dstv) (agg_bridge srcv dstv) x W1 b1 W2 b2 W3 b3 Wo bo

end

end Cert.Gcn

end
-- ==== Proof.lean ====
/-
  A three-layer graph convolution network with a linear readout, over 100000 nodes and 1700000 edges (the 1600000 given
  edges followed by one self loop per node), computed two ways; at the ideal instance (every float an extended real, every
  operation exact, a change of float format the identity) the two results are the same array.

  With `s e`, `t e` the source and destination words of edge `e`, `deg i` the number of edges whose destination word
  is `i`, and `dinv i = deg i ^ (-1/2)` where `deg i > 0` and `0` elsewhere, one layer maps node features `h` to
      relu (Σ_{e : t e = i} (h W)[s e] · (dinv[s e] · dinv[t e]) + b).
  The reference computes that sum as written. The kernel scales row `j` of `h W` by `dinv j` in the dense stage that
  produces it, sums the gathered rows unscaled, and scales the sum by `dinv i` in the next dense stage, together with
  the bias, the clamp at zero and the next product. The two agree because an update lands on row `i` only when its
  destination word is `i` (so the reference's gathered destination factor is `dinv i`), because `dinv i` is a real
  number in `[0, ∞)` whatever the words are (so it distributes over a sum of extended reals), and because multiplication
  is associative. No input needs to be finite for this, and none is assumed.

  Modules: `Spec` states both results as functions of the edge words and the float arguments; `Region0` … `Region3`
  show that each of the kernel's four grids of row blocks leaves in its output array the dense stage `Spec` names;
  `KernelRun` and `KernelValue` read the kernel's result buffer back through its host stretches and grids to
  `Spec`'s `kernelOut`; `RefRun` is the reference's run with its result at `Spec`'s `refOut`; `EdgeIndex`, `Factor`,
  `Algebra`, `Dense` and `Bridge` prove `kernelOut = refOut`. Below, the five claims are put together.
-/
import proofs.«181710_j67044439491025_2_alg».proof.Defs
import proofs.«181710_j67044439491025_2_alg».proof.Proof.Gen.Kernel
import proofs.«181710_j67044439491025_2_alg».proof.Proof.Gen.Kernel.Skeleton
import proofs.«181710_j67044439491025_2_alg».proof.Proof.Gen.Kernel.Launch
import proofs.«181710_j67044439491025_2_alg».proof.Proof.Gen.Kernel.Points
import proofs.«181710_j67044439491025_2_alg».proof.Proof.Gen.Kernel.Frame
import proofs.«181710_j67044439491025_2_alg».proof.Proof.Gen.KernelIdeal
import proofs.«181710_j67044439491025_2_alg».proof.Proof.Gen.KernelIdeal.Skeleton
import proofs.«181710_j67044439491025_2_alg».proof.Proof.Gen.KernelIdeal.Launch
import proofs.«181710_j67044439491025_2_alg».proof.Proof.Gen.KernelIdeal.Points
import proofs.«181710_j67044439491025_2_alg».proof.Proof.Gen.KernelIdeal.Frame
import proofs.«181710_j67044439491025_2_alg».proof.Proof.Gen.ReferenceIdeal
import proofs.«181710_j67044439491025_2_alg».proof.Proof.Gen.Pre_finite_inputs
import proofs.«181710_j67044439491025_2_alg».proof.Proof.KernelRun
import proofs.«181710_j67044439491025_2_alg».proof.Proof.KernelValue
import proofs.«181710_j67044439491025_2_alg».proof.Proof.RefRun
import proofs.«181710_j67044439491025_2_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run, with the result forgotten. -/
theorem frame_referenceIdeal : Cert.frame_ReferenceIdeal := fun m ρ _ =>
  (θ_run Cert.ReferenceIdeal.defs _ _).mono (fun _ h c => (h c).2) (Cert.ReferenceIdeal.RefRun.run m ρ)

/-- The ideal pass rewrote no operation of the kernel: nothing to preserve. -/
theorem preserves : Cert.preserves_Kernel_KernelIdeal := trivial

/-- From memories that agree on the arguments both programs run, and end with the same result array: the kernel's at
    `kernelOut` of its arguments, the reference's at `refOut` of the same arguments, and the two are one function. -/
theorem algebraic : Cert.algebraic_KernelIdeal_ReferenceIdeal := by
  intro m ρ m' ρ' _ hagree
  refine ⟨fun c => Cert.Gcn.kernelOut (Cert.Gcn.srcOf (m ((c.tc : Thread Cert.KernelIdeal.nD Cert.KernelIdeal.τ).loc Cert.KernelIdeal.main_arg1))) (Cert.Gcn.dstOf (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.RunValue.value m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.RefRun.run m' ρ')
    obtain ⟨e0, e1, e2, e3, e4, e5, e6, e7, e8, e9⟩ := hagree c
    rw [e0, e1, e2, e3, e4, e5, e6, e7, e8, e9]
    exact (Cert.Gcn.kernelOut_eq_refOut _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
